-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S64 .f32) (main_arg16 : FVec F S64x16 .f32) (main_arg17 : FVec F S16 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x16 .f32 := Host.absf main_arg16
  let main_cst_28 : FVec F S_ .f32 := constant S_ .f32 0x7F800000#32
  let main_v75 : FVec F S64x16 .f32 := broadcastInDim S64x16 ![] bcast_S_S64x16 main_cst_28
  let main_v76 : IVec S64x16 1 := cmpf .olt main_v74 main_v75
  let main_c_29 : IVec S_ 1 := constantI S_ 1 1#1
  let main_v77 : IVec S_ 1 := (fun x v => Host.reduce IntOp.andi x v reducesTo_S64x16_S_d0_1 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg12 : FVec F S128x64 .f32) (main_arg13 : FVec F S64 .f32) (main_arg14 : FVec F S128x64 .f32) (main_arg15 : FVec F S64 .f32) (main_arg16 : FVec F S64x16 .f32) (main_arg17 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_v63 main_v67

def fn_part2 {F : FTy → Type} [FloatOps F] (main_arg8 : FVec F S64x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) (main_arg16 : FVec F S64x16 .f32) (main_arg17 : FVec F S16 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) (main_arg16 : FVec F S64x16 .f32) (main_arg17 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x64 .f32) (main_arg1 : IVec S2x800000 32) (main_arg2 : FVec F S800000 .f32) (main_arg3 : FVec F S50000x64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) (main_arg16 : FVec F S64x16 .f32) (main_arg17 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S1x16 : Shape := ⟨2, ![1, 16]⟩
abbrev S50000x16 : Shape := ⟨2, ![50000, 16]⟩
abbrev S2000x64 : Shape := ⟨2, ![2000, 64]⟩
abbrev S2000x16 : Shape := ⟨2, ![2000, 16]⟩

abbrev nBuf : Space → Nat
  | .hbm => 103
  | .vmem => 19
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S50000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S128x64, .f32⟩
  | .hbm, ⟨15, _⟩ => ⟨S64, .f32⟩
  | .hbm, ⟨16, _⟩ => ⟨S64x16, .f32⟩
  | .hbm, ⟨17, _⟩ => ⟨S16, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S50000, .i32⟩
  | .hbm, ⟨23, _⟩ => ⟨S850000, .i32⟩
  | .hbm, ⟨24, _⟩ => ⟨S850000, .i32⟩
  | .hbm, ⟨25, _⟩ => ⟨S_, .f32⟩
  | .hbm, ⟨26, _⟩ => ⟨S50000, .f32⟩
  | .hbm, ⟨27, _⟩ => ⟨S850000, .f32⟩
  | .hbm, ⟨28, _⟩ => ⟨S_, .f32⟩
  | .hbm, ⟨29, _⟩ => ⟨S50000, .f32⟩
  | .hbm, ⟨30, _⟩ => ⟨S850000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000, .f32⟩
  | .hbm, ⟨62, _⟩ => ⟨S850000, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S64x64, .f32⟩
  | .hbm, ⟨80, _⟩ => ⟨S64x64, .f32⟩
  | .hbm, ⟨81, _⟩ => ⟨S64x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S64x64, .f32⟩
  | .hbm, ⟨94, _⟩ => ⟨S64x64, .f32⟩
  | .hbm, ⟨95, _⟩ => ⟨S64x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x16, .f32⟩
  | .hbm, ⟨101, _⟩ => ⟨S50000x16, .f32⟩
  | .hbm, ⟨102, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S64x16, .f32⟩
  | .local _ .vmem, ⟨14, _⟩ => ⟨S1x16, .f32⟩
  | .local _ .vmem, ⟨15, _⟩ => ⟨S2000x16, .f32⟩
  | .local _ .vmem, ⟨16, _⟩ => ⟨S2000x16, .f32⟩
  | .local _ .vmem, ⟨17, _⟩ => ⟨S2000x64, .f32⟩
  | .local _ .vmem, ⟨18, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69_0 : Ref sig .tc := ⟨.hbm, 101, rfl⟩
abbrev main_v69_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  slices_S128x64_S64x64_0_0 : S128x64.Slices ![0, 0] S64x64
  slices_S128x64_S64x64_64_0 : S128x64.Slices ![64, 0] S64x64
  bcast_S64_S1x64_1 : S64.BroadcastsInDim S1x64 (![1] : Fin 1 → Fin S1x64.rank)
  shapeCasts_S16_S1x16 : S16.ShapeCasts S1x16
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S64x64_S64x64_S64x64_1_0_0_1_n_n_wf : DotDims.WF S64x64 S64x64 S64x64 [1] [0] [0] [1] [] []
  dot_S1x64_S64x64_S1x64_1_0_0_1_n_n_wf : DotDims.WF S1x64 S64x64 S1x64 [1] [0] [0] [1] [] []
  dot_S2000x64_S64x64_S2000x64_1_0_0_1_n_n_wf : DotDims.WF S2000x64 S64x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x16.size a ≤ S64x16.size a
  hwx0_11 : ∀ i : grid0.Coords, EltTy.bits .f32 = 32 ∨ (Rect.block (s := S64x16) S64x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x16.size a ≤ S1x16.size a
  hwx0_12 : ∀ i : grid0.Coords, EltTy.bits .f32 = 32 ∨ (Rect.block (s := S1x16) S1x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x16.size a ≤ S50000x16.size a
  hwx0_13 : ∀ i : grid0.Coords, EltTy.bits .f32 = 32 ∨ (Rect.block (s := S50000x16) S2000x16.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x64.size a ≤ S50000x64.size a
  hwx0_14 : ∀ i : grid0.Coords, EltTy.bits .f32 = 32 ∨ (Rect.block (s := S50000x64) S2000x64.size (cc0_transform_14 i) (hinb0_14 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_v46) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v63) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v62) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v67) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg16) S64x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v68) S1x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v69_0) S2000x16.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v69_1) S2000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x128 : Shape := ⟨2, ![50000, 128]⟩
abbrev S50000x16 : Shape := ⟨2, ![50000, 16]⟩
abbrev S1x16 : Shape := ⟨2, ![1, 16]⟩

abbrev nBuf : Space → Nat
  | .hbm => 263
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000x64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S128x64, .f32⟩
  | 13 => ⟨S64, .f32⟩
  | 14 => ⟨S128x64, .f32⟩
  | 15 => ⟨S64, .f32⟩
  | 16 => ⟨S64x16, .f32⟩
  | 17 => ⟨S16, .f32⟩
  | 18 => ⟨S1x800000, .i32⟩
  | 19 => ⟨S800000, .i32⟩
  | 20 => ⟨S1x800000, .i32⟩
  | 21 => ⟨S800000, .i32⟩
  | 22 => ⟨S50000x64, .f32⟩
  | 23 => ⟨S50000, .i32⟩
  | 24 => ⟨S850000, .i32⟩
  | 25 => ⟨S850000, .i32⟩
  | 26 => ⟨S_, .f32⟩
  | 27 => ⟨S50000, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x64, .f32⟩
  | 73 => ⟨S850000x1, .f32⟩
  | 74 => ⟨S850000x64, .f32⟩
  | 75 => ⟨S850000x64, .f32⟩
  | 76 => ⟨S_, .f32⟩
  | 77 => ⟨S50000x64, .f32⟩
  | 78 => ⟨S850000x1, .i32⟩
  | 79 => ⟨S50000x64, .f32⟩
  | 80 => ⟨S1x64, .f32⟩
  | 81 => ⟨S50000x64, .f32⟩
  | 82 => ⟨S50000x64, .f32⟩
  | 83 => ⟨S50000x128, .f32⟩
  | 84 => ⟨S50000x64, .f32⟩
  | 85 => ⟨S1x64, .f32⟩
  | 86 => ⟨S50000x64, .f32⟩
  | 87 => ⟨S50000x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S50000, .i32⟩
  | 98 => ⟨S850000, .i32⟩
  | 99 => ⟨S850000, .i32⟩
  | 100 => ⟨S_, .f32⟩
  | 101 => ⟨S50000, .f32⟩
  | 102 => ⟨S850000, .f32⟩
  | 103 => ⟨S_, .f32⟩
  | 104 => ⟨S50000, .f32⟩
  | 105 => ⟨S850000x1, .i32⟩
  | 106 => ⟨S50000, .f32⟩
  | 107 => ⟨S_, .f32⟩
  | 108 => ⟨S50000, .f32⟩
  | 109 => ⟨S50000, .i1⟩
  | 110 => ⟨S_, .f32⟩
  | 111 => ⟨S50000, .f32⟩
  | 112 => ⟨S50000, .f32⟩
  | 113 => ⟨S50000, .f32⟩
  | 114 => ⟨S_, .f32⟩
  | 115 => ⟨S_, .f32⟩
  | 116 => ⟨S50000, .f32⟩
  | 117 => ⟨S50000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x64, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000, .f32⟩
  | 9 => ⟨S850000, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x64, .f32⟩
  | 19 => ⟨S850000x1, .f32⟩
  | 20 => ⟨S850000x64, .f32⟩
  | 21 => ⟨S850000x64, .f32⟩
  | 22 => ⟨S_, .f32⟩
  | 23 => ⟨S50000x64, .f32⟩
  | 24 => ⟨S850000x1, .i32⟩
  | 25 => ⟨S50000x64, .f32⟩
  | 26 => ⟨S1x64, .f32⟩
  | 27 => ⟨S50000x64, .f32⟩
  | 28 => ⟨S50000x64, .f32⟩
  | 29 => ⟨S50000x128, .f32⟩
  | 30 => ⟨S50000x64, .f32⟩
  | 31 => ⟨S1x64, .f32⟩
  | 32 => ⟨S50000x64, .f32⟩
  | 33 => ⟨S50000x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S50000x64, .f32⟩
  | 43 => ⟨S50000, .i32⟩
  | 44 => ⟨S850000, .i32⟩
  | 45 => ⟨S850000, .i32⟩
  | 46 => ⟨S_, .f32⟩
  | 47 => ⟨S50000, .f32⟩
  | 48 => ⟨S850000, .f32⟩
  | 49 => ⟨S_, .f32⟩
  | 50 => ⟨S50000, .f32⟩
  | 51 => ⟨S850000x1, .i32⟩
  | 52 => ⟨S50000, .f32⟩
  | 53 => ⟨S_, .f32⟩
  | 54 => ⟨S50000, .f32⟩
  | 55 => ⟨S50000, .i1⟩
  | 56 => ⟨S_, .f32⟩
  | 57 => ⟨S50000, .f32⟩
  | 58 => ⟨S50000, .f32⟩
  | 59 => ⟨S50000, .f32⟩
  | 60 => ⟨S_, .f32⟩
  | 61 => ⟨S_, .f32⟩
  | 62 => ⟨S50000, .f32⟩
  | 63 => ⟨S50000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S850000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x64, .f32⟩
  | 93 => ⟨S850000x1, .f32⟩
  | 94 => ⟨S850000x64, .f32⟩
  | 95 => ⟨S850000x64, .f32⟩
  | 96 => ⟨S_, .f32⟩
  | 97 => ⟨S50000x64, .f32⟩
  | 98 => ⟨S850000x1, .i32⟩
  | 99 => ⟨S50000x64, .f32⟩
  | 100 => ⟨S1x64, .f32⟩
  | 101 => ⟨S50000x64, .f32⟩
  | 102 => ⟨S50000x64, .f32⟩
  | 103 => ⟨S50000x64, .f32⟩
  | 104 => ⟨S50000x128, .f32⟩
  | 105 => ⟨S50000x64, .f32⟩
  | 106 => ⟨S1x64, .f32⟩
  | 107 => ⟨S50000x64, .f32⟩
  | 108 => ⟨S50000x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S50000x64, .f32⟩
  | 115 => ⟨S50000x64, .f32⟩
  | 116 => ⟨S_, .f32⟩
  | 117 => ⟨S50000x64, .f32⟩
  | 118 => ⟨S50000x64, .i1⟩
  | 119 => ⟨S_, .f32⟩
  | 120 => ⟨S50000x64, .f32⟩
  | 121 => ⟨S50000x64, .i1⟩
  | 122 => ⟨S_, .f32⟩
  | 123 => ⟨S_, .f32⟩
  | 124 => ⟨S50000x64, .f32⟩
  | 125 => ⟨S50000x64, .f32⟩
  | 126 => ⟨S50000x64, .f32⟩
  | 127 => ⟨S_, .f32⟩
  | _ => ⟨S50000x64, .f32⟩

abbrev hbmTy0_2 (i : Nat) : BufTy := match i % 128 with
  | 0 => ⟨S50000x64, .f32⟩
  | 1 => ⟨S50000x64, .f32⟩
  | 2 => ⟨S50000x64, .f32⟩
  | 3 => ⟨S50000x16, .f32⟩
  | 4 => ⟨S1x16, .f32⟩
  | 5 => ⟨S50000x16, .f32⟩
  | 6 => ⟨S50000x16, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_call1_v0 : Ref sig .tc := ⟨.hbm, 115, rfl⟩
abbrev main_call1_v1 : Ref sig .tc := ⟨.hbm, 116, rfl⟩
abbrev main_v76 : Ref sig .tc := ⟨.hbm, 117, rfl⟩
abbrev main_c_17 : Ref sig .tc := ⟨.hbm, 118, rfl⟩
abbrev main_v77 : Ref sig .tc := ⟨.hbm, 119, rfl⟩
abbrev main_v78 : Ref sig .tc := ⟨.hbm, 120, rfl⟩
abbrev main_c_18 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_19 : Ref sig .tc := ⟨.hbm, 128, rfl⟩
abbrev main_v85 : Ref sig .tc := ⟨.hbm, 129, rfl⟩
abbrev main_v86 : Ref sig .tc := ⟨.hbm, 130, rfl⟩
abbrev main_c_20 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_21 : Ref sig .tc := ⟨.hbm, 138, rfl⟩
abbrev main_v93 : Ref sig .tc := ⟨.hbm, 139, rfl⟩
abbrev main_v94 : Ref sig .tc := ⟨.hbm, 140, rfl⟩
abbrev main_c_22 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_23 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_24 : Ref sig .tc := ⟨.hbm, 164, rfl⟩
abbrev main_v116 : Ref sig .tc := ⟨.hbm, 165, rfl⟩
abbrev main_v117 : Ref sig .tc := ⟨.hbm, 166, rfl⟩
abbrev main_cst_25 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_26 : Ref sig .tc := ⟨.hbm, 174, rfl⟩
abbrev main_v124 : Ref sig .tc := ⟨.hbm, 175, rfl⟩
abbrev main_v125 : Ref sig .tc := ⟨.hbm, 176, rfl⟩
abbrev main_cst_27 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_cst_29 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_30 : Ref sig .tc := ⟨.hbm, 188, rfl⟩
abbrev main_call2_v0 : Ref sig .tc := ⟨.hbm, 189, rfl⟩
abbrev main_call2_v1 : Ref sig .tc := ⟨.hbm, 190, rfl⟩
abbrev main_v134 : Ref sig .tc := ⟨.hbm, 191, rfl⟩
abbrev main_c_31 : Ref sig .tc := ⟨.hbm, 192, rfl⟩
abbrev main_v135 : Ref sig .tc := ⟨.hbm, 193, rfl⟩
abbrev main_v136 : Ref sig .tc := ⟨.hbm, 194, rfl⟩
abbrev main_c_32 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_c_33 : Ref sig .tc := ⟨.hbm, 202, rfl⟩
abbrev main_v143 : Ref sig .tc := ⟨.hbm, 203, rfl⟩
abbrev main_v144 : Ref sig .tc := ⟨.hbm, 204, rfl⟩
abbrev main_c_34 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_c_35 : Ref sig .tc := ⟨.hbm, 212, rfl⟩
abbrev main_v151 : Ref sig .tc := ⟨.hbm, 213, rfl⟩
abbrev main_v152 : Ref sig .tc := ⟨.hbm, 214, rfl⟩
abbrev main_c_36 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_cst_37 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_cst_38 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_call3_cst : Ref sig .tc := ⟨.hbm, 244, rfl⟩
abbrev main_call3_v0 : Ref sig .tc := ⟨.hbm, 245, rfl⟩
abbrev main_call3_v1 : Ref sig .tc := ⟨.hbm, 246, rfl⟩
abbrev main_call3_cst_0 : Ref sig .tc := ⟨.hbm, 247, rfl⟩
abbrev main_call3_v2 : Ref sig .tc := ⟨.hbm, 248, rfl⟩
abbrev main_call3_v3 : Ref sig .tc := ⟨.hbm, 249, rfl⟩
abbrev main_call3_cst_1 : Ref sig .tc := ⟨.hbm, 250, rfl⟩
abbrev main_call3_call0_v0 : Ref sig .tc := ⟨.hbm, 251, rfl⟩
abbrev main_call3_call0_v1 : Ref sig .tc := ⟨.hbm, 252, rfl⟩
abbrev main_call3_v4 : Ref sig .tc := ⟨.hbm, 253, rfl⟩
abbrev main_call3_v5 : Ref sig .tc := ⟨.hbm, 254, rfl⟩
abbrev main_call3_cst_2 : Ref sig .tc := ⟨.hbm, 255, rfl⟩
abbrev main_call3_v6 : Ref sig .tc := ⟨.hbm, 256, rfl⟩
abbrev main_call3_v7 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x128_S128x64_S50000x64_1_0_0_1_n_n_wf : DotDims.WF S50000x128 S128x64 S50000x64 [1] [0] [0] [1] [] []
  dot_S50000x64_S64x16_S50000x16_1_0_0_1_n_n_wf : DotDims.WF S50000x64 S64x16 S50000x16 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.Spec.lean ====
/-
  The gated recurrent cell, one node at a time, over the extended reals.

  A node has a row `a` of 64 aggregated features and a row `h` of 64 hidden features. Each of the three gates has two
  64×64 weight matrices `W`, `U` and a bias row `b`; a gate's pre-activation at column `j` is
  `a·W[:,j] + h·U[:,j] + b[j]`. The update gate is `z = σ(pre_z)`, the reset gate `r = σ(pre_r)`, the candidate
  `tanh` of the third pre-activation taken at the row `h ⊙ r` in place of `h`, and the new hidden row is
  `z ⊙ h + (1 − z) ⊙ candidate`. The output row is the exponential linear unit of the new hidden row (the row itself
  where positive, `exp − 1` elsewhere) times a 64×16 matrix plus a bias row. Nothing here mentions a program.
-/
import Idealize.ShloMosaic.PureOps.Ideal
import Idealize.ShloMosaic.Lib.ValueIdx

noncomputable section

open scoped BigOperators

namespace Cert.Gru

open Idealize.ShloMosaic Idealize.ShloMosaic.ValueIdx

/-- A matrix of extended reals, indexed as the arrays are. -/
abbrev Mat (r c : Nat) : Type := (⟨2, ![r, c]⟩ : Shape).Idx → EReal

/-- The single-precision patterns of one and of zero, read exactly. -/
def one32 : EReal := Ideal.ofBits .f32 0x3F800000#32
def zero32 : EReal := Ideal.ofBits .f32 0x00000000#32

/-- A gate's pre-activation at column `j`: the aggregated row times `W`, plus the hidden row times `U`, plus the bias. -/
def logitRow (a h : Fin 64 → EReal) (W U : Mat 64 64) (b : Mat 1 64) (j : Fin 64) : EReal :=
  ((∑ k : Fin 64, a k * W (ix2 k j)) + ∑ k : Fin 64, h k * U (ix2 k j)) + b (ix2 0 j)

/-- The new hidden row at column `j`. -/
def hiddenRow (a h : Fin 64 → EReal) (Wz Uz : Mat 64 64) (bz : Mat 1 64) (Wr Ur : Mat 64 64) (br : Mat 1 64)
    (Wh Uh : Mat 64 64) (bh : Mat 1 64) (j : Fin 64) : EReal :=
  Ideal.logistic (logitRow a h Wz Uz bz j) * h j
    + (one32 - Ideal.logistic (logitRow a h Wz Uz bz j))
      * Ideal.tanh (logitRow a (fun k => h k * Ideal.logistic (logitRow a h Wr Ur br k)) Wh Uh bh j)

/-- The exponential linear unit with unit scale. -/
def elu (x : EReal) : EReal := Scalar.select (Ideal.cmp .ogt x zero32) x (Ideal.exp x - one32)

/-- The output row at column `j`. -/
def outRow (hid : Fin 64 → EReal) (Wl : Mat 64 16) (bl : Mat 1 16) (j : Fin 16) : EReal :=
  (∑ k : Fin 64, elu (hid k) * Wl (ix2 k j)) + bl (ix2 0 j)

/-- The whole hidden array: node `i`'s new hidden row from rows `i` of the aggregated and of the hidden features. -/
def hiddenArr {n : Nat} (A Hh : Mat n 64) (Wz Uz : Mat 64 64) (bz : Mat 1 64) (Wr Ur : Mat 64 64) (br : Mat 1 64)
    (Wh Uh : Mat 64 64) (bh : Mat 1 64) : Mat n 64 :=
  fun i => hiddenRow (fun k => A (ix2 (i 0) k)) (fun k => Hh (ix2 (i 0) k)) Wz Uz bz Wr Ur br Wh Uh bh (i 1)

/-- The whole output array. -/
def outArr {n : Nat} (A Hh : Mat n 64) (Wz Uz : Mat 64 64) (bz : Mat 1 64) (Wr Ur : Mat 64 64) (br : Mat 1 64)
    (Wh Uh : Mat 64 64) (bh : Mat 1 64) (Wl : Mat 64 16) (bl : Mat 1 16) : Mat n 16 :=
  fun i => outRow (fun k => hiddenRow (fun k' => A (ix2 (i 0) k')) (fun k' => Hh (ix2 (i 0) k')) Wz Uz bz Wr Ur br Wh Uh bh k)
    Wl bl (i 1)

/-! ## The same cell as the plain formulation spells it

  The plain formulation keeps the graph convolution's weights and the gate's 128×64 matrix apart: a gate's input row is
  the convolved row `c` (64 entries) followed by the hidden-term row `h` (64 entries), contracted with the 128 rows of
  `L`, plus a bias; the logistic function is written out as `1 / (1 + exp (−x))`, and the exponential linear unit as
  `exp − 1` applied where the entry is not positive and scaled by one. -/

/-- A gate's pre-activation at column `j` in the plain formulation. -/
def refLogitRow (c h : Fin 64 → EReal) (L : Mat 128 64) (lb : Fin 64 → EReal) (j : Fin 64) : EReal :=
  (∑ k : Fin 128, (if hk : k.val < 64 then c ⟨k.val, hk⟩ else h ⟨k.val - 64, by omega⟩) * L (ix2 k j)) + lb j

/-- The logistic function written out. -/
def sigR (x : EReal) : EReal := Ideal.div one32 (one32 + Ideal.exp (-x))

/-- The new hidden row at column `j` in the plain formulation, from the three convolved rows. -/
def refHiddenRow (cz cr ch h : Fin 64 → EReal) (Lz Lr Lh : Mat 128 64) (lbz lbr lbh : Fin 64 → EReal) (j : Fin 64) : EReal :=
  sigR (refLogitRow cz h Lz lbz j) * h j
    + (one32 - sigR (refLogitRow cz h Lz lbz j))
      * Ideal.tanh (refLogitRow ch (fun k => h k * sigR (refLogitRow cr h Lr lbr k)) Lh lbh j)

/-- The exponential linear unit as the plain formulation spells it. -/
def refElu (x : EReal) : EReal :=
  Scalar.select (Ideal.cmp .ogt x zero32) x
    (one32 * (Ideal.exp (Scalar.select (Ideal.cmp .ogt x zero32) zero32 x) - 1))

/-- The output row at column `j` in the plain formulation. -/
def refOutRow (hid : Fin 64 → EReal) (Wl : Mat 64 16) (bl : Fin 16 → EReal) (j : Fin 16) : EReal :=
  (∑ k : Fin 64, refElu (hid k) * Wl (ix2 k j)) + bl j

end Cert.Gru

end
-- ==== Proof.LibDot.lean ====
/-
  A matrix product with no batch axis, rows × contraction times contraction × columns, read at an entry: the sum over
  the contracted axis of the left operand's row entry times the right operand's column entry. Stated for any extents
  and for any two operand arrays over a commutative semiring's carrier, so that it serves a device's matrix unit and a
  host's dot product alike once each is written as a sum over the contraction index.
-/
import Idealize.ShloMosaic.PureOps.Ideal.Laws
import Idealize.ShloMosaic.Lib.ValueIdx

open scoped BigOperators

namespace Cert.LibDot

open Idealize.ShloMosaic Idealize.ShloMosaic.ValueIdx

/-- The left operand's index at output entry `j` and contraction position `k` is `(j 0, k)`. -/
theorem plain_lhsIdx {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  match a with
  | ⟨0, _⟩ => rfl
  | ⟨1, _⟩ =>
    show ((DotDims.plain M K N).lhsIdx j _ (1 : Fin 2)).val = k.val
    rw [DotDims.lhsIdx_val_of_single (DotDims.plain M K N) (cl := (1 : Fin 2)) rfl]
    exact contrEquiv1_symm_val (DotDims.plain M K N) K rfl rfl k

/-- The right operand's index at output entry `j` and contraction position `k` is `(k, j 1)`. -/
theorem plain_rhsIdx {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  match a with
  | ⟨0, _⟩ =>
    show ((DotDims.plain M K N).rhsIdx j _ (0 : Fin 2)).val = k.val
    rw [DotDims.rhsIdx_val_of_single (DotDims.plain M K N) (cr := (0 : Fin 2)) rfl]
    exact contrEquiv1_symm_val (DotDims.plain M K N) K rfl rfl k
  | ⟨1, _⟩ => rfl

/-- THE PLAIN PRODUCT'S SUM over the contraction shape is the sum over `Fin K` of row entry times column entry. -/
theorem plain_sum {R : Type*} [AddCommMonoid R] [Mul R] {M K N : Nat}
    (L : (⟨2, ![M, K]⟩ : Shape).Idx → R) (Rt : (⟨2, ![K, N]⟩ : Shape).Idx → R) (j : (⟨2, ![M, N]⟩ : Shape).Idx) :
    ∑ k : (DotDims.plain M K N).contr.Idx, L ((DotDims.plain M K N).lhsIdx j k) * Rt ((DotDims.plain M K N).rhsIdx j k)
      = ∑ k : Fin K, L (ix2 (j 0) k) * Rt (ix2 k (j 1)) := by
  rw [← Equiv.sum_comp (contrEquiv1 (DotDims.plain M K N) K rfl rfl).symm]
  refine Finset.sum_congr rfl fun k _ => ?_
  exact congr (congrArg _ (congrArg L (plain_lhsIdx j k))) (congrArg Rt (plain_rhsIdx j k))

/-- A matrix unit's product into the zero accumulator, at the exact instance and at entry `(p, q)`. -/
theorem matmul_zero_plain {M K N : Nat} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact plain_sum (R := EReal) lhs rhs (ix2 p q)

/-- A host's dot product with no batch axis, at the exact instance and at entry `(p, q)`. -/
theorem dotGeneral_plain {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact plain_sum (R := EReal) lhs rhs (ix2 p q)

end Cert.LibDot
-- ==== Proof.KerPay.lean ====
/-
  The idealized kernel's two stored values at one entry of a block: row `p` of the block of 2000 nodes goes through
  the gated recurrent cell, from row `p` of the two node blocks and the whole weight and bias blocks. At the exact
  instance a change of float format is the identity and each matrix-unit product is a plain sum.
-/
import proofs.«118302_j40037685133528_2_alg».proof.Proof.Gen.KernelIdeal.Skeleton
import proofs.«118302_j40037685133528_2_alg».proof.Proof.Spec
import proofs.«118302_j40037685133528_2_alg».proof.Proof.LibDot
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Gru

theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl
theorem exp_apply {s : Shape} {φ : FTy} (x : FVec Ideal s φ) (i : s.Idx) : exp x i = Ideal.exp (x i) := rfl

/-- A 2000×64 by 64×64 matrix-unit product into zero, at `(p, q)`. -/
theorem mm64 {φ₁ φ₂ : FTy} (L : FVec Ideal S2000x64 φ₁) (R : FVec Ideal S64x64 φ₂) (p : Fin 2000) (q : Fin 64) :
    matmul dot_S2000x64_S64x64_S2000x64_1_0_0_1_n_n none L R (constant S2000x64 .f32 0x00000000#32) (ix2 p q)
      = ∑ k : Fin 64, L (ix2 p k) * R (ix2 k q) :=
  Cert.LibDot.matmul_zero_plain dot_S2000x64_S64x64_S2000x64_1_0_0_1_n_n rfl none L R p q

/-- A 2000×64 by 64×16 matrix-unit product into zero, at `(p, q)`. -/
theorem mm16 {φ₁ φ₂ : FTy} (L : FVec Ideal S2000x64 φ₁) (R : FVec Ideal S64x16 φ₂) (p : Fin 2000) (q : Fin 16) :
    matmul dot_S2000x64_S64x16_S2000x16_1_0_0_1_n_n none L R (constant S2000x16 .f32 0x00000000#32) (ix2 p q)
      = ∑ k : Fin 64, L (ix2 p k) * R (ix2 k q) :=
  Cert.LibDot.matmul_zero_plain dot_S2000x64_S64x16_S2000x16_1_0_0_1_n_n rfl none L R p q

/-- A bias row spread over the 2000 rows, at `(p, q)`. -/
theorem bias64 (b : FVec Ideal S1x64 .f32) (p : Fin 2000) (q : Fin 64) :
    broadcastTo S2000x64 b broadcasts_S1x64_S2000x64 (ix2 p q) = b (ix2 0 q) :=
  broadcastTo_1b_ab_apply b broadcasts_S1x64_S2000x64 p q

theorem bias16 (b : FVec Ideal S1x16 .f32) (p : Fin 2000) (q : Fin 16) :
    broadcastTo S2000x16 b broadcasts_S1x16_S2000x16 (ix2 p q) = b (ix2 0 q) :=
  broadcastTo_1b_ab_apply b broadcasts_S1x16_S2000x16 p q

/-- The update gate at `(p, q)`. -/
theorem pay5_apply (v0 v2 : Vec Ideal S2000x64 .f32) (v5 v9 : Vec Ideal S64x64 .f32) (v14 : Vec Ideal S1x64 .f32)
    (p : Fin 2000) (q : Fin 64) :
    k0_pay5 (F := Ideal) v0 v2 v5 v9 v14 (ix2 p q)
      = Ideal.logistic (logitRow (fun k => v0 (ix2 p k)) (fun k => v2 (ix2 p k)) v5 v9 v14 q) := by
  unfold k0_pay5 k0_pay3 k0_pay4
  simp only [shapeCast_self, logistic_apply, addf_apply, mm64, bias64, truncf_apply]
  rfl

/-- The hidden entry times the reset gate at `(p, q)`. -/
theorem pay6_apply (v0 v2 : Vec Ideal S2000x64 .f32) (v19 v23 : Vec Ideal S64x64 .f32) (v28 : Vec Ideal S1x64 .f32)
    (p : Fin 2000) (q : Fin 64) :
    k0_pay6 (F := Ideal) v0 v2 v19 v23 v28 (ix2 p q)
      = v2 (ix2 p q) * Ideal.logistic (logitRow (fun k => v0 (ix2 p k)) (fun k => v2 (ix2 p k)) v19 v23 v28 q) := by
  unfold k0_pay6 k0_pay3 k0_pay4
  simp only [shapeCast_self, logistic_apply, addf_apply, mulf_apply, mm64, bias64, truncf_apply]
  rfl

/-- THE STORED HIDDEN BLOCK at `(p, q)`: node `p`'s new hidden row at column `q`. -/
theorem pay1_apply (v0 v2 : Vec Ideal S2000x64 .f32) (v5 v9 : Vec Ideal S64x64 .f32) (v14 : Vec Ideal S1x64 .f32)
    (v19 v23 : Vec Ideal S64x64 .f32) (v28 : Vec Ideal S1x64 .f32) (v34 v39 : Vec Ideal S64x64 .f32) (v44 : Vec Ideal S1x64 .f32)
    (p : Fin 2000) (q : Fin 64) :
    k0_pay1 (F := Ideal) v2 (k0_pay3 v0) (k0_pay5 v0 v2 v5 v9 v14) (k0_pay6 v0 v2 v19 v23 v28) (k0_pay7 v34) v39 v44 (ix2 p q)
      = hiddenRow (fun k => v0 (ix2 p k)) (fun k => v2 (ix2 p k)) v5 v9 v14 v19 v23 v28 v34 v39 v44 q := by
  unfold k0_pay1 k0_pay3 k0_pay7 hiddenRow
  simp only [shapeCast_self, tanh_apply, addf_apply, mulf_apply, subf_apply, broadcast_apply, mm64, bias64, truncf_apply,
    pay5_apply, pay6_apply]
  rfl

/-- THE STORED OUTPUT BLOCK at `(p, q)`: node `p`'s output row at column `q`. -/
theorem pay2_apply (v0 v2 : Vec Ideal S2000x64 .f32) (v5 v9 : Vec Ideal S64x64 .f32) (v14 : Vec Ideal S1x64 .f32)
    (v19 v23 : Vec Ideal S64x64 .f32) (v28 : Vec Ideal S1x64 .f32) (v34 v39 : Vec Ideal S64x64 .f32) (v44 : Vec Ideal S1x64 .f32)
    (v61 : Vec Ideal S64x16 .f32) (v64 : Vec Ideal S1x16 .f32) (p : Fin 2000) (q : Fin 16) :
    k0_pay2 (F := Ideal) v2 (k0_pay3 v0) (k0_pay5 v0 v2 v5 v9 v14) (k0_pay6 v0 v2 v19 v23 v28) (k0_pay7 v34) v39 v44 v61 v64 (ix2 p q)
      = outRow (fun k => hiddenRow (fun k' => v0 (ix2 p k')) (fun k' => v2 (ix2 p k')) v5 v9 v14 v19 v23 v28 v34 v39 v44 k)
          v61 v64 q := by
  unfold k0_pay2 outRow elu
  simp only [shapeCast_self, addf_apply, subf_apply, broadcast_apply, select_apply, cmpf_apply, exp_apply, mm16, bias16,
    truncf_apply, pay1_apply]
  rfl

end Cert.KernelIdeal.Pay

end
-- ==== Proof.KerBlocks.lean ====
/-
  The idealized kernel's two result arrays as whole arrays. The grid has 25 points; point `t` works on nodes
  `2000 t … 2000 t + 1999`: it stages rows `2000 t + p` of the aggregated features and of the hidden features, the whole
  of every weight and bias array, and writes back rows `2000 t + p` of the two results. The blocks tile the 50000 rows,
  so each result array ends as the gated recurrent cell applied node by node to the arrays the region finds.
-/
import proofs.«118302_j40037685133528_2_alg».proof.Proof.Gen.KernelIdeal.Value
import proofs.«118302_j40037685133528_2_alg».proof.Proof.KerPay
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.Gru

variable (m : (ℓ : Loc nD τ sig) → Buf (Elt Ideal) ℓ) (ρ : Dev nD → PrngReg)

theorem hz : (![0, 0] : Fin 2 → Nat) = fun _ => 0 := funext fun a => by fin_cases a <;> rfl

/-- The node windows and the result windows move with the grid point along the rows; decided over the 25 points. -/
theorem idx_n : ∀ t : Fin cfg0.N, win0_0.index t (0 : Fin 2) = t.val ∧ win0_0.index t (1 : Fin 2) = 0
    ∧ win0_1.index t (0 : Fin 2) = t.val ∧ win0_1.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- Every weight and bias window stays at block (0, 0); decided over the 25 points. -/
theorem idx_w : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

theorem t_lt (t : Fin cfg0.N) : t.val < 25 := t.isLt.trans_eq N_0

/-! ## The blocks as rows of the arrays -/

/-- Row `p` of window 0's block at point `t` is row `2000 t + p` of its array, whatever the array holds. -/
theorem blk0_read (t : Fin cfg0.N) (p : Fin 2000) (k : Fin 64) (n : Fin 50000) (hn : n.val = 2000 * t.val + p.val)
    (X : S50000x64.Idx → EReal) :
    ((cfg0.win 0).blk t).view.read (Elt Ideal) X (ix2 p k) = X (ix2 n k) := by
  obtain ⟨a0, b0, a1, b1, a13, b13, a14, b14⟩ := idx_n t
  rw [View.read_apply]
  refine congrArg X ?_
  funext a
  apply Fin.ext
  match a with
  | ⟨0, _⟩ => show win0_0.index t (0 : Fin 2) * 2000 + 1 * p.val = n.val; rw [a0, hn]; omega
  | ⟨1, _⟩ => show win0_0.index t (1 : Fin 2) * 64 + 1 * k.val = k.val; rw [b0]; omega

/-- Row `p` of window 1's block at point `t` is row `2000 t + p` of its array, whatever the array holds. -/
theorem blk1_read (t : Fin cfg0.N) (p : Fin 2000) (k : Fin 64) (n : Fin 50000) (hn : n.val = 2000 * t.val + p.val)
    (X : S50000x64.Idx → EReal) :
    ((cfg0.win 1).blk t).view.read (Elt Ideal) X (ix2 p k) = X (ix2 n k) := by
  obtain ⟨a0, b0, a1, b1, a13, b13, a14, b14⟩ := idx_n t
  rw [View.read_apply]
  refine congrArg X ?_
  funext a
  apply Fin.ext
  match a with
  | ⟨0, _⟩ => show win0_1.index t (0 : Fin 2) * 2000 + 1 * p.val = n.val; rw [a1, hn]; omega
  | ⟨1, _⟩ => show win0_1.index t (1 : Fin 2) * 64 + 1 * k.val = k.val; rw [b1]; omega

/-- Entry `(p, q)` of result window 13's block at point `t` sits at `(2000 t + p, q)` of the array. -/
theorem emb13_apply (t : Fin cfg0.N) (p : Fin 2000) (q : Fin 16) (n : Fin 50000) (hn : n.val = 2000 * t.val + p.val) :
    ((cfg0.win 13).blk t).view.emb (ix2 p q) = ix2 n q := by
  obtain ⟨a0, b0, a1, b1, a13, b13, a14, b14⟩ := idx_n t
  funext a
  apply Fin.ext
  match a with
  | ⟨0, _⟩ => show win0_13.index t (0 : Fin 2) * 2000 + 1 * p.val = n.val; rw [a13, hn]; omega
  | ⟨1, _⟩ => show win0_13.index t (1 : Fin 2) * 16 + 1 * q.val = q.val; rw [b13]; omega

/-- Entry `(p, q)` of result window 14's block at point `t` sits at `(2000 t + p, q)` of the array. -/
theorem emb14_apply (t : Fin cfg0.N) (p : Fin 2000) (q : Fin 64) (n : Fin 50000) (hn : n.val = 2000 * t.val + p.val) :
    ((cfg0.win 14).blk t).view.emb (ix2 p q) = ix2 n q := by
  obtain ⟨a0, b0, a1, b1, a13, b13, a14, b14⟩ := idx_n t
  funext a
  apply Fin.ext
  match a with
  | ⟨0, _⟩ => show win0_14.index t (0 : Fin 2) * 2000 + 1 * p.val = n.val; rw [a14, hn]; omega
  | ⟨1, _⟩ => show win0_14.index t (1 : Fin 2) * 64 + 1 * q.val = q.val; rw [b14]; omega

theorem iblk0_apply (c : Dev nD) (t : Fin cfg0.N) (p : Fin 2000) (k : Fin 64) (n : Fin 50000) (hn : n.val = 2000 * t.val + p.val) :
    (iblk m c 0 t : Vec Ideal S2000x64 .f32) (ix2 p k) = V m c main_v46 (ix2 n k) :=
  blk0_read t p k n hn (V m c main_v46)

theorem iblk1_apply (c : Dev nD) (t : Fin cfg0.N) (p : Fin 2000) (k : Fin 64) (n : Fin 50000) (hn : n.val = 2000 * t.val + p.val) :
    (iblk m c 1 t : Vec Ideal S2000x64 .f32) (ix2 p k) = V m c main_arg3 (ix2 n k) :=
  blk1_read t p k n hn (V m c main_arg3)

/-- Window 2's block is its whole array at every point. -/
theorem blk2_read (t : Fin cfg0.N) (X : S64x64.Idx → EReal) : ((cfg0.win 2).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_2.index t (0 : Fin 2) * 64 + 1 * (y 0).val = (y 0).val; rw [a2]; omega
  | ⟨1, _⟩ => show win0_2.index t (1 : Fin 2) * 64 + 1 * (y 1).val = (y 1).val; rw [b2]; omega

theorem iblk2_eq (c : Dev nD) (t : Fin cfg0.N) : (iblk m c 2 t : Vec Ideal S64x64 .f32) = V m c main_v49 :=
  blk2_read t (V m c main_v49)

/-- Window 3's block is its whole array at every point. -/
theorem blk3_read (t : Fin cfg0.N) (X : S64x64.Idx → EReal) : ((cfg0.win 3).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_3.index t (0 : Fin 2) * 64 + 1 * (y 0).val = (y 0).val; rw [a3]; omega
  | ⟨1, _⟩ => show win0_3.index t (1 : Fin 2) * 64 + 1 * (y 1).val = (y 1).val; rw [b3]; omega

theorem iblk3_eq (c : Dev nD) (t : Fin cfg0.N) : (iblk m c 3 t : Vec Ideal S64x64 .f32) = V m c main_v48 :=
  blk3_read t (V m c main_v48)

/-- Window 4's block is its whole array at every point. -/
theorem blk4_read (t : Fin cfg0.N) (X : S1x64.Idx → EReal) : ((cfg0.win 4).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_4.index t (0 : Fin 2) * 1 + 1 * (y 0).val = (y 0).val; rw [a4]; omega
  | ⟨1, _⟩ => show win0_4.index t (1 : Fin 2) * 64 + 1 * (y 1).val = (y 1).val; rw [b4]; omega

theorem iblk4_eq (c : Dev nD) (t : Fin cfg0.N) : (iblk m c 4 t : Vec Ideal S1x64 .f32) = V m c main_v53 :=
  blk4_read t (V m c main_v53)

/-- Window 5's block is its whole array at every point. -/
theorem blk5_read (t : Fin cfg0.N) (X : S64x64.Idx → EReal) : ((cfg0.win 5).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_5.index t (0 : Fin 2) * 64 + 1 * (y 0).val = (y 0).val; rw [a5]; omega
  | ⟨1, _⟩ => show win0_5.index t (1 : Fin 2) * 64 + 1 * (y 1).val = (y 1).val; rw [b5]; omega

theorem iblk5_eq (c : Dev nD) (t : Fin cfg0.N) : (iblk m c 5 t : Vec Ideal S64x64 .f32) = V m c main_v56 :=
  blk5_read t (V m c main_v56)

/-- Window 6's block is its whole array at every point. -/
theorem blk6_read (t : Fin cfg0.N) (X : S64x64.Idx → EReal) : ((cfg0.win 6).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_6.index t (0 : Fin 2) * 64 + 1 * (y 0).val = (y 0).val; rw [a6]; omega
  | ⟨1, _⟩ => show win0_6.index t (1 : Fin 2) * 64 + 1 * (y 1).val = (y 1).val; rw [b6]; omega

theorem iblk6_eq (c : Dev nD) (t : Fin cfg0.N) : (iblk m c 6 t : Vec Ideal S64x64 .f32) = V m c main_v55 :=
  blk6_read t (V m c main_v55)

/-- Window 7's block is its whole array at every point. -/
theorem blk7_read (t : Fin cfg0.N) (X : S1x64.Idx → EReal) : ((cfg0.win 7).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_7.index t (0 : Fin 2) * 1 + 1 * (y 0).val = (y 0).val; rw [a7]; omega
  | ⟨1, _⟩ => show win0_7.index t (1 : Fin 2) * 64 + 1 * (y 1).val = (y 1).val; rw [b7]; omega

theorem iblk7_eq (c : Dev nD) (t : Fin cfg0.N) : (iblk m c 7 t : Vec Ideal S1x64 .f32) = V m c main_v60 :=
  blk7_read t (V m c main_v60)

/-- Window 8's block is its whole array at every point. -/
theorem blk8_read (t : Fin cfg0.N) (X : S64x64.Idx → EReal) : ((cfg0.win 8).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_8.index t (0 : Fin 2) * 64 + 1 * (y 0).val = (y 0).val; rw [a8]; omega
  | ⟨1, _⟩ => show win0_8.index t (1 : Fin 2) * 64 + 1 * (y 1).val = (y 1).val; rw [b8]; omega

theorem iblk8_eq (c : Dev nD) (t : Fin cfg0.N) : (iblk m c 8 t : Vec Ideal S64x64 .f32) = V m c main_v63 :=
  blk8_read t (V m c main_v63)

/-- Window 9's block is its whole array at every point. -/
theorem blk9_read (t : Fin cfg0.N) (X : S64x64.Idx → EReal) : ((cfg0.win 9).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_9.index t (0 : Fin 2) * 64 + 1 * (y 0).val = (y 0).val; rw [a9]; omega
  | ⟨1, _⟩ => show win0_9.index t (1 : Fin 2) * 64 + 1 * (y 1).val = (y 1).val; rw [b9]; omega

theorem iblk9_eq (c : Dev nD) (t : Fin cfg0.N) : (iblk m c 9 t : Vec Ideal S64x64 .f32) = V m c main_v62 :=
  blk9_read t (V m c main_v62)

/-- Window 10's block is its whole array at every point. -/
theorem blk10_read (t : Fin cfg0.N) (X : S1x64.Idx → EReal) : ((cfg0.win 10).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_10.index t (0 : Fin 2) * 1 + 1 * (y 0).val = (y 0).val; rw [a10]; omega
  | ⟨1, _⟩ => show win0_10.index t (1 : Fin 2) * 64 + 1 * (y 1).val = (y 1).val; rw [b10]; omega

theorem iblk10_eq (c : Dev nD) (t : Fin cfg0.N) : (iblk m c 10 t : Vec Ideal S1x64 .f32) = V m c main_v67 :=
  blk10_read t (V m c main_v67)

/-- Window 11's block is its whole array at every point. -/
theorem blk11_read (t : Fin cfg0.N) (X : S64x16.Idx → EReal) : ((cfg0.win 11).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_11.index t (0 : Fin 2) * 64 + 1 * (y 0).val = (y 0).val; rw [a11]; omega
  | ⟨1, _⟩ => show win0_11.index t (1 : Fin 2) * 16 + 1 * (y 1).val = (y 1).val; rw [b11]; omega

theorem iblk11_eq (c : Dev nD) (t : Fin cfg0.N) : (iblk m c 11 t : Vec Ideal S64x16 .f32) = V m c main_arg16 :=
  blk11_read t (V m c main_arg16)

/-- Window 12's block is its whole array at every point. -/
theorem blk12_read (t : Fin cfg0.N) (X : S1x16.Idx → EReal) : ((cfg0.win 12).blk t).view.read (Elt Ideal) X = X := by
  obtain ⟨a2, b2, a3, b3, a4, b4, a5, b5, a6, b6, a7, b7, a8, b8, a9, b9, a10, b10, a11, b11, a12, b12⟩ := idx_w t
  funext y
  rw [View.read_apply]
  refine congrArg X ?_
  funext a
  apply Fin.ext
  match a with
  | ⟨0, _⟩ => show win0_12.index t (0 : Fin 2) * 1 + 1 * (y 0).val = (y 0).val; rw [a12]; omega
  | ⟨1, _⟩ => show win0_12.index t (1 : Fin 2) * 16 + 1 * (y 1).val = (y 1).val; rw [b12]; omega

theorem iblk12_eq (c : Dev nD) (t : Fin cfg0.N) : (iblk m c 12 t : Vec Ideal S1x16 .f32) = V m c main_v68 :=
  blk12_read t (V m c main_v68)

/-- Row `p` of window 13's block at point `t` is row `2000 t + p` of its array, whatever the array holds. -/
theorem blk13_read (t : Fin cfg0.N) (p : Fin 2000) (k : Fin 16) (n : Fin 50000) (hn : n.val = 2000 * t.val + p.val)
    (X : S50000x16.Idx → EReal) :
    ((cfg0.win 13).blk t).view.read (Elt Ideal) X (ix2 p k) = X (ix2 n k) := by
  obtain ⟨a0, b0, a1, b1, a13, b13, a14, b14⟩ := idx_n t
  rw [View.read_apply]
  refine congrArg X ?_
  funext a
  apply Fin.ext
  match a with
  | ⟨0, _⟩ => show win0_13.index t (0 : Fin 2) * 2000 + 1 * p.val = n.val; rw [a13, hn]; omega
  | ⟨1, _⟩ => show win0_13.index t (1 : Fin 2) * 16 + 1 * k.val = k.val; rw [b13]; omega

/-- Row `p` of window 14's block at point `t` is row `2000 t + p` of its array, whatever the array holds. -/
theorem blk14_read (t : Fin cfg0.N) (p : Fin 2000) (k : Fin 64) (n : Fin 50000) (hn : n.val = 2000 * t.val + p.val)
    (X : S50000x64.Idx → EReal) :
    ((cfg0.win 14).blk t).view.read (Elt Ideal) X (ix2 p k) = X (ix2 n k) := by
  obtain ⟨a0, b0, a1, b1, a13, b13, a14, b14⟩ := idx_n t
  rw [View.read_apply]
  refine congrArg X ?_
  funext a
  apply Fin.ext
  match a with
  | ⟨0, _⟩ => show win0_14.index t (0 : Fin 2) * 2000 + 1 * p.val = n.val; rw [a14, hn]; omega
  | ⟨1, _⟩ => show win0_14.index t (1 : Fin 2) * 64 + 1 * k.val = k.val; rw [b14]; omega

/-! ## The two result arrays -/

/-- The whole-array forms at an entry, for any arrays. -/
theorem hiddenArr_apply {n : Nat} (A Hh : Mat n 64) (Wz Uz : Mat 64 64) (bz : Mat 1 64) (Wr Ur : Mat 64 64) (br : Mat 1 64)
    (Wh Uh : Mat 64 64) (bh : Mat 1 64) (i : Fin n) (j : Fin 64) :
    hiddenArr A Hh Wz Uz bz Wr Ur br Wh Uh bh (ix2 i j)
      = hiddenRow (fun k => A (ix2 i k)) (fun k => Hh (ix2 i k)) Wz Uz bz Wr Ur br Wh Uh bh j := rfl

theorem outArr_apply {n : Nat} (A Hh : Mat n 64) (Wz Uz : Mat 64 64) (bz : Mat 1 64) (Wr Ur : Mat 64 64) (br : Mat 1 64)
    (Wh Uh : Mat 64 64) (bh : Mat 1 64) (Wl : Mat 64 16) (bl : Mat 1 16) (i : Fin n) (j : Fin 16) :
    outArr A Hh Wz Uz bz Wr Ur br Wh Uh bh Wl bl (ix2 i j)
      = outRow (fun k => hiddenRow (fun k' => A (ix2 i k')) (fun k' => Hh (ix2 i k')) Wz Uz bz Wr Ur br Wh Uh bh k) Wl bl j := rfl

/-- The hidden result: the cell applied node by node to the arrays the region finds. -/
def GH (c : Dev nD) : S50000x64.Idx → EReal :=
  hiddenArr (V m c main_v46) (V m c main_arg3) (V m c main_v49) (V m c main_v48) (V m c main_v53) (V m c main_v56) (V m c main_v55) (V m c main_v60) (V m c main_v63) (V m c main_v62) (V m c main_v67)

/-- The output result. -/
def GY (c : Dev nD) : S50000x16.Idx → EReal :=
  outArr (V m c main_v46) (V m c main_arg3) (V m c main_v49) (V m c main_v48) (V m c main_v53) (V m c main_v56) (V m c main_v55) (V m c main_v60) (V m c main_v63) (V m c main_v62) (V m c main_v67) (V m c main_arg16) (V m c main_v68)

/-- WHAT POINT `t` WRITES BACK to the hidden result is block `t` of `GH`. -/
theorem flushed14_eq (c : Dev nD) (t : Fin cfg0.N) :
    (dats m 0 c).flushed 14 t = ((cfg0.win 14).blk t).view.read (Elt Ideal) (GH m c) := by
  rw [Value.flushed14]
  unfold out0_14
  rw [View.canon_unit_zero hz]
  simp only [View.ld_unit_zero (S := S2000x64) hz, View.ld_unit_zero (S := S64x64) hz, View.ld_unit_zero (S := S1x64) hz]
  funext y
  obtain ⟨p, q, rfl⟩ : ∃ (p : Fin 2000) (q : Fin 64), y = ix2 p q := ⟨y 0, y 1, eq_ix2 y⟩
  have hp := t_lt t
  have hn : (⟨2000 * t.val + p.val, by omega⟩ : Fin 50000).val = 2000 * t.val + p.val := rfl
  refine Eq.trans ?_ (blk14_read t p q _ hn (GH m c)).symm
  show k0_pay1 (iblk m c 1 t) (k0_pay3 (iblk m c 0 t)) (k0_pay5 (iblk m c 0 t) (iblk m c 1 t) (iblk m c 2 t) (iblk m c 3 t) (iblk m c 4 t)) (k0_pay6 (iblk m c 0 t) (iblk m c 1 t) (iblk m c 5 t) (iblk m c 6 t) (iblk m c 7 t)) (k0_pay7 (iblk m c 8 t)) (iblk m c 9 t) (iblk m c 10 t) (ix2 p q) = _
  refine (Pay.pay1_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  simp only [fun k => iblk0_apply m c t p k _ hn, fun k => iblk1_apply m c t p k _ hn, iblk2_eq, iblk3_eq, iblk4_eq, iblk5_eq, iblk6_eq,
    iblk7_eq, iblk8_eq, iblk9_eq, iblk10_eq]
  unfold GH
  exact (hiddenArr_apply (V m c main_v46) (V m c main_arg3) (V m c main_v49) (V m c main_v48) (V m c main_v53) (V m c main_v56) (V m c main_v55) (V m c main_v60) (V m c main_v63) (V m c main_v62) (V m c main_v67) _ q).symm

/-- WHAT POINT `t` WRITES BACK to the output result is block `t` of `GY`. -/
theorem flushed13_eq (c : Dev nD) (t : Fin cfg0.N) :
    (dats m 0 c).flushed 13 t = ((cfg0.win 13).blk t).view.read (Elt Ideal) (GY m c) := by
  rw [Value.flushed13]
  unfold out0_13
  rw [View.canon_unit_zero hz]
  simp only [View.ld_unit_zero (S := S2000x64) hz, View.ld_unit_zero (S := S64x64) hz, View.ld_unit_zero (S := S1x64) hz,
    View.ld_unit_zero (S := S64x16) hz, View.ld_unit_zero (S := S1x16) hz]
  funext y
  obtain ⟨p, q, rfl⟩ : ∃ (p : Fin 2000) (q : Fin 16), y = ix2 p q := ⟨y 0, y 1, eq_ix2 y⟩
  have hp := t_lt t
  have hn : (⟨2000 * t.val + p.val, by omega⟩ : Fin 50000).val = 2000 * t.val + p.val := rfl
  refine Eq.trans ?_ (blk13_read t p q _ hn (GY m c)).symm
  show k0_pay2 (iblk m c 1 t) (k0_pay3 (iblk m c 0 t)) (k0_pay5 (iblk m c 0 t) (iblk m c 1 t) (iblk m c 2 t) (iblk m c 3 t) (iblk m c 4 t)) (k0_pay6 (iblk m c 0 t) (iblk m c 1 t) (iblk m c 5 t) (iblk m c 6 t) (iblk m c 7 t)) (k0_pay7 (iblk m c 8 t)) (iblk m c 9 t) (iblk m c 10 t) (iblk m c 11 t) (iblk m c 12 t) (ix2 p q) = _
  refine (Pay.pay2_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p q).trans ?_
  simp only [fun k => iblk0_apply m c t p k _ hn, fun k => iblk1_apply m c t p k _ hn, iblk2_eq, iblk3_eq, iblk4_eq, iblk5_eq, iblk6_eq,
    iblk7_eq, iblk8_eq, iblk9_eq, iblk10_eq, iblk11_eq, iblk12_eq]
  unfold GY
  exact (outArr_apply (V m c main_v46) (V m c main_arg3) (V m c main_v49) (V m c main_v48) (V m c main_v53) (V m c main_v56) (V m c main_v55) (V m c main_v60) (V m c main_v63) (V m c main_v62) (V m c main_v67) (V m c main_arg16) (V m c main_v68) _ q).symm

/-! ## The blocks tile the rows -/

theorem mem_blk14 (t : Fin cfg0.N) (i : S50000x64.Idx) :
    i ∈ ((cfg0.win 14).blk t).view.set ↔ ∀ a : Fin 2, win0_14.index t a * S2000x64.size a ≤ (i a).val ∧ (i a).val < win0_14.index t a * S2000x64.size a + S2000x64.size a := by
  show i ∈ ((View.whole main_v69_1).slice (win0_14.rect t)).set ↔ _
  rw [View.set_slice_whole, Rect.mem_set_unit]
  exact Iff.rfl

theorem mem_blk13 (t : Fin cfg0.N) (i : S50000x16.Idx) :
    i ∈ ((cfg0.win 13).blk t).view.set ↔ ∀ a : Fin 2, win0_13.index t a * S2000x16.size a ≤ (i a).val ∧ (i a).val < win0_13.index t a * S2000x16.size a + S2000x16.size a := by
  show i ∈ ((View.whole main_v69_0).slice (win0_13.rect t)).set ↔ _
  rw [View.set_slice_whole, Rect.mem_set_unit]
  exact Iff.rfl

/-- Row `r` of the hidden result is in the block of point `r / 2000`. -/
theorem cover14 (i : S50000x64.Idx) : ∃ t : Fin cfg0.N, (cfg0.win 14).flush t = true ∧ i ∈ ((cfg0.win 14).blk t).view.set := by
  have h0 : (i 0).val < 50000 := idx2_lt0 i
  have h1 : (i 1).val < 64 := idx2_lt1 i
  have htv : (Fin.cast N_0.symm (⟨(i 0).val / 2000, by omega⟩ : Fin 25) : Fin cfg0.N).val = (i 0).val / 2000 := rfl
  generalize (Fin.cast N_0.symm (⟨(i 0).val / 2000, by omega⟩ : Fin 25) : Fin cfg0.N) = t at htv
  obtain ⟨a0, b0, a1, b1, a13, b13, a14, b14⟩ := idx_n t
  refine ⟨t, flush0_14 t, ?_⟩
  rw [mem_blk14]
  intro a
  match a with
  | ⟨0, _⟩ => show win0_14.index t (0 : Fin 2) * 2000 ≤ (i 0).val ∧ (i 0).val < win0_14.index t (0 : Fin 2) * 2000 + 2000; rw [a14, htv]; omega
  | ⟨1, _⟩ => show win0_14.index t (1 : Fin 2) * 64 ≤ (i 1).val ∧ (i 1).val < win0_14.index t (1 : Fin 2) * 64 + 64; rw [b14]; omega

/-- Row `r` of the output result is in the block of point `r / 2000`. -/
theorem cover13 (i : S50000x16.Idx) : ∃ t : Fin cfg0.N, (cfg0.win 13).flush t = true ∧ i ∈ ((cfg0.win 13).blk t).view.set := by
  have h0 : (i 0).val < 50000 := idx2_lt0 i
  have h1 : (i 1).val < 16 := idx2_lt1 i
  have htv : (Fin.cast N_0.symm (⟨(i 0).val / 2000, by omega⟩ : Fin 25) : Fin cfg0.N).val = (i 0).val / 2000 := rfl
  generalize (Fin.cast N_0.symm (⟨(i 0).val / 2000, by omega⟩ : Fin 25) : Fin cfg0.N) = t at htv
  obtain ⟨a0, b0, a1, b1, a13, b13, a14, b14⟩ := idx_n t
  refine ⟨t, flush0_13 t, ?_⟩
  rw [mem_blk13]
  intro a
  match a with
  | ⟨0, _⟩ => show win0_13.index t (0 : Fin 2) * 2000 ≤ (i 0).val ∧ (i 0).val < win0_13.index t (0 : Fin 2) * 2000 + 2000; rw [a13, htv]; omega
  | ⟨1, _⟩ => show win0_13.index t (1 : Fin 2) * 16 ≤ (i 1).val ∧ (i 1).val < win0_13.index t (1 : Fin 2) * 16 + 16; rw [b13]; omega

/-- The hidden result array after the run. -/
theorem final14 (c : Dev nD) : (dats m 0 c).arrAt 14 cfg0.N = GH m c :=
  (dats m 0 c).arrAt_eq_of_cover 14 (GH m c) (fun t _ => flushed14_eq m c t) cover14

/-- The output result array after the run. -/
theorem final13 (c : Dev nD) : (dats m 0 c).arrAt 13 cfg0.N = GY m c :=
  (dats m 0 c).arrAt_eq_of_cover 13 (GY m c) (fun t _ => flushed13_eq m c t) cover13

/-- THE RUN, READ: every weakly fair execution ends with the two results at `GY` and `GH`, the arguments unchanged. -/
theorem run : θ_run defs (onTc (τ := τ) (main (F := Ideal))) ⟨m, fun _ => 0, ρ⟩ fun r => ∀ c : Dev nD,
      r.2.mem ((c : Thread nD τ).loc main_v69_0) = GY m c
      ∧ r.2.mem ((c : Thread nD τ).loc main_v69_1) = GH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final13 m c), (h c).2.1.trans (final14 m c), (h c).2.2⟩)
    (Value.run_blocks m ρ)

end Cert.KernelIdeal.Blocks

end
-- ==== Proof.HostSpec.lean ====
/-
  The graph-normalisation chain that runs on the host before the kernel region, named once, array by array, each
  the literal composition of the functions the listed operations apply. The graph has 50000 nodes and 800000
  weighted edges; a self loop of weight one is appended for every node, giving 850000 edges. From the edge list come
  the weighted in-degree of every node, its inverse square root (zero at an isolated node), the symmetric
  normalisation coefficient of every edge, and the aggregate of a feature matrix along the normalised edges.
  Also named: the folding of a first linear layer into the top half of a second one, and a vector read as a row.
-/
import proofs.«118302_j40037685133528_2_alg».proof.KernelIdeal

noncomputable section

namespace Cert.HostSpec

open Cert.KernelIdeal Idealize.ShloMosaic
open Cert.KernelIdeal.Facts₀

variable {F : FTy → Type} [FloatOps F] [Facts₀]

/-! ## The edge list with self loops -/

/-- Row `0` of the edge index, read as a vector: the source node of each of the 800000 given edges. -/
def srcRow (ei : IVec S2x800000 32) : IVec S800000 32 :=
  shapeCast S800000 (extractStridedSlice S1x800000 ![0, 0] ei slices_S2x800000_S1x800000_0_0) shapeCasts_S1x800000_S800000

/-- Row `1` of the edge index, read as a vector: the target node of each of the 800000 given edges. -/
def dstRow (ei : IVec S2x800000 32) : IVec S800000 32 :=
  shapeCast S800000 (extractStridedSlice S1x800000 ![1, 0] ei slices_S2x800000_S1x800000_1_0) shapeCasts_S1x800000_S800000

/-- The node numbers `0, 1, …, 49999`: both ends of the appended self loops. -/
def nodeIds : IVec S50000 32 := iotaInDim S50000 32 0

/-- The source node of every edge: the given sources, then node `n` for the self loop at `n`. -/
def src (ei : IVec S2x800000 32) : IVec S850000 32 :=
  concatenate S850000 0 [⟨S800000, srcRow ei⟩, ⟨S50000, nodeIds⟩] concatenates_S800000_S50000_S850000_d0

/-- The target node of every edge: the given targets, then node `n` for the self loop at `n`. -/
def dst (ei : IVec S2x800000 32) : IVec S850000 32 :=
  concatenate S850000 0 [⟨S800000, dstRow ei⟩, ⟨S50000, nodeIds⟩] concatenates_S800000_S50000_S850000_d0

/-- The weight of every edge: the given weights, then weight one for each self loop. -/
def wgt (ew : FVec F S800000 .f32) : FVec F S850000 .f32 :=
  concatenate S850000 0
    [⟨S800000, ew⟩, ⟨S50000, broadcastInDim S50000 ![] bcast_S_S50000 (constant S_ .f32 0x3F800000#32)⟩]
    concatenates_S800000_S50000_S850000_d0

/-- A vector of edge-end node numbers as a one-column matrix of row indices, unchanged. -/
def asCol (v : IVec S850000 32) : IVec S850000x1 32 :=
  broadcastInDim S850000x1 ![0] bcast_S850000_S850000x1_0 v

/-- The target node of every edge as a one-column matrix: the rows a scatter-add adds into. -/
def dstCol (ei : IVec S2x800000 32) : IVec S850000x1 32 := asCol (dst ei)

/-- A vector of node numbers as a one-column matrix of row indices for a gather, a negative number `v` first
    replaced by `v + 50000` (counting from the end). -/
def rowIdx (v : IVec S850000 32) : IVec S850000x1 32 :=
  asCol (select (cmpi .slt v (broadcastInDim S850000 ![] bcast_S_S850000 (constantI S_ 32 0#32)))
    (addi v (broadcastInDim S850000 ![] bcast_S_S850000 (constantI S_ 32 50000#32))) v)

/-! ## Degrees and normalisation coefficients -/

/-- The zero vector over the nodes. -/
def zeroNodes : FVec F S50000 .f32 :=
  broadcastInDim S50000 ![] bcast_S_S50000 (constant S_ .f32 0x00000000#32)

/-- The weighted in-degree of every node: the sum of the weights of the edges (self loop included) whose
    target it is, added into zero. -/
def deg (ei : IVec S2x800000 32) (ew : FVec F S800000 .f32) : FVec F S50000 .f32 :=
  Host.scatterAdd scatter_S50000_S850000x1_S850000_n_0_0_1 zeroNodes (dstCol ei) (wgt ew)

/-- The inverse square root of every node's degree: `1 / sqrt (max (deg, tiny))` where the degree is positive,
    and zero elsewhere (`tiny` is the small positive constant `1e-12`). -/
def dis (ei : IVec S2x800000 32) (ew : FVec F S800000 .f32) : FVec F S50000 .f32 :=
  select (cmpf .ogt (deg ei ew) zeroNodes)
    (Host.rsqrt (maximumf (deg ei ew) (broadcastInDim S50000 ![] bcast_S_S50000 (constant S_ .f32 0x2B8CBCCC#32))))
    zeroNodes

/-- The normalisation coefficient of every edge: its weight between the inverse square root degrees of its
    two ends, `(dis[src] * w) * dis[dst]`. -/
def norm (ei : IVec S2x800000 32) (ew : FVec F S800000 .f32) : FVec F S850000 .f32 :=
  mulf (mulf (Host.gather gather_S50000_S850000x1_S850000_n_0_n_n_0_1_1 (dis ei ew) (rowIdx (src ei))) (wgt ew))
    (Host.gather gather_S50000_S850000x1_S850000_n_0_n_n_0_1_1 (dis ei ew) (rowIdx (dst ei)))

/-- The coefficient of every edge repeated along 64 feature columns. -/
def normCols (ei : IVec S2x800000 32) (ew : FVec F S800000 .f32) : FVec F S850000x64 .f32 :=
  broadcastInDim S850000x64 ![0, 1] bcast_S850000x1_S850000x64_0_1
    (broadcastInDim S850000x1 ![0] bcast_S850000_S850000x1_0 (norm ei ew))

/-! ## The aggregate -/

/-- The normalised neighbourhood aggregate of a feature matrix `X`: row `n` is the sum, over the edges with target
    `n` (self loop included), of the source node's row of `X` times the edge's coefficient, added into zero. -/
def agg (X : FVec F S50000x64 .f32) (ei : IVec S2x800000 32) (ew : FVec F S800000 .f32) : FVec F S50000x64 .f32 :=
  Host.scatterAdd scatter_S50000x64_S850000x1_S850000x64_1_0_0_1
    (broadcastInDim S50000x64 ![] bcast_S_S50000x64 (constant S_ .f32 0x00000000#32))
    (dstCol ei)
    (mulf (Host.gather gather_S50000x64_S850000x1_S850000x64_1_0_n_n_0_1_164 X (rowIdx (src ei))) (normCols ei ew))

/-! ## A first layer folded into the top half of a second -/

/-- The top 64 rows of a 128-row weight matrix. -/
def top (L : FVec F S128x64 .f32) : FVec F S64x64 .f32 :=
  extractStridedSlice S64x64 ![0, 0] L slices_S128x64_S64x64_0_0

/-- The bottom 64 rows of a 128-row weight matrix. -/
def bot (L : FVec F S128x64 .f32) : FVec F S64x64 .f32 :=
  extractStridedSlice S64x64 ![64, 0] L slices_S128x64_S64x64_64_0

/-- The matrix product of a first layer's weights `W` with the top half of a second layer's weights `L`. -/
def foldW (W : FVec F S64x64 .f32) (L : FVec F S128x64 .f32) : FVec F S64x64 .f32 :=
  Host.dotGeneral dot_S64x64_S64x64_S64x64_1_0_0_1_n_n none W (top L)

/-- The first layer's bias `b` as a row, times the top half of `L`, plus the second layer's bias `Lb` as a row. -/
def foldB (b : FVec F S64 .f32) (L : FVec F S128x64 .f32) (Lb : FVec F S64 .f32) : FVec F S1x64 .f32 :=
  addf (Host.dotGeneral dot_S1x64_S64x64_S1x64_1_0_0_1_n_n none (broadcastInDim S1x64 ![1] bcast_S64_S1x64_1 b) (top L))
    (broadcastInDim S1x64 ![1] bcast_S64_S1x64_1 Lb)

/-- A vector of 16 entries read as a matrix of one row. -/
def row16 (b : FVec F S16 .f32) : FVec F S1x16 .f32 :=
  shapeCast S1x16 b shapeCasts_S16_S1x16

end Cert.HostSpec

end
-- ==== Proof.KerHost.lean ====
/-
  What the kernel region finds in the eleven arrays that the host operations before it wrote and that its windows
  stage: each is one of the named arrays of the graph-normalisation chain, applied to the argument arrays as
  launched. (Of the thirteen staged input arrays the other two are argument arrays no host operation writes.)
  Each statement is the computation of the listed host operations read at one result buffer.
-/
import proofs.«118302_j40037685133528_2_alg».proof.Proof.HostSpec
import proofs.«118302_j40037685133528_2_alg».proof.Proof.Gen.KernelIdeal.Frame

noncomputable section

namespace Cert.KernelIdeal.HostVals

open Idealize.ShloMosaic Idealize.ShloMosaic.TcCoe Idealize.ShloMosaic.Tactic
open Idealize.SL Idealize.SL.Sem
open Cert.KernelIdeal Cert.KernelIdeal.Gen

variable {F : FTy → Type} [FloatOps F]

/-! ## The aggregate of the first argument along the normalised edges -/

theorem V_v46 (m : (ℓ : Loc nD τ sig) → Buf (Elt F) ℓ) (c : Dev nD) :
    (V m c main_v46 : S50000x64.Idx → Elt F .f32) = HostSpec.agg (m ((c : Thread nD τ).loc main_arg0)) (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results_simp
  rfl

/-! ## The three folded layers: product of weights, bottom half, folded bias -/

theorem V_v49 (m : (ℓ : Loc nD τ sig) → Buf (Elt F) ℓ) (c : Dev nD) :
    (V m c main_v49 : S64x64.Idx → Elt F .f32) = HostSpec.foldW (m ((c : Thread nD τ).loc main_arg4)) (m ((c : Thread nD τ).loc main_arg10)) := by
  dsimp only [Gen.V]
  simp only [Gen.hostOps0, Gen.hostOps0_1, Gen.hostOps0_2, List.flatten_cons, List.flatten_nil, List.append_nil,
    List.cons_append, List.nil_append]
  after_results_simp
  rfl

theorem V_v48 (m : (ℓ : Loc nD τ sig) → Buf (Elt F) ℓ) (c : Dev nD) :
    (V m c main_v48 : S64x64.Idx → Elt F .f32) = HostSpec.bot (m ((c : Thread nD τ).loc main_arg10)) := by
  dsimp only [Gen.V]
  simp only [Gen.hostOps0, Gen.hostOps0_1, Gen.hostOps0_2, List.flatten_cons, List.flatten_nil, List.append_nil,
    List.cons_append, List.nil_append]
  after_results_simp
  rfl

theorem V_v53 (m : (ℓ : Loc nD τ sig) → Buf (Elt F) ℓ) (c : Dev nD) :
    (V m c main_v53 : S1x64.Idx → Elt F .f32) = HostSpec.foldB (m ((c : Thread nD τ).loc main_arg5)) (m ((c : Thread nD τ).loc main_arg10)) (m ((c : Thread nD τ).loc main_arg11)) := by
  dsimp only [Gen.V]
  simp only [Gen.hostOps0, Gen.hostOps0_1, Gen.hostOps0_2, List.flatten_cons, List.flatten_nil, List.append_nil,
    List.cons_append, List.nil_append]
  after_results_simp
  rfl

theorem V_v56 (m : (ℓ : Loc nD τ sig) → Buf (Elt F) ℓ) (c : Dev nD) :
    (V m c main_v56 : S64x64.Idx → Elt F .f32) = HostSpec.foldW (m ((c : Thread nD τ).loc main_arg6)) (m ((c : Thread nD τ).loc main_arg12)) := by
  dsimp only [Gen.V]
  simp only [Gen.hostOps0, Gen.hostOps0_1, Gen.hostOps0_2, List.flatten_cons, List.flatten_nil, List.append_nil,
    List.cons_append, List.nil_append]
  after_results_simp
  rfl

theorem V_v55 (m : (ℓ : Loc nD τ sig) → Buf (Elt F) ℓ) (c : Dev nD) :
    (V m c main_v55 : S64x64.Idx → Elt F .f32) = HostSpec.bot (m ((c : Thread nD τ).loc main_arg12)) := by
  dsimp only [Gen.V]
  simp only [Gen.hostOps0, Gen.hostOps0_1, Gen.hostOps0_2, List.flatten_cons, List.flatten_nil, List.append_nil,
    List.cons_append, List.nil_append]
  after_results_simp
  rfl

theorem V_v60 (m : (ℓ : Loc nD τ sig) → Buf (Elt F) ℓ) (c : Dev nD) :
    (V m c main_v60 : S1x64.Idx → Elt F .f32) = HostSpec.foldB (m ((c : Thread nD τ).loc main_arg7)) (m ((c : Thread nD τ).loc main_arg12)) (m ((c : Thread nD τ).loc main_arg13)) := by
  dsimp only [Gen.V]
  simp only [Gen.hostOps0, Gen.hostOps0_1, Gen.hostOps0_2, List.flatten_cons, List.flatten_nil, List.append_nil,
    List.cons_append, List.nil_append]
  after_results_simp
  rfl

theorem V_v63 (m : (ℓ : Loc nD τ sig) → Buf (Elt F) ℓ) (c : Dev nD) :
    (V m c main_v63 : S64x64.Idx → Elt F .f32) = HostSpec.foldW (m ((c : Thread nD τ).loc main_arg8)) (m ((c : Thread nD τ).loc main_arg14)) := by
  dsimp only [Gen.V]
  simp only [Gen.hostOps0, Gen.hostOps0_1, Gen.hostOps0_2, List.flatten_cons, List.flatten_nil, List.append_nil,
    List.cons_append, List.nil_append]
  after_results_simp
  rfl

theorem V_v62 (m : (ℓ : Loc nD τ sig) → Buf (Elt F) ℓ) (c : Dev nD) :
    (V m c main_v62 : S64x64.Idx → Elt F .f32) = HostSpec.bot (m ((c : Thread nD τ).loc main_arg14)) := by
  dsimp only [Gen.V]
  simp only [Gen.hostOps0, Gen.hostOps0_1, Gen.hostOps0_2, List.flatten_cons, List.flatten_nil, List.append_nil,
    List.cons_append, List.nil_append]
  after_results_simp
  rfl

theorem V_v67 (m : (ℓ : Loc nD τ sig) → Buf (Elt F) ℓ) (c : Dev nD) :
    (V m c main_v67 : S1x64.Idx → Elt F .f32) = HostSpec.foldB (m ((c : Thread nD τ).loc main_arg9)) (m ((c : Thread nD τ).loc main_arg14)) (m ((c : Thread nD τ).loc main_arg15)) := by
  dsimp only [Gen.V]
  simp only [Gen.hostOps0, Gen.hostOps0_1, Gen.hostOps0_2, List.flatten_cons, List.flatten_nil, List.append_nil,
    List.cons_append, List.nil_append]
  after_results_simp
  rfl

/-! ## The last bias as a row -/

theorem V_v68 (m : (ℓ : Loc nD τ sig) → Buf (Elt F) ℓ) (c : Dev nD) :
    (V m c main_v68 : S1x16.Idx → Elt F .f32) = HostSpec.row16 (m ((c : Thread nD τ).loc main_arg17)) := by
  dsimp only [Gen.V]
  simp only [Gen.hostOps0, Gen.hostOps0_1, Gen.hostOps0_2, List.flatten_cons, List.flatten_nil, List.append_nil,
    List.cons_append, List.nil_append]
  after_results_simp
  rfl

end Cert.KernelIdeal.HostVals

end
-- ==== Proof.KerFinal.lean ====
/-
  The idealized kernel's run with its two results written over the ARGUMENT arrays: the arrays the region finds are the
  one aggregation of the node features, the hidden features as launched, the three pairs of folded weights and biases,
  and the output layer's weights and bias; the results are the folded formulation of the cell over these.
-/
import proofs.«118302_j40037685133528_2_alg».proof.Proof.KerBlocks
import proofs.«118302_j40037685133528_2_alg».proof.Proof.KerHost

noncomputable section

open Idealize.ShloMosaic Idealize.ShloMosaic.TcCoe Idealize.SL.Sem Idealize.ShloMosaic.ValueIdx

namespace Cert.KernelIdeal.Final

open Cert.KernelIdeal Cert.KernelIdeal.Gen Cert.Gru

/-- The whole-array forms respect equality of each array. -/
theorem hiddenArr_congr {n : Nat} {A A' Hh Hh' : Mat n 64} {Wz Wz' Uz Uz' : Mat 64 64} {bz bz' : Mat 1 64} {Wr Wr' Ur Ur' : Mat 64 64}
    {br br' : Mat 1 64} {Wh Wh' Uh Uh' : Mat 64 64} {bh bh' : Mat 1 64}
    (e1 : A = A') (e2 : Hh = Hh') (e3 : Wz = Wz') (e4 : Uz = Uz') (e5 : bz = bz') (e6 : Wr = Wr') (e7 : Ur = Ur') (e8 : br = br')
    (e9 : Wh = Wh') (e10 : Uh = Uh') (e11 : bh = bh') :
    hiddenArr A Hh Wz Uz bz Wr Ur br Wh Uh bh = hiddenArr A' Hh' Wz' Uz' bz' Wr' Ur' br' Wh' Uh' bh' := by
  subst e1 e2 e3 e4 e5 e6 e7 e8 e9 e10 e11; rfl

theorem outArr_congr {n : Nat} {A A' Hh Hh' : Mat n 64} {Wz Wz' Uz Uz' : Mat 64 64} {bz bz' : Mat 1 64} {Wr Wr' Ur Ur' : Mat 64 64}
    {br br' : Mat 1 64} {Wh Wh' Uh Uh' : Mat 64 64} {bh bh' : Mat 1 64} {Wl Wl' : Mat 64 16} {bl bl' : Mat 1 16}
    (e1 : A = A') (e2 : Hh = Hh') (e3 : Wz = Wz') (e4 : Uz = Uz') (e5 : bz = bz') (e6 : Wr = Wr') (e7 : Ur = Ur') (e8 : br = br')
    (e9 : Wh = Wh') (e10 : Uh = Uh') (e11 : bh = bh') (e12 : Wl = Wl') (e13 : bl = bl') :
    outArr A Hh Wz Uz bz Wr Ur br Wh Uh bh Wl bl = outArr A' Hh' Wz' Uz' bz' Wr' Ur' br' Wh' Uh' bh' Wl' bl' := by
  subst e1 e2 e3 e4 e5 e6 e7 e8 e9 e10 e11 e12 e13; rfl

variable (m : (ℓ : Loc nD τ sig) → Buf (Elt Ideal) ℓ) (ρ : Dev nD → PrngReg)

/-- The hidden result over the argument arrays. -/
def hid (c : Dev nD) : S50000x64.Idx → EReal :=
  hiddenArr (HostSpec.agg (F := Ideal) (m ((c : Thread nD τ).loc main_arg0)) (m ((c : Thread nD τ).loc main_arg1)) (m ((c : Thread nD τ).loc main_arg2))) (m ((c : Thread nD τ).loc main_arg3))
    (HostSpec.foldW (F := Ideal) (m ((c : Thread nD τ).loc main_arg4)) (m ((c : Thread nD τ).loc main_arg10))) (HostSpec.bot (F := Ideal) (m ((c : Thread nD τ).loc main_arg10))) (HostSpec.foldB (F := Ideal) (m ((c : Thread nD τ).loc main_arg5)) (m ((c : Thread nD τ).loc main_arg10)) (m ((c : Thread nD τ).loc main_arg11)))
    (HostSpec.foldW (F := Ideal) (m ((c : Thread nD τ).loc main_arg6)) (m ((c : Thread nD τ).loc main_arg12))) (HostSpec.bot (F := Ideal) (m ((c : Thread nD τ).loc main_arg12))) (HostSpec.foldB (F := Ideal) (m ((c : Thread nD τ).loc main_arg7)) (m ((c : Thread nD τ).loc main_arg12)) (m ((c : Thread nD τ).loc main_arg13)))
    (HostSpec.foldW (F := Ideal) (m ((c : Thread nD τ).loc main_arg8)) (m ((c : Thread nD τ).loc main_arg14))) (HostSpec.bot (F := Ideal) (m ((c : Thread nD τ).loc main_arg14))) (HostSpec.foldB (F := Ideal) (m ((c : Thread nD τ).loc main_arg9)) (m ((c : Thread nD τ).loc main_arg14)) (m ((c : Thread nD τ).loc main_arg15)))

/-- The output result over the argument arrays. -/
def out (c : Dev nD) : S50000x16.Idx → EReal :=
  outArr (HostSpec.agg (F := Ideal) (m ((c : Thread nD τ).loc main_arg0)) (m ((c : Thread nD τ).loc main_arg1)) (m ((c : Thread nD τ).loc main_arg2))) (m ((c : Thread nD τ).loc main_arg3))
    (HostSpec.foldW (F := Ideal) (m ((c : Thread nD τ).loc main_arg4)) (m ((c : Thread nD τ).loc main_arg10))) (HostSpec.bot (F := Ideal) (m ((c : Thread nD τ).loc main_arg10))) (HostSpec.foldB (F := Ideal) (m ((c : Thread nD τ).loc main_arg5)) (m ((c : Thread nD τ).loc main_arg10)) (m ((c : Thread nD τ).loc main_arg11)))
    (HostSpec.foldW (F := Ideal) (m ((c : Thread nD τ).loc main_arg6)) (m ((c : Thread nD τ).loc main_arg12))) (HostSpec.bot (F := Ideal) (m ((c : Thread nD τ).loc main_arg12))) (HostSpec.foldB (F := Ideal) (m ((c : Thread nD τ).loc main_arg7)) (m ((c : Thread nD τ).loc main_arg12)) (m ((c : Thread nD τ).loc main_arg13)))
    (HostSpec.foldW (F := Ideal) (m ((c : Thread nD τ).loc main_arg8)) (m ((c : Thread nD τ).loc main_arg14))) (HostSpec.bot (F := Ideal) (m ((c : Thread nD τ).loc main_arg14))) (HostSpec.foldB (F := Ideal) (m ((c : Thread nD τ).loc main_arg9)) (m ((c : Thread nD τ).loc main_arg14)) (m ((c : Thread nD τ).loc main_arg15)))
    (m ((c : Thread nD τ).loc main_arg16)) (HostSpec.row16 (F := Ideal) (m ((c : Thread nD τ).loc main_arg17)))

theorem GH_eq (c : Dev nD) : Blocks.GH m c = hid m c :=
  hiddenArr_congr (HostVals.V_v46 m c) (V_main_arg3 m c) (HostVals.V_v49 m c) (HostVals.V_v48 m c) (HostVals.V_v53 m c)
    (HostVals.V_v56 m c) (HostVals.V_v55 m c) (HostVals.V_v60 m c) (HostVals.V_v63 m c) (HostVals.V_v62 m c) (HostVals.V_v67 m c)

theorem GY_eq (c : Dev nD) : Blocks.GY m c = out m c :=
  outArr_congr (HostVals.V_v46 m c) (V_main_arg3 m c) (HostVals.V_v49 m c) (HostVals.V_v48 m c) (HostVals.V_v53 m c)
    (HostVals.V_v56 m c) (HostVals.V_v55 m c) (HostVals.V_v60 m c) (HostVals.V_v63 m c) (HostVals.V_v62 m c) (HostVals.V_v67 m c)
    (V_main_arg16 m c) (HostVals.V_v68 m c)

/-- THE RUN over the argument arrays. -/
theorem run : θ_run defs (onTc (τ := τ) (main (F := Ideal))) ⟨m, fun _ => 0, ρ⟩ fun r => ∀ c : Dev nD,
      r.2.mem ((c : Thread nD τ).loc main_v69_0) = out m c
      ∧ r.2.mem ((c : Thread nD τ).loc main_v69_1) = hid m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (GY_eq m c), (h c).2.1.trans (GH_eq m c), (h c).2.2⟩)
    (Blocks.run m ρ)

end Cert.KernelIdeal.Final

end
-- ==== Proof.LibEReal.lean ====
/-
  General facts about Mathlib's extended reals, and about two of the ideal float
  operations on them, that the certificate of a normalised graph convolution needs.
  Nothing here mentions a program.
-/
import Mathlib
import Idealize.ShloMosaic.PureOps.Ideal

open scoped BigOperators
open Idealize.ShloMosaic

namespace Cert.LibEReal

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a real `x > 0` the reciprocal square root is the real `(√x)⁻¹`. -/
theorem rsqrt_coe_of_pos {x : ℝ} (hx : 0 < x) :
    Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- For a real `x > 0`, raising to the power `-1/2` is the reciprocal square root. -/
theorem pow_neg_half_eq_rsqrt {x : ℝ} (hx : 0 < x) :
    Ideal.pow (x : EReal) ((-1 / 2 : ℝ) : EReal) = Ideal.rsqrt (x : EReal) := by
  rw [rsqrt_coe_of_pos hx]
  show ((Real.rpow x (-1 / 2) : ℝ) : EReal) = _
  congr 1
  show x ^ (-1 / 2 : ℝ) = (Real.sqrt x)⁻¹
  rw [show (-1 / 2 : ℝ) = -(1 / 2) by ring, Real.rpow_neg hx.le, Real.sqrt_eq_rpow]

/-- For a real `x > 0` the reciprocal square root is a real `> 0`. -/
theorem rsqrt_pos_real {x : ℝ} (hx : 0 < x) :
    ∃ r : ℝ, 0 < r ∧ Ideal.rsqrt (x : EReal) = (r : EReal) :=
  ⟨(Real.sqrt x)⁻¹, inv_pos.mpr (Real.sqrt_pos.mpr hx), rsqrt_coe_of_pos hx⟩

/-- For a real `x > 0` the power `x ^ (-1/2)` is a real `> 0`. -/
theorem pow_neg_half_pos_real {x : ℝ} (hx : 0 < x) :
    ∃ r : ℝ, 0 < r ∧ Ideal.pow (x : EReal) ((-1 / 2 : ℝ) : EReal) = (r : EReal) := by
  rw [pow_neg_half_eq_rsqrt hx]; exact rsqrt_pos_real hx

/-- The indicator of the diagonal, as an extended real, is the coercion of the real one. -/
theorem coe_ite_one_zero (p : Prop) [Decidable p] :
    (if p then (1 : EReal) else 0) = (((if p then (1 : ℝ) else 0) : ℝ) : EReal) := by
  split <;> simp

/-- The graph-convolution law on reals, read in the extended reals: scaling row `i` of
    `A·(d ⊙ x) + d ⊙ x` by `d i` is the row `i` of `(D (A + I) D) x`. Every entry is a real, so the
    extended-real sums and products are the coercions of the real ones, where the ring laws hold. -/
theorem gcn_law {n : ℕ} (d : Fin n → ℝ) (A : Fin n → Fin n → ℝ) (x : Fin n → ℝ) (i : Fin n) :
    (d i : EReal) * ((∑ k, (A i k : EReal) * ((d k : EReal) * (x k : EReal)))
        + (d i : EReal) * (x i : EReal))
      = ∑ j, (((d i : EReal) * ((A i j : EReal) + (if i = j then (1 : EReal) else 0)))
          * (d j : EReal)) * (x j : EReal) := by
  simp only [coe_ite_one_zero, ← EReal.coe_mul, ← EReal.coe_add, ← coe_finset_sum]
  congr 1
  have h : ∀ j, d i * (A i j + (if i = j then (1 : ℝ) else 0)) * d j * x j
      = d i * (A i j * (d j * x j)) + (if i = j then d i * (d j * x j) else 0) := by
    intro j; split <;> ring
  simp only [h, Finset.sum_add_distrib, Finset.sum_ite_eq, Finset.mem_univ, if_true,
    ← Finset.mul_sum]
  ring

/-- The row sums of `A + I` are the row sums of `A` plus one. -/
theorem sum_add_diag {n : ℕ} (A : Fin n → Fin n → ℝ) (i : Fin n) :
    (∑ j, ((A i j : EReal) + (if i = j then (1 : EReal) else 0)))
      = (∑ j, (A i j : EReal)) + 1 := by
  simp only [coe_ite_one_zero, ← EReal.coe_add, ← coe_finset_sum, ← EReal.coe_one,
    Finset.sum_add_distrib, Finset.sum_ite_eq, Finset.mem_univ, if_true]

end Cert.LibEReal
-- ==== Proof.Algebra.lean ====
/-
  The two algebraic laws that join the two formulations of the gated recurrent cell, and the two respellings of its
  pointwise functions.

  (1) Aggregation is linear in the node features: aggregating the rows `x W` over a set of edges with weights `n`
      is aggregating the rows `x` and multiplying by `W` afterwards.
  (2) A gate's 128×64 matrix `L` splits into a top half applied to the convolved row and a bottom half applied to
      the hidden row; the top half folds into the convolution's weights and bias.
  Both move a factor across a finite sum, which on the extended reals needs the entries involved to be real numbers;
  the hidden-row term and the gate's own bias are carried along untouched and may be anything.
-/
import proofs.«118302_j40037685133528_2_alg».proof.Proof.Spec
import proofs.«118302_j40037685133528_2_alg».proof.Proof.LibEReal

noncomputable section

open scoped BigOperators

namespace Cert.Gru

open Idealize.ShloMosaic Idealize.ShloMosaic.ValueIdx Cert.LibEReal

/-- The pattern of single-precision one denotes `1`, that of zero `0`. -/
theorem one32_eq : one32 = 1 := by
  unfold one32
  simp [Ideal.ofBits, Ideal.ieee, -EReal.coe_mul]; norm_num

theorem zero32_eq : zero32 = 0 := by
  unfold zero32
  simp [Ideal.ofBits, Ideal.ieee]

/-- The logistic function written out is the logistic function. -/
theorem sigR_eq (x : EReal) : sigR x = Ideal.logistic x := by
  unfold sigR Ideal.logistic
  rw [one32_eq]

/-- The two spellings of the exponential linear unit agree at every extended real. -/
theorem refElu_eq (x : EReal) : refElu x = elu x := by
  unfold refElu elu
  by_cases h : Ideal.cmp .ogt x zero32 = 1
  · simp only [Scalar.select, h, if_true]
  · simp only [Scalar.select, h, if_false, one32_eq, one_mul]

/-- AGGREGATION IS LINEAR. Over a finite set of edges `S`, with real rows `X e`, a real column `W` and real edge
    weights `n`: aggregating the projected rows is projecting the aggregated row. -/
theorem agg_linear {E : Type*} (S : Finset E) (X : E → Fin 64 → EReal) (W : Fin 64 → EReal) (n : E → EReal)
    (hX : ∀ e l, ∃ r : ℝ, X e l = (r : EReal)) (hW : ∀ l, ∃ r : ℝ, W l = (r : EReal)) (hn : ∀ e, ∃ r : ℝ, n e = (r : EReal)) :
    (0 : EReal) + ∑ e ∈ S, (∑ l : Fin 64, X e l * W l) * n e = ∑ l : Fin 64, ((0 : EReal) + ∑ e ∈ S, X e l * n e) * W l := by
  choose Xr hXr using hX
  choose Wr hWr using hW
  choose nr hnr using hn
  simp only [hXr, hWr, hnr, zero_add, ← EReal.coe_mul, ← coe_finset_sum]
  congr 1
  simp only [Finset.sum_mul]
  rw [Finset.sum_comm]
  exact Finset.sum_congr rfl fun l _ => Finset.sum_congr rfl fun e _ => by ring

/-- An aggregated entry of real rows with real weights is real. -/
theorem agg_real {E : Type*} (S : Finset E) (X : E → EReal) (n : E → EReal)
    (hX : ∀ e, ∃ r : ℝ, X e = (r : EReal)) (hn : ∀ e, ∃ r : ℝ, n e = (r : EReal)) :
    ∃ r : ℝ, (0 : EReal) + ∑ e ∈ S, X e * n e = (r : EReal) := by
  choose Xr hXr using hX
  choose nr hnr using hn
  refine ⟨∑ e ∈ S, Xr e * nr e, ?_⟩
  simp only [hXr, hnr, zero_add, ← EReal.coe_mul, ← coe_finset_sum]

/-- A sum over 128 positions is the sum over the first 64 plus the sum over the last 64. -/
theorem sum128 (f : Fin 128 → EReal) :
    ∑ k : Fin 128, f k = (∑ k : Fin 64, f (Fin.castAdd 64 k)) + ∑ k : Fin 64, f (Fin.natAdd 64 k) :=
  Fin.sum_univ_add (a := 64) (b := 64) f

/-- THE GATE'S MATRIX FOLDS INTO THE CONVOLUTION. With a real aggregated row `a`, real convolution weights `W` and
    bias `b`, and a real gate matrix `L`: the plain formulation's pre-activation at the convolved row `a W + b` is
    the folded formulation's at `a`, where the folded weights are `W` times the top half of `L`, the hidden weights
    the bottom half, and the folded bias `b` times the top half plus the gate's bias. The hidden-term row `h` and the
    gate's bias `lb` are arbitrary. -/
theorem logit_bridge (a h b lb : Fin 64 → EReal) (W : Mat 64 64) (L : Mat 128 64) (cW U : Mat 64 64) (cb : Mat 1 64)
    (ha : ∀ l, ∃ r : ℝ, a l = (r : EReal)) (hW : ∀ q, ∃ r : ℝ, W q = (r : EReal)) (hb : ∀ l, ∃ r : ℝ, b l = (r : EReal))
    (hL : ∀ q, ∃ r : ℝ, L q = (r : EReal))
    (hcW : ∀ k j, cW (ix2 k j) = ∑ l : Fin 64, W (ix2 k l) * L (ix2 (Fin.castAdd 64 l) j))
    (hU : ∀ k j, U (ix2 k j) = L (ix2 (Fin.natAdd 64 k) j))
    (hcb : ∀ j, cb (ix2 0 j) = (∑ l : Fin 64, b l * L (ix2 (Fin.castAdd 64 l) j)) + lb j) (j : Fin 64) :
    refLogitRow (fun k => (∑ l : Fin 64, a l * W (ix2 l k)) + b k) h L lb j = logitRow a h cW U cb j := by
  unfold refLogitRow logitRow
  rw [sum128]
  have e1 : ∀ k : Fin 64, (if hk : (Fin.castAdd 64 k).val < 64 then ((∑ l : Fin 64, a l * W (ix2 l ⟨(Fin.castAdd 64 k).val, hk⟩)) + b ⟨(Fin.castAdd 64 k).val, hk⟩)
        else h ⟨(Fin.castAdd 64 k).val - 64, by omega⟩) = (∑ l : Fin 64, a l * W (ix2 l k)) + b k := fun k => by
    rw [dif_pos (show (Fin.castAdd 64 k).val < 64 from k.isLt)]
    rfl
  have e2 : ∀ k : Fin 64, (if hk : (Fin.natAdd 64 k).val < 64 then ((∑ l : Fin 64, a l * W (ix2 l ⟨(Fin.natAdd 64 k).val, hk⟩)) + b ⟨(Fin.natAdd 64 k).val, hk⟩)
        else h ⟨(Fin.natAdd 64 k).val - 64, by omega⟩) = h k := fun k => by
    rw [dif_neg (show ¬ (Fin.natAdd 64 k).val < 64 from by simp)]
    congr 1
    apply Fin.ext
    simp
  simp only [e1, e2, hcW, hU, hcb]
  -- the top half, in the reals
  have hP : (∑ k : Fin 64, ((∑ l : Fin 64, a l * W (ix2 l k)) + b k) * L (ix2 (Fin.castAdd 64 k) j))
      = (∑ k : Fin 64, a k * ∑ l : Fin 64, W (ix2 k l) * L (ix2 (Fin.castAdd 64 l) j))
        + ∑ l : Fin 64, b l * L (ix2 (Fin.castAdd 64 l) j) := by
    choose ar har using ha
    choose Wr hWr using hW
    choose br hbr using hb
    choose Lr hLr using hL
    simp only [har, hWr, hbr, hLr, ← EReal.coe_mul, ← EReal.coe_add, ← coe_finset_sum]
    congr 1
    simp only [add_mul, Finset.sum_add_distrib, Finset.sum_mul, Finset.mul_sum]
    congr 1
    rw [Finset.sum_comm]
    exact Finset.sum_congr rfl fun l _ => Finset.sum_congr rfl fun k _ => by ring
  rw [hP]
  ac_rfl

end Cert.Gru

end
-- ==== Proof.LibRowOps.lean ====
/-
  Row gather and row scatter-add, read at an index.

  `x[idx]` of a matrix `x : [N, C]` at a vector of `E` row numbers lowers to a gather whose start indices are an
  `[E, 1]` array: row `e` of the result is row `idx[e, 0]` of `x`, the row number read as a signed integer and clamped
  into `[0, N - 1]`. A segment sum of `E` rows into `N` buckets lowers to a scatter with an `add` body over the same
  kind of index array: element `(n, k)` of the result is the operand's plus the sum of `upd[e, k]` over the rows `e`
  whose row number, read signed and NOT clamped, is exactly `n` (a row number outside `[0, N)` contributes nothing).
  Both are stated for any extents, over dimension numbers given as a generic record, and for the scatter at the
  exact instance, where the accumulation is a finite sum of extended reals.
-/
import Idealize.ShloMosaic.PureOps.Ideal
import Idealize.ShloMosaic.Lib.ValueIdx

noncomputable section

open scoped BigOperators

namespace Cert.LibRowOps

open Idealize.ShloMosaic Idealize.ShloMosaic.ValueIdx

/-- The position `[e, 0]` of the `[E, 1]` array of row numbers that row `e` of an `[E, C]` array reads. -/
abbrev rowPos {E C : Nat} (y : (⟨2, ![E, C]⟩ : Shape).Idx) : (⟨2, ![E, 1]⟩ : Shape).Idx :=
  fun a => match a with | ⟨0, _⟩ => ⟨(y 0).val, idx2_lt0 y⟩ | ⟨1, _⟩ => ⟨0, Nat.one_pos⟩

/-! ## The gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, k)`: the operand at row `idx[e, 0]`, read signed and clamped into `[0, N - 1]`, column `k`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 ⟨min (idx (rowPos y)).toInt.toNat (N - 1), by omega⟩ (y 1)) := by
  unfold Host.gather
  congr 1
  funext a
  refine Fin.ext ?_
  match a with
  | ⟨0, _⟩ =>
    show (rowGatherDims N E C wf).start y idx 0 + (rowGatherDims N E C wf).batchCoord y 0
      + (rowGatherDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx y ⟨List.idxOf (0 : Fin 2) (rowGatherDims N E C wf).startIndexMap,
        List.idxOf_lt_length_iff.2 (List.mem_singleton.mpr rfl)⟩ = rowPos y := by
      funext b; refine Fin.ext ?_
      match b with
      | ⟨0, _⟩ => rfl
      | ⟨1, _⟩ => rfl
    rw [hsi]
    rfl
  | ⟨1, _⟩ =>
    show (rowGatherDims N E C wf).start y idx 1 + (rowGatherDims N E C wf).batchCoord y 1
      + (rowGatherDims N E C wf).offCoord y 1 = (y 1).val
    rw [GatherDims.batchCoord_eq_zero _ _ _ List.not_mem_nil]
    have hs : (rowGatherDims N E C wf).start y idx 1 = 0 := by
      unfold GatherDims.start
      rw [dif_neg (show (1 : Fin 2) ∉ ([0] : List (Fin 2)) by decide)]
    have ho : (rowGatherDims N E C wf).offCoord y 1 = (y 1).val := by
      unfold GatherDims.offCoord
      rw [dif_pos ((GatherDims.mem_sKept _ _).mpr ⟨(show (1 : Fin 2) ∉ ([0] : List (Fin 2)) by decide), List.not_mem_nil⟩)]
      rfl
    rw [hs, ho]; omega

end Gather

/-! ## The scatter-add -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis an update starts at its row number, read signed. -/
theorem rowScatter_start0 (j : (⟨2, ![E, C]⟩ : Shape).Idx) (idx : IVec ⟨2, ![E, 1]⟩ w) :
    (rowScatterDims N E C wf).start j idx 0 = (idx (rowPos j)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = rowPos j := by
    funext b; refine Fin.ext ?_
    match b with
    | ⟨0, _⟩ => rfl
    | ⟨1, _⟩ => rfl
  rw [hsi]

/-- On the column axis an update starts at zero. -/
theorem rowScatter_start1 (j : (⟨2, ![E, C]⟩ : Shape).Idx) (idx : IVec ⟨2, ![E, 1]⟩ w) :
    (rowScatterDims N E C wf).start j idx 1 = 0 := by
  unfold ScatterDims.start
  rw [dif_neg (show (1 : Fin 2) ∉ ([0] : List (Fin 2)) by decide)]

/-- The row axis is inserted: no window coordinate. -/
theorem rowScatter_window0 (j : (⟨2, ![E, C]⟩ : Shape).Idx) : (rowScatterDims N E C wf).window j 0 = 0 := by
  unfold ScatterDims.window
  rw [dif_neg (by simp [ScatterDims.sKept, Shape.kept])]

/-- The column axis carries the update's column. -/
theorem rowScatter_window1 (j : (⟨2, ![E, C]⟩ : Shape).Idx) : (rowScatterDims N E C wf).window j 1 = (j 1).val := by
  unfold ScatterDims.window
  rw [dif_pos (by simp [ScatterDims.sKept, Shape.kept])]
  rfl

/-- WHERE AN UPDATE LANDS: update `(e, c)` lands on `(n, k)` exactly when row `e`'s number, read signed, is `n`
    and `c = k`. -/
theorem rowScatter_resultIdx_eq_some (j : (⟨2, ![E, C]⟩ : Shape).Idx) (idx : IVec ⟨2, ![E, 1]⟩ w)
    (i : (⟨2, ![N, C]⟩ : Shape).Idx) :
    (rowScatterDims N E C wf).resultIdx? j idx = some i
      ↔ (idx (rowPos j)).toInt = ((i 0).val : Int) ∧ (j 1).val = (i 1).val := by
  have h0 : (rowScatterDims N E C wf).start j idx 0 + ((rowScatterDims N E C wf).window j 0 : Int) = (idx (rowPos j)).toInt := by
    rw [rowScatter_start0, rowScatter_window0]; simp
  have h1 : (rowScatterDims N E C wf).start j idx 1 + ((rowScatterDims N E C wf).window j 1 : Int) = ((j 1).val : Int) := by
    rw [rowScatter_start1, rowScatter_window1]; simp
  have hi0 := idx2_lt0 i
  have hi1 := idx2_lt1 i
  have hj1 := idx2_lt1 j
  unfold ScatterDims.resultIdx?
  constructor
  · intro h
    split at h
    · rename_i hb
      have e := Option.some.inj h
      have e0 : ((rowScatterDims N E C wf).start j idx 0 + ((rowScatterDims N E C wf).window j 0 : Int)).toNat = (i 0).val :=
        congrArg Fin.val (congrFun e 0)
      have e1 : ((rowScatterDims N E C wf).start j idx 1 + ((rowScatterDims N E C wf).window j 1 : Int)).toNat = (i 1).val :=
        congrArg Fin.val (congrFun e 1)
      have b0 := (hb 0).1
      rw [h0] at e0 b0
      rw [h1] at e1
      constructor <;> omega
    · exact absurd h (by simp)
  · rintro ⟨e0, e1⟩
    have hb : ∀ a, 0 ≤ (rowScatterDims N E C wf).start j idx a + ((rowScatterDims N E C wf).window j a : Int)
        ∧ (rowScatterDims N E C wf).start j idx a + ((rowScatterDims N E C wf).window j a : Int) < ((⟨2, ![N, C]⟩ : Shape).size a : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [h0, e0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [h1]; omega
    rw [dif_pos hb]
    congr 1
    funext a
    refine Fin.ext ?_
    match a with
    | ⟨0, _⟩ =>
      show ((rowScatterDims N E C wf).start j idx 0 + ((rowScatterDims N E C wf).window j 0 : Int)).toNat = (i 0).val
      rw [h0, e0]; simp
    | ⟨1, _⟩ =>
      show ((rowScatterDims N E C wf).start j idx 1 + ((rowScatterDims N E C wf).window j 1 : Int)).toNat = (i 1).val
      rw [h1]; omega

/-- The row-number position of update `(e, c)` is `[e, 0]`, whatever the column. -/
theorem rowPos_ix2 (e : Fin E) (c : Fin C) : rowPos (ix2 e c) = ix2 e (0 : Fin 1) := by
  funext a
  match a with
  | ⟨0, _⟩ => rfl
  | ⟨1, _⟩ => rfl

/-- THE ROW SCATTER-ADD AT `(n, k)`, exactly: the operand's element plus the sum of `upd[e, k]` over the rows `e`
    whose number, read signed, is `n`. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e (0 : Fin 1))).toInt = (n.val : Int)), upd (ix2 e k) := by
  unfold Ideal.hostScatterAdd
  congr 1
  rw [Finset.sum_filter, sum_idx2, Finset.sum_filter]
  refine Finset.sum_congr rfl fun e _ => ?_
  have key : ∀ c : Fin C, (rowScatterDims N E C wf).resultIdx? (ix2 e c) idx = some (ix2 n k)
      ↔ (idx (ix2 e (0 : Fin 1))).toInt = (n.val : Int) ∧ c.val = k.val := fun c => by
    rw [rowScatter_resultIdx_eq_some, rowPos_ix2]
    exact Iff.rfl
  by_cases hQ : (idx (ix2 e (0 : Fin 1))).toInt = (n.val : Int)
  · rw [if_pos hQ, Finset.sum_eq_single k]
    · rw [if_pos ((key k).mpr ⟨hQ, rfl⟩)]
    · intro c _ hc
      rw [if_neg fun h => hc (Fin.ext ((key c).mp h).2)]
    · intro h; exact absurd (Finset.mem_univ k) h
  · rw [if_neg hQ]
    exact Finset.sum_eq_zero fun c _ => if_neg fun h => hQ ((key c).mp h).1

end Scatter

/-! ## The two reads in the form a certificate uses -/

/-- The row of an `N`-row matrix that row number `idx[e, 0]` names once read signed and clamped into `[0, N - 1]`. -/
def clampedRow {N E w : Nat} (hN : 0 < N) (idx : IVec ⟨2, ![E, 1]⟩ w) (e : Fin E) : Fin N :=
  ⟨min (idx (ix2 e (0 : Fin 1))).toInt.toNat (N - 1), by omega⟩

/-- The rows `e` whose number `idx[e, 0]`, read signed and not clamped, is exactly `n`. -/
def rowsInto {N E w : Nat} (idx : IVec ⟨2, ![E, 1]⟩ w) (n : Fin N) : Finset (Fin E) :=
  Finset.univ.filter fun e : Fin E => (idx (ix2 e (0 : Fin 1))).toInt = (n.val : Int)

/-- A gather whose dimension numbers are a row gather's, at `(e, k)`: the operand at the clamped row, column `k`. -/
theorem gather_rows {α : Type} {N E C w : Nat} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (k : Fin C) :
    Host.gather d x idx (ix2 e k) = x (ix2 (clampedRow hN idx e) k) := by
  subst hd
  rw [rowGather_apply hN]
  refine congrArg x ?_
  funext a
  apply Fin.ext
  match a with
  | ⟨0, _⟩ =>
    show min (idx (rowPos (ix2 e k))).toInt.toNat (N - 1) = min (idx (ix2 e (0 : Fin 1))).toInt.toNat (N - 1)
    rw [rowPos_ix2]
  | ⟨1, _⟩ => rfl

/-- A float scatter-add whose dimension numbers are a row scatter's, at the exact instance and at `(n, k)`: the
    operand's element plus the sum of `upd[e, k]` over the rows into `n`. -/
theorem scatterAdd_rows {N E C w : Nat} {φ : FTy}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (x : (⟨2, ![N, C]⟩ : Shape).Idx → EReal) (idx : IVec ⟨2, ![E, 1]⟩ w) (upd : (⟨2, ![E, C]⟩ : Shape).Idx → EReal)
    (n : Fin N) (k : Fin C) :
    Host.scatterAdd (F := Ideal) (φ := φ) d x idx upd (ix2 n k) = x (ix2 n k) + ∑ e ∈ rowsInto idx n, upd (ix2 e k) := by
  subst hd
  exact rowScatterAdd_apply wf x idx upd n k

end Cert.LibRowOps
-- ==== Proof.AggRead.lean ====
/-
  The neighbourhood aggregate read at an entry, and the edge coefficients shown to be real numbers, at the
  exact-arithmetic reading of floats (an extended real per entry).
-/
import proofs.«118302_j40037685133528_2_alg».proof.Proof.HostSpec
import proofs.«118302_j40037685133528_2_alg».proof.Proof.LibRowOps
import proofs.«118302_j40037685133528_2_alg».proof.Proof.LibEReal

noncomputable section

open scoped BigOperators

namespace Cert.HostSpec

open Cert.KernelIdeal Idealize.ShloMosaic Idealize.ShloMosaic.ValueIdx Cert.LibRowOps
open Cert.KernelIdeal.Facts₀

variable [Facts₀]

/-! ## The aggregate at an entry -/

/-- The coefficient column repeated along the features, at edge `e` and any feature, is the coefficient of `e`. -/
theorem normCols_apply (ei : IVec S2x800000 32) (ew : FVec Ideal S800000 .f32) (e : Fin 850000) (k : Fin 64) :
    normCols ei ew (ix2 e k) = norm ei ew (ix1 e) := by
  unfold normCols broadcastInDim
  refine congrArg (norm ei ew) ?_
  funext a
  match a with
  | ⟨0, _⟩ => rfl

/-- THE AGGREGATE AT `(n, k)`: zero plus the sum, over the edges whose target is `n`, of feature `k` of the source
    node's row (the source number clamped into the node range) times the edge's coefficient. -/
theorem agg_apply (X : FVec Ideal S50000x64 .f32) (ei : IVec S2x800000 32) (ew : FVec Ideal S800000 .f32)
    (n : Fin 50000) (k : Fin 64) :
    agg X ei ew (ix2 n k) = Ideal.ofBits .f32 0x00000000#32
      + ∑ e ∈ rowsInto (dstCol ei) n,
          X (ix2 (clampedRow (by decide : 0 < 50000) (rowIdx (src ei)) e) k) * norm ei ew (ix1 e) := by
  unfold agg
  rw [scatterAdd_rows scatter_S50000x64_S850000x1_S850000x64_1_0_0_1_wf scatter_S50000x64_S850000x1_S850000x64_1_0_0_1 rfl]
  refine congrArg₂ (fun a b : EReal => a + b) rfl (Finset.sum_congr rfl fun e _ => ?_)
  rw [mulf_apply, gather_rows (by decide) gather_S50000x64_S850000x1_S850000x64_1_0_n_n_0_1_164_wf
      gather_S50000x64_S850000x1_S850000x64_1_0_n_n_0_1_164 rfl,
    normCols_apply]

/-! ## The edge coefficients are real numbers -/

/-- Every entry of a concatenation is an entry of one of the concatenated arrays. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

/-- The pattern of `0.0` denotes zero. -/
theorem ofBits_zero : Ideal.ofBits .f32 0x00000000#32 = (0 : EReal) := by
  simp [Ideal.ofBits, Ideal.ieee]

/-- The pattern of `1.0` denotes one. -/
theorem ofBits_one : Ideal.ofBits .f32 0x3F800000#32 = (1 : EReal) := by
  simp [Ideal.ofBits, Ideal.ieee, -EReal.coe_mul]; norm_num

/-- The small constant the degree is kept above denotes a positive real. -/
theorem tiny_pos_real : ∃ t : ℝ, 0 < t ∧ Ideal.ofBits .f32 0x2B8CBCCC#32 = (t : EReal) := by
  refine ⟨_, ?_, by simp [Ideal.ofBits, Ideal.ieee, -EReal.coe_mul]; rfl⟩
  positivity

/-- Every edge weight is real once the given ones are: the appended self loops weigh one. -/
theorem wgt_real (ew : FVec Ideal S800000 .f32) (hw : ∀ i, ∃ r : ℝ, ew i = (r : EReal)) :
    ∀ e, ∃ r : ℝ, wgt ew e = (r : EReal) := by
  intro e
  unfold wgt
  refine concatenate_forall _ _ _ (fun x : EReal => ∃ r : ℝ, x = (r : EReal)) ?_ e
  intro p hp i
  simp only [List.mem_cons, List.mem_nil_iff, or_false] at hp
  rcases hp with rfl | rfl
  · exact hw i
  · exact ⟨1, by show Ideal.ofBits .f32 0x3F800000#32 = _; rw [ofBits_one]; rfl⟩

/-- A finite sum of reals is real. -/
theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [Cert.LibEReal.coe_finset_sum]; exact Finset.sum_congr rfl fun i _ => hg i⟩

/-- A scatter-add of reals into reals is real: each entry is the operand's plus a finite sum of updates. -/
theorem hostScatterAdd_real {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  unfold Ideal.hostScatterAdd
  obtain ⟨a, ha⟩ := hx i
  obtain ⟨b, hb⟩ := sum_real (Finset.univ.filter fun j => d.resultIdx? j idx = some i) upd hu
  exact ⟨a + b, by rw [ha, hb, EReal.coe_add]⟩

/-- The zero vector over the nodes is zero at every node. -/
theorem zeroNodes_apply (n : S50000.Idx) : zeroNodes (F := Ideal) n = (0 : EReal) := by
  show Ideal.ofBits .f32 0x00000000#32 = _
  exact ofBits_zero

/-- The same for the host's scatter-add at the exact instance. -/
theorem scatterAdd_real {s si su : Shape} {φ : FTy} (d : ScatterDims s si su) {w : Nat} (x : FVec Ideal s φ)
    (idx : IVec si w) (upd : FVec Ideal su φ) (hx : ∀ i, ∃ r : ℝ, x i = (r : EReal))
    (hu : ∀ j, ∃ r : ℝ, upd j = (r : EReal)) :
    ∀ i, ∃ r : ℝ, Host.scatterAdd (F := Ideal) d x idx upd i = (r : EReal) :=
  hostScatterAdd_real d x idx upd hx hu

/-- Every node's degree is real once the weights are: it is zero plus a finite sum of weights. -/
theorem deg_real (ei : IVec S2x800000 32) (ew : FVec Ideal S800000 .f32) (hw : ∀ i, ∃ r : ℝ, ew i = (r : EReal)) :
    ∀ n, ∃ r : ℝ, deg ei ew n = (r : EReal) :=
  scatterAdd_real scatter_S50000_S850000x1_S850000_n_0_0_1 zeroNodes (dstCol ei) (wgt ew)
    (fun i => ⟨0, zeroNodes_apply i⟩) (wgt_real ew hw)

/-- A choice between the reciprocal square root of a real kept above a positive real, and zero, is real. -/
theorem select_rsqrt_real (c : BitVec 1) (d t : ℝ) (ht : 0 < t) :
    ∃ r : ℝ, Scalar.select c (Ideal.rsqrt (max (d : EReal) (t : EReal))) (0 : EReal) = (r : EReal) := by
  unfold Scalar.select
  split
  · rw [← EReal.coe_strictMono.monotone.map_max, Cert.LibEReal.rsqrt_coe_of_pos (lt_max_of_lt_right ht)]
    exact ⟨_, rfl⟩
  · exact ⟨0, rfl⟩

/-- The reciprocal square root of an entrywise maximum, at an entry. -/
theorem rsqrt_max_apply {s : Shape} (a b : FVec Ideal s .f32) (n : s.Idx) :
    Host.rsqrt (maximumf a b) n = Ideal.rsqrt (max (a n) (b n)) := rfl

/-- A constant spread over the nodes, at a node, is what its pattern denotes. -/
theorem nodeConst_apply (b : BitVec 32) (n : S50000.Idx) :
    broadcastInDim S50000 ![] bcast_S_S50000 (constant (F := Ideal) S_ .f32 b) n = Ideal.ofBits .f32 b := rfl

/-- Every node's inverse square root degree is real once the weights are: where the degree is positive it is
    the reciprocal square root of a real at least the small positive constant, elsewhere it is zero. -/
theorem dis_real (ei : IVec S2x800000 32) (ew : FVec Ideal S800000 .f32) (hw : ∀ i, ∃ r : ℝ, ew i = (r : EReal)) :
    ∀ n, ∃ r : ℝ, dis ei ew n = (r : EReal) := by
  intro n
  obtain ⟨d, hd⟩ := deg_real ei ew hw n
  obtain ⟨t, ht, htb⟩ := tiny_pos_real
  unfold dis
  rw [select_apply, rsqrt_max_apply, nodeConst_apply, hd, htb, zeroNodes_apply]
  exact select_rsqrt_real _ d t ht

/-- A gathered array of reals is real: each entry is an entry of the operand. -/
theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx _

/-- THE COEFFICIENTS ARE REAL: every edge's coefficient is a product of two inverse square root degrees and a
    weight, all real once the given weights are. -/
theorem norm_real (ei : IVec S2x800000 32) (ew : FVec Ideal S800000 .f32) (hw : ∀ i, ∃ r : ℝ, ew i = (r : EReal)) :
    ∀ e, ∃ r : ℝ, norm (F := Ideal) ei ew e = (r : EReal) := by
  intro e
  obtain ⟨a, ha⟩ := gather_real gather_S50000_S850000x1_S850000_n_0_n_n_0_1_1 (dis ei ew) (rowIdx (src ei))
    (dis_real ei ew hw) e
  obtain ⟨b, hb⟩ := gather_real gather_S50000_S850000x1_S850000_n_0_n_n_0_1_1 (dis ei ew) (rowIdx (dst ei))
    (dis_real ei ew hw) e
  obtain ⟨c, hc⟩ := wgt_real ew hw e
  refine ⟨a * c * b, ?_⟩
  unfold norm
  rw [mulf_apply, mulf_apply, ha, hb, hc, EReal.coe_mul, EReal.coe_mul]

end Cert.HostSpec

end
-- ==== Proof.FoldRead.lean ====
/-
  The folded first layer read at an entry, at the exact-arithmetic reading of floats: the product of a first layer's
  weights with the top half of a second layer's weights is a sum over the 64 shared features, the bottom half is the
  rows from 64 on, the folded bias is a row-times-matrix sum plus a bias, and a vector read as a row keeps its entries.
-/
import proofs.«118302_j40037685133528_2_alg».proof.Proof.HostSpec
import proofs.«118302_j40037685133528_2_alg».proof.Proof.LibDot
import Idealize.ShloMosaic.Lib.ValueLayout

noncomputable section

open scoped BigOperators

namespace Cert.HostSpec

open Cert.KernelIdeal Idealize.ShloMosaic Idealize.ShloMosaic.ValueIdx
open Cert.KernelIdeal.Facts₀

variable [Facts₀]

/-- The top half of a 128-row matrix at `(k, j)` is the matrix at row `k` (among the first 64), column `j`. -/
theorem top_apply (L : FVec Ideal S128x64 .f32) (k j : Fin 64) :
    top L (ix2 k j) = L (ix2 (Fin.castAdd 64 k) j) := by
  unfold top
  exact slice2_axis0_apply 0 L slices_S128x64_S64x64_0_0 k j (Fin.castAdd 64 k) (by simp)

/-- The bottom half of a 128-row matrix at `(k, j)` is the matrix at row `64 + k`, column `j`. -/
theorem bot_apply (L : FVec Ideal S128x64 .f32) (k j : Fin 64) :
    bot L (ix2 k j) = L (ix2 (Fin.natAdd 64 k) j) := by
  unfold bot
  exact slice2_axis0_apply 64 L slices_S128x64_S64x64_64_0 k j (Fin.natAdd 64 k) rfl

/-- A vector of 64 entries spread as the single row of a 1 × 64 matrix keeps its entries. -/
theorem asRow_apply {α : Type} (b : S64.Idx → α) (u : Fin 1) (l : Fin 64) :
    broadcastInDim S1x64 ![1] bcast_S64_S1x64_1 b (ix2 u l) = b (ix1 l) := by
  unfold broadcastInDim
  refine congrArg b ?_
  funext a
  match a with
  | ⟨0, _⟩ => rfl

/-- THE FOLDED WEIGHTS AT `(k, j)`: the sum over the shared feature `l` of the first layer's weight at `(k, l)` times
    the second layer's weight at `(l, j)` in its top half. -/
theorem foldW_apply (W : FVec Ideal S64x64 .f32) (L : FVec Ideal S128x64 .f32) (k j : Fin 64) :
    foldW W L (ix2 k j) = ∑ l : Fin 64, W (ix2 k l) * L (ix2 (Fin.castAdd 64 l) j) := by
  unfold foldW
  simp only [Host.dotGeneral]
  rw [Cert.LibDot.dotGeneral_plain dot_S64x64_S64x64_S64x64_1_0_0_1_n_n rfl]
  refine Finset.sum_congr rfl fun l _ => ?_
  rw [top_apply]

/-- THE FOLDED BIAS AT COLUMN `j`: the sum over `l` of the first layer's bias at `l` times the second layer's weight at
    `(l, j)` in its top half, plus the second layer's bias at `j`. -/
theorem foldB_apply (b : FVec Ideal S64 .f32) (L : FVec Ideal S128x64 .f32) (Lb : FVec Ideal S64 .f32) (j : Fin 64) :
    foldB b L Lb (ix2 (0 : Fin 1) j)
      = (∑ l : Fin 64, b (ix1 l) * L (ix2 (Fin.castAdd 64 l) j)) + Lb (ix1 j) := by
  unfold foldB
  rw [addf_apply]
  simp only [Host.dotGeneral]
  rw [Cert.LibDot.dotGeneral_plain dot_S1x64_S64x64_S1x64_1_0_0_1_n_n rfl, asRow_apply]
  refine congrArg₂ (fun x y : EReal => x + y) (Finset.sum_congr rfl fun l _ => ?_) rfl
  rw [top_apply, asRow_apply]

/-- A vector of 16 entries read as a matrix of one row, at column `j`, is the vector at `j`. -/
theorem row16_apply (b : FVec Ideal S16 .f32) (j : Fin 16) : row16 b (ix2 (0 : Fin 1) j) = b (ix1 j) := by
  unfold row16
  exact shapeCast_a_1a_apply b shapeCasts_S16_S1x16 0 j

end Cert.HostSpec

end
-- ==== Proof.Bridge.lean ====
/-
  The plain formulation of the cell, fed with the three graph convolutions of `x W + b`, is the folded formulation fed
  with the one aggregation of `x`: aggregation is linear in the node features (real features, weights and edge
  normalisation), and each gate's 128×64 matrix folds into the convolution's weights and bias.
-/
import proofs.«118302_j40037685133528_2_alg».proof.Proof.Algebra
import proofs.«118302_j40037685133528_2_alg».proof.Proof.AggRead
import proofs.«118302_j40037685133528_2_alg».proof.Proof.FoldRead

noncomputable section

open scoped BigOperators

namespace Cert.Bridge

open Idealize.ShloMosaic Idealize.ShloMosaic.ValueIdx Cert.Gru Cert.HostSpec Cert.KernelIdeal Cert.LibRowOps

variable [Cert.KernelIdeal.Facts₀]
variable (x H : FVec Ideal S50000x64 .f32) (ei : IVec S2x800000 32) (ew : FVec Ideal S800000 .f32)

/-- An aggregated entry of real features under real edge weights is real. -/
theorem agg_row_real (hx : ∀ q, ∃ r : ℝ, x q = (r : EReal)) (hw : ∀ i, ∃ r : ℝ, ew i = (r : EReal)) (i : Fin 50000) (l : Fin 64) :
    ∃ r : ℝ, agg x ei ew (ix2 i l) = (r : EReal) := by
  rw [agg_apply, Ideal.ofBits_zero_f32]
  exact agg_real _ (fun e => x (ix2 (clampedRow (by decide : 0 < 50000) (rowIdx (src ei)) e) l)) (fun e => norm ei ew (ix1 e))
    (fun e => hx _) (fun e => norm_real ei ew hw _)

/-- Aggregating the projected features is projecting the aggregated features. -/
theorem agg_proj (W : FVec Ideal S64x64 .f32) (hx : ∀ q, ∃ r : ℝ, x q = (r : EReal)) (hW : ∀ q, ∃ r : ℝ, W q = (r : EReal))
    (hw : ∀ i, ∃ r : ℝ, ew i = (r : EReal)) (i : Fin 50000) (k : Fin 64) :
    agg (fun q => ∑ l : Fin 64, x (ix2 (q 0) l) * W (ix2 l (q 1))) ei ew (ix2 i k)
      = ∑ l : Fin 64, agg x ei ew (ix2 i l) * W (ix2 l k) := by
  rw [agg_apply]
  simp only [agg_apply x, Ideal.ofBits_zero_f32]
  exact agg_linear (rowsInto (dstCol ei) i) (fun e l => x (ix2 (clampedRow (by decide : 0 < 50000) (rowIdx (src ei)) e) l))
    (fun l => W (ix2 l k)) (fun e => norm ei ew (ix1 e)) (fun e l => hx _) (fun l => hW _) (fun e => norm_real ei ew hw _)

/-- ONE GATE: the plain pre-activation at the convolved row is the folded pre-activation at the aggregated row. -/
theorem gate_bridge (W : FVec Ideal S64x64 .f32) (b : FVec Ideal S64 .f32) (L : FVec Ideal S128x64 .f32) (Lb : FVec Ideal S64 .f32)
    (hx : ∀ q, ∃ r : ℝ, x q = (r : EReal)) (hw : ∀ i, ∃ r : ℝ, ew i = (r : EReal)) (hW : ∀ q, ∃ r : ℝ, W q = (r : EReal))
    (hb : ∀ q, ∃ r : ℝ, b q = (r : EReal)) (hL : ∀ q, ∃ r : ℝ, L q = (r : EReal)) (i : Fin 50000) (h : Fin 64 → EReal) (j : Fin 64) :
    refLogitRow (fun k => agg (fun q => ∑ l : Fin 64, x (ix2 (q 0) l) * W (ix2 l (q 1))) ei ew (ix2 i k) + b (ix1 k)) h L
        (fun j => Lb (ix1 j)) j
      = logitRow (fun l => agg x ei ew (ix2 i l)) h (foldW W L) (bot L) (foldB b L Lb) j := by
  simp only [agg_proj x ei ew W hx hW hw i]
  exact logit_bridge (fun l => agg x ei ew (ix2 i l)) h (fun k => b (ix1 k)) (fun j => Lb (ix1 j)) W L (foldW W L) (bot L) (foldB b L Lb)
    (agg_row_real x ei ew hx hw i) hW (fun l => hb _) hL (foldW_apply W L) (bot_apply L) (foldB_apply b L Lb) j

variable (Wz : FVec Ideal S64x64 .f32) (bz : FVec Ideal S64 .f32) (Wr : FVec Ideal S64x64 .f32) (br : FVec Ideal S64 .f32)
  (Wh : FVec Ideal S64x64 .f32) (bh : FVec Ideal S64 .f32) (LzW : FVec Ideal S128x64 .f32) (Lzb : FVec Ideal S64 .f32)
  (LrW : FVec Ideal S128x64 .f32) (Lrb : FVec Ideal S64 .f32) (LhW : FVec Ideal S128x64 .f32) (Lhb : FVec Ideal S64 .f32)

/-- THE HIDDEN ROW: the plain formulation at the three convolved rows is the folded formulation at the aggregated row. -/
theorem hidden_bridge (hx : ∀ q, ∃ r : ℝ, x q = (r : EReal)) (hw : ∀ i, ∃ r : ℝ, ew i = (r : EReal))
    (hWz : ∀ q, ∃ r : ℝ, Wz q = (r : EReal)) (hbz : ∀ q, ∃ r : ℝ, bz q = (r : EReal))
    (hWr : ∀ q, ∃ r : ℝ, Wr q = (r : EReal)) (hbr : ∀ q, ∃ r : ℝ, br q = (r : EReal))
    (hWh : ∀ q, ∃ r : ℝ, Wh q = (r : EReal)) (hbh : ∀ q, ∃ r : ℝ, bh q = (r : EReal))
    (hLz : ∀ q, ∃ r : ℝ, LzW q = (r : EReal)) (hLr : ∀ q, ∃ r : ℝ, LrW q = (r : EReal)) (hLh : ∀ q, ∃ r : ℝ, LhW q = (r : EReal))
    (i : Fin 50000) (j : Fin 64) :
    refHiddenRow
        (fun k => agg (fun q => ∑ l : Fin 64, x (ix2 (q 0) l) * Wz (ix2 l (q 1))) ei ew (ix2 i k) + bz (ix1 k))
        (fun k => agg (fun q => ∑ l : Fin 64, x (ix2 (q 0) l) * Wr (ix2 l (q 1))) ei ew (ix2 i k) + br (ix1 k))
        (fun k => agg (fun q => ∑ l : Fin 64, x (ix2 (q 0) l) * Wh (ix2 l (q 1))) ei ew (ix2 i k) + bh (ix1 k))
        (fun k => H (ix2 i k)) LzW LrW LhW (fun j => Lzb (ix1 j)) (fun j => Lrb (ix1 j)) (fun j => Lhb (ix1 j)) j
      = hiddenRow (fun l => agg x ei ew (ix2 i l)) (fun k => H (ix2 i k)) (foldW Wz LzW) (bot LzW) (foldB bz LzW Lzb)
          (foldW Wr LrW) (bot LrW) (foldB br LrW Lrb) (foldW Wh LhW) (bot LhW) (foldB bh LhW Lhb) j := by
  unfold refHiddenRow hiddenRow
  simp only [sigR_eq, gate_bridge x ei ew Wz bz LzW Lzb hx hw hWz hbz hLz i, gate_bridge x ei ew Wr br LrW Lrb hx hw hWr hbr hLr i,
    gate_bridge x ei ew Wh bh LhW Lhb hx hw hWh hbh hLh i]

/-- THE OUTPUT ROW, likewise. -/
theorem out_bridge (WlinW : FVec Ideal S64x16 .f32) (Wlinb : FVec Ideal S16 .f32)
    (hx : ∀ q, ∃ r : ℝ, x q = (r : EReal)) (hw : ∀ i, ∃ r : ℝ, ew i = (r : EReal))
    (hWz : ∀ q, ∃ r : ℝ, Wz q = (r : EReal)) (hbz : ∀ q, ∃ r : ℝ, bz q = (r : EReal))
    (hWr : ∀ q, ∃ r : ℝ, Wr q = (r : EReal)) (hbr : ∀ q, ∃ r : ℝ, br q = (r : EReal))
    (hWh : ∀ q, ∃ r : ℝ, Wh q = (r : EReal)) (hbh : ∀ q, ∃ r : ℝ, bh q = (r : EReal))
    (hLz : ∀ q, ∃ r : ℝ, LzW q = (r : EReal)) (hLr : ∀ q, ∃ r : ℝ, LrW q = (r : EReal)) (hLh : ∀ q, ∃ r : ℝ, LhW q = (r : EReal))
    (i : Fin 50000) (j : Fin 16) :
    refOutRow (fun k' => refHiddenRow
        (fun k => agg (fun q => ∑ l : Fin 64, x (ix2 (q 0) l) * Wz (ix2 l (q 1))) ei ew (ix2 i k) + bz (ix1 k))
        (fun k => agg (fun q => ∑ l : Fin 64, x (ix2 (q 0) l) * Wr (ix2 l (q 1))) ei ew (ix2 i k) + br (ix1 k))
        (fun k => agg (fun q => ∑ l : Fin 64, x (ix2 (q 0) l) * Wh (ix2 l (q 1))) ei ew (ix2 i k) + bh (ix1 k))
        (fun k => H (ix2 i k)) LzW LrW LhW (fun j => Lzb (ix1 j)) (fun j => Lrb (ix1 j)) (fun j => Lhb (ix1 j)) k')
        WlinW (fun j => Wlinb (ix1 j)) j
      = outRow (fun k' => hiddenRow (fun l => agg x ei ew (ix2 i l)) (fun k => H (ix2 i k)) (foldW Wz LzW) (bot LzW) (foldB bz LzW Lzb)
          (foldW Wr LrW) (bot LrW) (foldB br LrW Lrb) (foldW Wh LhW) (bot LhW) (foldB bh LhW Lhb) k') WlinW (row16 Wlinb) j := by
  unfold refOutRow outRow
  simp only [refElu_eq, row16_apply,
    hidden_bridge x H ei ew Wz bz Wr br Wh bh LzW Lzb LrW Lrb LhW Lhb hx hw hWz hbz hWr hbr hWh hbh hLz hLr hLh i]

end Cert.Bridge

end
-- ==== Proof.RefRun.lean ====
/- The reference program's @main as a LIST of its host operations, and its run read back from the list.
   @main is printed in four consecutive windows; each window is shown equal to the straight line of its own
   operations, a call of an outlined function contributing the callee's operations in the call's place, over the
   buffers that call names. The four lines concatenated are @main, and the run of a straight line from any memory
   with zero counters terminates with every buffer at the fold of the operations' results over its launch contents.
   No value is computed here: the statement stops at that fold. -/
import proofs.«118302_j40037685133528_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The 62 operations of @main's window 0 (statements 1 … 60), in order: one statement calls the outlined select-or-default function; its three operations (the default converted to its own type, its broadcast, the select) stand in the call's place over that call's buffers. -/
abbrev ops0 : List (HloOp τ sig (Elt F)) :=
  ( StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F))
  :: StableHlo.reshape main_v0 main_v1 rfl shapeCasts_S1x800000_S800000
  :: StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F))
  :: StableHlo.reshape main_v2 main_v3 rfl shapeCasts_S1x800000_S800000
  :: StableHlo.binary main_arg0 main_arg4 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
  :: StableHlo.nullary main_v5 (iotaInDim S50000 32 0)
  :: StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.nullary main_cst (constant S_ .f32 0x3F800000#32)
  :: StableHlo.unary main_cst main_v8 (broadcastInDim S50000 ![] bcast_S_S50000 : (⟨S_, .f32⟩ : BufTy).Contents (Elt F) → (⟨S50000, .f32⟩ : BufTy).Contents (Elt F))
  :: StableHlo.binary main_arg2 main_v8 main_v9 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F))
  :: StableHlo.nullary main_cst_0 (constant S_ .f32 0x00000000#32)
  :: StableHlo.unary main_cst_0 main_v10 (broadcastInDim S50000 ![] bcast_S_S50000 : (⟨S_, .f32⟩ : BufTy).Contents (Elt F) → (⟨S50000, .f32⟩ : BufTy).Contents (Elt F))
  :: StableHlo.unary main_v7 main_v11 (broadcastInDim S850000x1 ![0] bcast_S850000_S850000x1_0 : (⟨S850000, .i32⟩ : BufTy).Contents (Elt F) → (⟨S850000x1, .i32⟩ : BufTy).Contents (Elt F))
  :: StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))
  :: StableHlo.nullary main_cst_1 (constant S_ .f32 0x00000000#32)
  :: StableHlo.unary main_cst_1 main_v13 (broadcastInDim S50000 ![] bcast_S_S50000 : (⟨S_, .f32⟩ : BufTy).Contents (Elt F) → (⟨S50000, .f32⟩ : BufTy).Contents (Elt F))
  :: StableHlo.binary main_v12 main_v13 main_v14 (cmpf .ogt : (⟨S50000, .f32⟩ : BufTy).Contents (Elt F) → (⟨S50000, .f32⟩ : BufTy).Contents (Elt F) → (⟨S50000, .i1⟩ : BufTy).Contents (Elt F))
  :: StableHlo.nullary main_cst_2 (constant S_ .f32 0x2B8CBCCC#32)
  :: StableHlo.unary main_cst_2 main_v15 (broadcastInDim S50000 ![] bcast_S_S50000 : (⟨S_, .f32⟩ : BufTy).Contents (Elt F) → (⟨S50000, .f32⟩ : BufTy).Contents (Elt F))
  :: StableHlo.binary main_v12 main_v15 main_v16 (maximumf : (⟨S50000, .f32⟩ : BufTy).Contents (Elt F) → (⟨S50000, .f32⟩ : BufTy).Contents (Elt F) → (⟨S50000, .f32⟩ : BufTy).Contents (Elt F))
  :: StableHlo.unary main_v16 main_v17 (Host.rsqrt : (⟨S50000, .f32⟩ : BufTy).Contents (Elt F) → (⟨S50000, .f32⟩ : BufTy).Contents (Elt F))
  :: StableHlo.nullary main_cst_3 (constant S_ .f32 0x00000000#32)
  :: StableHlo.TRef.unary (.of main_cst_3 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S50000, .f32⟩) (broadcastInDim S50000 ![] bcast_S_S50000)
  :: StableHlo.TRef.ternary (.of main_v14 : StableHlo.TRef sig ⟨S50000, .i1⟩) (.of main_v17 : StableHlo.TRef sig ⟨S50000, .f32⟩) (.of main_call0_v1 : StableHlo.TRef sig ⟨S50000, .f32⟩) (.of main_v18 : StableHlo.TRef sig ⟨S50000, .f32⟩) select
  :: StableHlo.nullary main_c (constantI S_ 32 0#32)
  :: StableHlo.unary main_c main_v19 (broadcastInDim S850000 ![] bcast_S_S850000 : (⟨S_, .i32⟩ : BufTy).Contents (Elt F) → (⟨S850000, .i32⟩ : BufTy).Contents (Elt F))
  :: StableHlo.binary main_v6 main_v19 main_v20 (cmpi .slt : (⟨S850000, .i32⟩ : BufTy).Contents (Elt F) → (⟨S850000, .i32⟩ : BufTy).Contents (Elt F) → (⟨S850000, .i1⟩ : BufTy).Contents (Elt F))
  :: StableHlo.nullary main_c_4 (constantI S_ 32 50000#32)
  :: StableHlo.unary main_c_4 main_v21 (broadcastInDim S850000 ![] bcast_S_S850000 : (⟨S_, .i32⟩ : BufTy).Contents (Elt F) → (⟨S850000, .i32⟩ : BufTy).Contents (Elt F))
  :: StableHlo.binary main_v6 main_v21 main_v22 (addi : (⟨S850000, .i32⟩ : BufTy).Contents (Elt F) → (⟨S850000, .i32⟩ : BufTy).Contents (Elt F) → (⟨S850000, .i32⟩ : BufTy).Contents (Elt F))
  :: StableHlo.ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v23 main_v24 (broadcastInDim S850000x1 ![0] bcast_S850000_S850000x1_0 : (⟨S850000, .i32⟩ : BufTy).Contents (Elt F) → (⟨S850000x1, .i32⟩ : BufTy).Contents (Elt F))
  :: StableHlo.binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v25 main_v9 main_v26 (mulf : (⟨S850000, .f32⟩ : BufTy).Contents (Elt F) → (⟨S850000, .f32⟩ : BufTy).Contents (Elt F) → (⟨S850000, .f32⟩ : BufTy).Contents (Elt F))
  :: StableHlo.nullary main_c_5 (constantI S_ 32 0#32)
  :: StableHlo.unary main_c_5 main_v27 (broadcastInDim S850000 ![] bcast_S_S850000 : (⟨S_, .i32⟩ : BufTy).Contents (Elt F) → (⟨S850000, .i32⟩ : BufTy).Contents (Elt F))
  :: StableHlo.binary main_v7 main_v27 main_v28 (cmpi .slt : (⟨S850000, .i32⟩ : BufTy).Contents (Elt F) → (⟨S850000, .i32⟩ : BufTy).Contents (Elt F) → (⟨S850000, .i1⟩ : BufTy).Contents (Elt F))
  :: StableHlo.nullary main_c_6 (constantI S_ 32 50000#32)
  :: StableHlo.unary main_c_6 main_v29 (broadcastInDim S850000 ![] bcast_S_S850000 : (⟨S_, .i32⟩ : BufTy).Contents (Elt F) → (⟨S850000, .i32⟩ : BufTy).Contents (Elt F))
  :: StableHlo.binary main_v7 main_v29 main_v30 (addi : (⟨S850000, .i32⟩ : BufTy).Contents (Elt F) → (⟨S850000, .i32⟩ : BufTy).Contents (Elt F) → (⟨S850000, .i32⟩ : BufTy).Contents (Elt F))
  :: StableHlo.ternary main_v28 main_v30 main_v7 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v31 main_v32 (broadcastInDim S850000x1 ![0] bcast_S850000_S850000x1_0 : (⟨S850000, .i32⟩ : BufTy).Contents (Elt F) → (⟨S850000x1, .i32⟩ : BufTy).Contents (Elt F))
  :: StableHlo.binary main_v18 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v26 main_v33 main_v34 (mulf : (⟨S850000, .f32⟩ : BufTy).Contents (Elt F) → (⟨S850000, .f32⟩ : BufTy).Contents (Elt F) → (⟨S850000, .f32⟩ : BufTy).Contents (Elt F))
  :: StableHlo.nullary main_c_7 (constantI S_ 32 0#32)
  :: StableHlo.unary main_c_7 main_v35 (broadcastInDim S850000 ![] bcast_S_S850000 : (⟨S_, .i32⟩ : BufTy).Contents (Elt F) → (⟨S850000, .i32⟩ : BufTy).Contents (Elt F))
  :: StableHlo.binary main_v6 main_v35 main_v36 (cmpi .slt : (⟨S850000, .i32⟩ : BufTy).Contents (Elt F) → (⟨S850000, .i32⟩ : BufTy).Contents (Elt F) → (⟨S850000, .i1⟩ : BufTy).Contents (Elt F))
  :: StableHlo.nullary main_c_8 (constantI S_ 32 50000#32)
  :: StableHlo.unary main_c_8 main_v37 (broadcastInDim S850000 ![] bcast_S_S850000 : (⟨S_, .i32⟩ : BufTy).Contents (Elt F) → (⟨S850000, .i32⟩ : BufTy).Contents (Elt F))
  :: StableHlo.binary main_v6 main_v37 main_v38 (addi : (⟨S850000, .i32⟩ : BufTy).Contents (Elt F) → (⟨S850000, .i32⟩ : BufTy).Contents (Elt F) → (⟨S850000, .i32⟩ : BufTy).Contents (Elt F))
  :: StableHlo.ternary main_v36 main_v38 main_v6 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v39 main_v40 (broadcastInDim S850000x1 ![0] bcast_S850000_S850000x1_0 : (⟨S850000, .i32⟩ : BufTy).Contents (Elt F) → (⟨S850000x1, .i32⟩ : BufTy).Contents (Elt F))
  :: StableHlo.binary main_v4 main_v40 main_v41 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F))
  :: StableHlo.unary main_v34 main_v42 (broadcastInDim S850000x1 ![0] bcast_S850000_S850000x1_0 : (⟨S850000, .f32⟩ : BufTy).Contents (Elt F) → (⟨S850000x1, .f32⟩ : BufTy).Contents (Elt F))
  :: StableHlo.unary main_v42 main_v43 (broadcastInDim S850000x64 ![0, 1] bcast_S850000x1_S850000x64_0_1 : (⟨S850000x1, .f32⟩ : BufTy).Contents (Elt F) → (⟨S850000x64, .f32⟩ : BufTy).Contents (Elt F))
  :: StableHlo.binary main_v41 main_v43 main_v44 (mulf : (⟨S850000x64, .f32⟩ : BufTy).Contents (Elt F) → (⟨S850000x64, .f32⟩ : BufTy).Contents (Elt F) → (⟨S850000x64, .f32⟩ : BufTy).Contents (Elt F))
  :: StableHlo.nullary main_cst_9 (constant S_ .f32 0x00000000#32)
  :: StableHlo.unary main_cst_9 main_v45 (broadcastInDim S50000x64 ![] bcast_S_S50000x64 : (⟨S_, .f32⟩ : BufTy).Contents (Elt F) → (⟨S50000x64, .f32⟩ : BufTy).Contents (Elt F))
  :: StableHlo.unary main_v7 main_v46 (broadcastInDim S850000x1 ![0] bcast_S850000_S850000x1_0 : (⟨S850000, .i32⟩ : BufTy).Contents (Elt F) → (⟨S850000x1, .i32⟩ : BufTy).Contents (Elt F))
  :: StableHlo.ternary main_v45 main_v46 main_v44 main_v47 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F))
  :: [] )

set_option maxRecDepth 8192 in
set_option maxHeartbeats 4000000 in
/-- The 62 operations of @main's window 1 (statements 61 … 120), in order: one statement calls the outlined select-or-default function; its three operations (the default converted to its own type, its broadcast, the select) stand in the call's place over that call's buffers. -/
abbrev ops1 : List (HloOp τ sig (Elt F)) :=
  ( StableHlo.unary main_arg5 main_v48 (broadcastInDim S1x64 ![1] bcast_S64_S1x64_1 : (⟨S64, .f32⟩ : BufTy).Contents (Elt F) → (⟨S1x64, .f32⟩ : BufTy).Contents (Elt F))
  :: StableHlo.unary main_v48 main_v49 (broadcastInDim S50000x64 ![0, 1] bcast_S1x64_S50000x64_0_1 : (⟨S1x64, .f32⟩ : BufTy).Contents (Elt F) → (⟨S50000x64, .f32⟩ : BufTy).Contents (Elt F))
  :: StableHlo.binary main_v47 main_v49 main_v50 (addf : (⟨S50000x64, .f32⟩ : BufTy).Contents (Elt F) → (⟨S50000x64, .f32⟩ : BufTy).Contents (Elt F) → (⟨S50000x64, .f32⟩ : BufTy).Contents (Elt F))
  :: StableHlo.binary main_v50 main_arg3 main_v51 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F))
  :: StableHlo.binary main_v51 main_arg10 main_v52 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
  :: StableHlo.unary main_arg11 main_v53 (broadcastInDim S1x64 ![1] bcast_S64_S1x64_1 : (⟨S64, .f32⟩ : BufTy).Contents (Elt F) → (⟨S1x64, .f32⟩ : BufTy).Contents (Elt F))
  :: StableHlo.unary main_v53 main_v54 (broadcastInDim S50000x64 ![0, 1] bcast_S1x64_S50000x64_0_1 : (⟨S1x64, .f32⟩ : BufTy).Contents (Elt F) → (⟨S50000x64, .f32⟩ : BufTy).Contents (Elt F))
  :: StableHlo.binary main_v52 main_v54 main_v55 (addf : (⟨S50000x64, .f32⟩ : BufTy).Contents (Elt F) → (⟨S50000x64, .f32⟩ : BufTy).Contents (Elt F) → (⟨S50000x64, .f32⟩ : BufTy).Contents (Elt F))
  :: StableHlo.unary main_v55 main_v56 (Host.negf : (⟨S50000x64, .f32⟩ : BufTy).Contents (Elt F) → (⟨S50000x64, .f32⟩ : BufTy).Contents (Elt F))
  :: StableHlo.unary main_v56 main_v57 (Host.exp : (⟨S50000x64, .f32⟩ : BufTy).Contents (Elt F) → (⟨S50000x64, .f32⟩ : BufTy).Contents (Elt F))
  :: StableHlo.nullary main_cst_10 (constant S_ .f32 0x3F800000#32)
  :: StableHlo.unary main_cst_10 main_v58 (broadcastInDim S50000x64 ![] bcast_S_S50000x64 : (⟨S_, .f32⟩ : BufTy).Contents (Elt F) → (⟨S50000x64, .f32⟩ : BufTy).Contents (Elt F))
  :: StableHlo.binary main_v58 main_v57 main_v59 (addf : (⟨S50000x64, .f32⟩ : BufTy).Contents (Elt F) → (⟨S50000x64, .f32⟩ : BufTy).Contents (Elt F) → (⟨S50000x64, .f32⟩ : BufTy).Contents (Elt F))
  :: StableHlo.nullary main_cst_11 (constant S_ .f32 0x3F800000#32)
  :: StableHlo.unary main_cst_11 main_v60 (broadcastInDim S50000x64 ![] bcast_S_S50000x64 : (⟨S_, .f32⟩ : BufTy).Contents (Elt F) → (⟨S50000x64, .f32⟩ : BufTy).Contents (Elt F))
  :: StableHlo.binary main_v60 main_v59 main_v61 (Host.divf : (⟨S50000x64, .f32⟩ : BufTy).Contents (Elt F) → (⟨S50000x64, .f32⟩ : BufTy).Contents (Elt F) → (⟨S50000x64, .f32⟩ : BufTy).Contents (Elt F))
  :: StableHlo.binary main_arg0 main_arg6 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
  :: StableHlo.nullary main_v63 (iotaInDim S50000 32 0)
  :: StableHlo.binary main_v1 main_v63 main_v64 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.binary main_v3 main_v63 main_v65 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.nullary main_cst_12 (constant S_ .f32 0x3F800000#32)
  :: StableHlo.unary main_cst_12 main_v66 (broadcastInDim S50000 ![] bcast_S_S50000 : (⟨S_, .f32⟩ : BufTy).Contents (Elt F) → (⟨S50000, .f32⟩ : BufTy).Contents (Elt F))
  :: StableHlo.binary main_arg2 main_v66 main_v67 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F))
  :: StableHlo.nullary main_cst_13 (constant S_ .f32 0x00000000#32)
  :: StableHlo.unary main_cst_13 main_v68 (broadcastInDim S50000 ![] bcast_S_S50000 : (⟨S_, .f32⟩ : BufTy).Contents (Elt F) → (⟨S50000, .f32⟩ : BufTy).Contents (Elt F))
  :: StableHlo.unary main_v65 main_v69 (broadcastInDim S850000x1 ![0] bcast_S850000_S850000x1_0 : (⟨S850000, .i32⟩ : BufTy).Contents (Elt F) → (⟨S850000x1, .i32⟩ : BufTy).Contents (Elt F))
  :: StableHlo.ternary main_v68 main_v69 main_v67 main_v70 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))
  :: StableHlo.nullary main_cst_14 (constant S_ .f32 0x00000000#32)
  :: StableHlo.unary main_cst_14 main_v71 (broadcastInDim S50000 ![] bcast_S_S50000 : (⟨S_, .f32⟩ : BufTy).Contents (Elt F) → (⟨S50000, .f32⟩ : BufTy).Contents (Elt F))
  :: StableHlo.binary main_v70 main_v71 main_v72 (cmpf .ogt : (⟨S50000, .f32⟩ : BufTy).Contents (Elt F) → (⟨S50000, .f32⟩ : BufTy).Contents (Elt F) → (⟨S50000, .i1⟩ : BufTy).Contents (Elt F))
  :: StableHlo.nullary main_cst_15 (constant S_ .f32 0x2B8CBCCC#32)
  :: StableHlo.unary main_cst_15 main_v73 (broadcastInDim S50000 ![] bcast_S_S50000 : (⟨S_, .f32⟩ : BufTy).Contents (Elt F) → (⟨S50000, .f32⟩ : BufTy).Contents (Elt F))
  :: StableHlo.binary main_v70 main_v73 main_v74 (maximumf : (⟨S50000, .f32⟩ : BufTy).Contents (Elt F) → (⟨S50000, .f32⟩ : BufTy).Contents (Elt F) → (⟨S50000, .f32⟩ : BufTy).Contents (Elt F))
  :: StableHlo.unary main_v74 main_v75 (Host.rsqrt : (⟨S50000, .f32⟩ : BufTy).Contents (Elt F) → (⟨S50000, .f32⟩ : BufTy).Contents (Elt F))
  :: StableHlo.nullary main_cst_16 (constant S_ .f32 0x00000000#32)
  :: StableHlo.TRef.unary (.of main_cst_16 : StableHlo.TRef sig ⟨S_, .f32⟩) (.of main_call1_v0 : StableHlo.TRef sig ⟨S_, .f32⟩) id
  :: StableHlo.TRef.unary (.of main_call1_v0 : StableHlo.TRef sig ⟨S_, .f32⟩) (.of main_call1_v1 : StableHlo.TRef sig ⟨S50000, .f32⟩) (broadcastInDim S50000 ![] bcast_S_S50000)
  :: StableHlo.TRef.ternary (.of main_v72 : StableHlo.TRef sig ⟨S50000, .i1⟩) (.of main_v75 : StableHlo.TRef sig ⟨S50000, .f32⟩) (.of main_call1_v1 : StableHlo.TRef sig ⟨S50000, .f32⟩) (.of main_v76 : StableHlo.TRef sig ⟨S50000, .f32⟩) select
  :: StableHlo.nullary main_c_17 (constantI S_ 32 0#32)
  :: StableHlo.unary main_c_17 main_v77 (broadcastInDim S850000 ![] bcast_S_S850000 : (⟨S_, .i32⟩ : BufTy).Contents (Elt F) → (⟨S850000, .i32⟩ : BufTy).Contents (Elt F))
  :: StableHlo.binary main_v64 main_v77 main_v78 (cmpi .slt : (⟨S850000, .i32⟩ : BufTy).Contents (Elt F) → (⟨S850000, .i32⟩ : BufTy).Contents (Elt F) → (⟨S850000, .i1⟩ : BufTy).Contents (Elt F))
  :: StableHlo.nullary main_c_18 (constantI S_ 32 50000#32)
  :: StableHlo.unary main_c_18 main_v79 (broadcastInDim S850000 ![] bcast_S_S850000 : (⟨S_, .i32⟩ : BufTy).Contents (Elt F) → (⟨S850000, .i32⟩ : BufTy).Contents (Elt F))
  :: StableHlo.binary main_v64 main_v79 main_v80 (addi : (⟨S850000, .i32⟩ : BufTy).Contents (Elt F) → (⟨S850000, .i32⟩ : BufTy).Contents (Elt F) → (⟨S850000, .i32⟩ : BufTy).Contents (Elt F))
  :: StableHlo.ternary main_v78 main_v80 main_v64 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v81 main_v82 (broadcastInDim S850000x1 ![0] bcast_S850000_S850000x1_0 : (⟨S850000, .i32⟩ : BufTy).Contents (Elt F) → (⟨S850000x1, .i32⟩ : BufTy).Contents (Elt F))
  :: StableHlo.binary main_v76 main_v82 main_v83 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v83 main_v67 main_v84 (mulf : (⟨S850000, .f32⟩ : BufTy).Contents (Elt F) → (⟨S850000, .f32⟩ : BufTy).Contents (Elt F) → (⟨S850000, .f32⟩ : BufTy).Contents (Elt F))
  :: StableHlo.nullary main_c_19 (constantI S_ 32 0#32)
  :: StableHlo.unary main_c_19 main_v85 (broadcastInDim S850000 ![] bcast_S_S850000 : (⟨S_, .i32⟩ : BufTy).Contents (Elt F) → (⟨S850000, .i32⟩ : BufTy).Contents (Elt F))
  :: StableHlo.binary main_v65 main_v85 main_v86 (cmpi .slt : (⟨S850000, .i32⟩ : BufTy).Contents (Elt F) → (⟨S850000, .i32⟩ : BufTy).Contents (Elt F) → (⟨S850000, .i1⟩ : BufTy).Contents (Elt F))
  :: StableHlo.nullary main_c_20 (constantI S_ 32 50000#32)
  :: StableHlo.unary main_c_20 main_v87 (broadcastInDim S850000 ![] bcast_S_S850000 : (⟨S_, .i32⟩ : BufTy).Contents (Elt F) → (⟨S850000, .i32⟩ : BufTy).Contents (Elt F))
  :: StableHlo.binary main_v65 main_v87 main_v88 (addi : (⟨S850000, .i32⟩ : BufTy).Contents (Elt F) → (⟨S850000, .i32⟩ : BufTy).Contents (Elt F) → (⟨S850000, .i32⟩ : BufTy).Contents (Elt F))
  :: StableHlo.ternary main_v86 main_v88 main_v65 main_v89 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v89 main_v90 (broadcastInDim S850000x1 ![0] bcast_S850000_S850000x1_0 : (⟨S850000, .i32⟩ : BufTy).Contents (Elt F) → (⟨S850000x1, .i32⟩ : BufTy).Contents (Elt F))
  :: StableHlo.binary main_v76 main_v90 main_v91 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v84 main_v91 main_v92 (mulf : (⟨S850000, .f32⟩ : BufTy).Contents (Elt F) → (⟨S850000, .f32⟩ : BufTy).Contents (Elt F) → (⟨S850000, .f32⟩ : BufTy).Contents (Elt F))
  :: StableHlo.nullary main_c_21 (constantI S_ 32 0#32)
  :: StableHlo.unary main_c_21 main_v93 (broadcastInDim S850000 ![] bcast_S_S850000 : (⟨S_, .i32⟩ : BufTy).Contents (Elt F) → (⟨S850000, .i32⟩ : BufTy).Contents (Elt F))
  :: StableHlo.binary main_v64 main_v93 main_v94 (cmpi .slt : (⟨S850000, .i32⟩ : BufTy).Contents (Elt F) → (⟨S850000, .i32⟩ : BufTy).Contents (Elt F) → (⟨S850000, .i1⟩ : BufTy).Contents (Elt F))
  :: StableHlo.nullary main_c_22 (constantI S_ 32 50000#32)
  :: [] )

set_option maxRecDepth 8192 in
set_option maxHeartbeats 4000000 in
/-- The 62 operations of @main's window 2 (statements 121 … 180), in order: one statement calls the outlined select-or-default function; its three operations (the default converted to its own type, its broadcast, the select) stand in the call's place over that call's buffers. -/
abbrev ops2 : List (HloOp τ sig (Elt F)) :=
  ( StableHlo.unary main_c_22 main_v95 (broadcastInDim S850000 ![] bcast_S_S850000 : (⟨S_, .i32⟩ : BufTy).Contents (Elt F) → (⟨S850000, .i32⟩ : BufTy).Contents (Elt F))
  :: StableHlo.binary main_v64 main_v95 main_v96 (addi : (⟨S850000, .i32⟩ : BufTy).Contents (Elt F) → (⟨S850000, .i32⟩ : BufTy).Contents (Elt F) → (⟨S850000, .i32⟩ : BufTy).Contents (Elt F))
  :: StableHlo.ternary main_v94 main_v96 main_v64 main_v97 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v97 main_v98 (broadcastInDim S850000x1 ![0] bcast_S850000_S850000x1_0 : (⟨S850000, .i32⟩ : BufTy).Contents (Elt F) → (⟨S850000x1, .i32⟩ : BufTy).Contents (Elt F))
  :: StableHlo.binary main_v62 main_v98 main_v99 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F))
  :: StableHlo.unary main_v92 main_v100 (broadcastInDim S850000x1 ![0] bcast_S850000_S850000x1_0 : (⟨S850000, .f32⟩ : BufTy).Contents (Elt F) → (⟨S850000x1, .f32⟩ : BufTy).Contents (Elt F))
  :: StableHlo.unary main_v100 main_v101 (broadcastInDim S850000x64 ![0, 1] bcast_S850000x1_S850000x64_0_1 : (⟨S850000x1, .f32⟩ : BufTy).Contents (Elt F) → (⟨S850000x64, .f32⟩ : BufTy).Contents (Elt F))
  :: StableHlo.binary main_v99 main_v101 main_v102 (mulf : (⟨S850000x64, .f32⟩ : BufTy).Contents (Elt F) → (⟨S850000x64, .f32⟩ : BufTy).Contents (Elt F) → (⟨S850000x64, .f32⟩ : BufTy).Contents (Elt F))
  :: StableHlo.nullary main_cst_23 (constant S_ .f32 0x00000000#32)
  :: StableHlo.unary main_cst_23 main_v103 (broadcastInDim S50000x64 ![] bcast_S_S50000x64 : (⟨S_, .f32⟩ : BufTy).Contents (Elt F) → (⟨S50000x64, .f32⟩ : BufTy).Contents (Elt F))
  :: StableHlo.unary main_v65 main_v104 (broadcastInDim S850000x1 ![0] bcast_S850000_S850000x1_0 : (⟨S850000, .i32⟩ : BufTy).Contents (Elt F) → (⟨S850000x1, .i32⟩ : BufTy).Contents (Elt F))
  :: StableHlo.ternary main_v103 main_v104 main_v102 main_v105 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F))
  :: StableHlo.unary main_arg7 main_v106 (broadcastInDim S1x64 ![1] bcast_S64_S1x64_1 : (⟨S64, .f32⟩ : BufTy).Contents (Elt F) → (⟨S1x64, .f32⟩ : BufTy).Contents (Elt F))
  :: StableHlo.unary main_v106 main_v107 (broadcastInDim S50000x64 ![0, 1] bcast_S1x64_S50000x64_0_1 : (⟨S1x64, .f32⟩ : BufTy).Contents (Elt F) → (⟨S50000x64, .f32⟩ : BufTy).Contents (Elt F))
  :: StableHlo.binary main_v105 main_v107 main_v108 (addf : (⟨S50000x64, .f32⟩ : BufTy).Contents (Elt F) → (⟨S50000x64, .f32⟩ : BufTy).Contents (Elt F) → (⟨S50000x64, .f32⟩ : BufTy).Contents (Elt F))
  :: StableHlo.binary main_v108 main_arg3 main_v109 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F))
  :: StableHlo.binary main_v109 main_arg12 main_v110 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
  :: StableHlo.unary main_arg13 main_v111 (broadcastInDim S1x64 ![1] bcast_S64_S1x64_1 : (⟨S64, .f32⟩ : BufTy).Contents (Elt F) → (⟨S1x64, .f32⟩ : BufTy).Contents (Elt F))
  :: StableHlo.unary main_v111 main_v112 (broadcastInDim S50000x64 ![0, 1] bcast_S1x64_S50000x64_0_1 : (⟨S1x64, .f32⟩ : BufTy).Contents (Elt F) → (⟨S50000x64, .f32⟩ : BufTy).Contents (Elt F))
  :: StableHlo.binary main_v110 main_v112 main_v113 (addf : (⟨S50000x64, .f32⟩ : BufTy).Contents (Elt F) → (⟨S50000x64, .f32⟩ : BufTy).Contents (Elt F) → (⟨S50000x64, .f32⟩ : BufTy).Contents (Elt F))
  :: StableHlo.unary main_v113 main_v114 (Host.negf : (⟨S50000x64, .f32⟩ : BufTy).Contents (Elt F) → (⟨S50000x64, .f32⟩ : BufTy).Contents (Elt F))
  :: StableHlo.unary main_v114 main_v115 (Host.exp : (⟨S50000x64, .f32⟩ : BufTy).Contents (Elt F) → (⟨S50000x64, .f32⟩ : BufTy).Contents (Elt F))
  :: StableHlo.nullary main_cst_24 (constant S_ .f32 0x3F800000#32)
  :: StableHlo.unary main_cst_24 main_v116 (broadcastInDim S50000x64 ![] bcast_S_S50000x64 : (⟨S_, .f32⟩ : BufTy).Contents (Elt F) → (⟨S50000x64, .f32⟩ : BufTy).Contents (Elt F))
  :: StableHlo.binary main_v116 main_v115 main_v117 (addf : (⟨S50000x64, .f32⟩ : BufTy).Contents (Elt F) → (⟨S50000x64, .f32⟩ : BufTy).Contents (Elt F) → (⟨S50000x64, .f32⟩ : BufTy).Contents (Elt F))
  :: StableHlo.nullary main_cst_25 (constant S_ .f32 0x3F800000#32)
  :: StableHlo.unary main_cst_25 main_v118 (broadcastInDim S50000x64 ![] bcast_S_S50000x64 : (⟨S_, .f32⟩ : BufTy).Contents (Elt F) → (⟨S50000x64, .f32⟩ : BufTy).Contents (Elt F))
  :: StableHlo.binary main_v118 main_v117 main_v119 (Host.divf : (⟨S50000x64, .f32⟩ : BufTy).Contents (Elt F) → (⟨S50000x64, .f32⟩ : BufTy).Contents (Elt F) → (⟨S50000x64, .f32⟩ : BufTy).Contents (Elt F))
  :: StableHlo.binary main_arg0 main_arg8 main_v120 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
  :: StableHlo.nullary main_v121 (iotaInDim S50000 32 0)
  :: StableHlo.binary main_v1 main_v121 main_v122 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.binary main_v3 main_v121 main_v123 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.nullary main_cst_26 (constant S_ .f32 0x3F800000#32)
  :: StableHlo.unary main_cst_26 main_v124 (broadcastInDim S50000 ![] bcast_S_S50000 : (⟨S_, .f32⟩ : BufTy).Contents (Elt F) → (⟨S50000, .f32⟩ : BufTy).Contents (Elt F))
  :: StableHlo.binary main_arg2 main_v124 main_v125 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F))
  :: StableHlo.nullary main_cst_27 (constant S_ .f32 0x00000000#32)
  :: StableHlo.unary main_cst_27 main_v126 (broadcastInDim S50000 ![] bcast_S_S50000 : (⟨S_, .f32⟩ : BufTy).Contents (Elt F) → (⟨S50000, .f32⟩ : BufTy).Contents (Elt F))
  :: StableHlo.unary main_v123 main_v127 (broadcastInDim S850000x1 ![0] bcast_S850000_S850000x1_0 : (⟨S850000, .i32⟩ : BufTy).Contents (Elt F) → (⟨S850000x1, .i32⟩ : BufTy).Contents (Elt F))
  :: StableHlo.ternary main_v126 main_v127 main_v125 main_v128 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))
  :: StableHlo.nullary main_cst_28 (constant S_ .f32 0x00000000#32)
  :: StableHlo.unary main_cst_28 main_v129 (broadcastInDim S50000 ![] bcast_S_S50000 : (⟨S_, .f32⟩ : BufTy).Contents (Elt F) → (⟨S50000, .f32⟩ : BufTy).Contents (Elt F))
  :: StableHlo.binary main_v128 main_v129 main_v130 (cmpf .ogt : (⟨S50000, .f32⟩ : BufTy).Contents (Elt F) → (⟨S50000, .f32⟩ : BufTy).Contents (Elt F) → (⟨S50000, .i1⟩ : BufTy).Contents (Elt F))
  :: StableHlo.nullary main_cst_29 (constant S_ .f32 0x2B8CBCCC#32)
  :: StableHlo.unary main_cst_29 main_v131 (broadcastInDim S50000 ![] bcast_S_S50000 : (⟨S_, .f32⟩ : BufTy).Contents (Elt F) → (⟨S50000, .f32⟩ : BufTy).Contents (Elt F))
  :: StableHlo.binary main_v128 main_v131 main_v132 (maximumf : (⟨S50000, .f32⟩ : BufTy).Contents (Elt F) → (⟨S50000, .f32⟩ : BufTy).Contents (Elt F) → (⟨S50000, .f32⟩ : BufTy).Contents (Elt F))
  :: StableHlo.unary main_v132 main_v133 (Host.rsqrt : (⟨S50000, .f32⟩ : BufTy).Contents (Elt F) → (⟨S50000, .f32⟩ : BufTy).Contents (Elt F))
  :: StableHlo.nullary main_cst_30 (constant S_ .f32 0x00000000#32)
  :: StableHlo.TRef.unary (.of main_cst_30 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S50000, .f32⟩) (broadcastInDim S50000 ![] bcast_S_S50000)
  :: StableHlo.TRef.ternary (.of main_v130 : StableHlo.TRef sig ⟨S50000, .i1⟩) (.of main_v133 : StableHlo.TRef sig ⟨S50000, .f32⟩) (.of main_call2_v1 : StableHlo.TRef sig ⟨S50000, .f32⟩) (.of main_v134 : StableHlo.TRef sig ⟨S50000, .f32⟩) select
  :: StableHlo.nullary main_c_31 (constantI S_ 32 0#32)
  :: StableHlo.unary main_c_31 main_v135 (broadcastInDim S850000 ![] bcast_S_S850000 : (⟨S_, .i32⟩ : BufTy).Contents (Elt F) → (⟨S850000, .i32⟩ : BufTy).Contents (Elt F))
  :: StableHlo.binary main_v122 main_v135 main_v136 (cmpi .slt : (⟨S850000, .i32⟩ : BufTy).Contents (Elt F) → (⟨S850000, .i32⟩ : BufTy).Contents (Elt F) → (⟨S850000, .i1⟩ : BufTy).Contents (Elt F))
  :: StableHlo.nullary main_c_32 (constantI S_ 32 50000#32)
  :: StableHlo.unary main_c_32 main_v137 (broadcastInDim S850000 ![] bcast_S_S850000 : (⟨S_, .i32⟩ : BufTy).Contents (Elt F) → (⟨S850000, .i32⟩ : BufTy).Contents (Elt F))
  :: StableHlo.binary main_v122 main_v137 main_v138 (addi : (⟨S850000, .i32⟩ : BufTy).Contents (Elt F) → (⟨S850000, .i32⟩ : BufTy).Contents (Elt F) → (⟨S850000, .i32⟩ : BufTy).Contents (Elt F))
  :: StableHlo.ternary main_v136 main_v138 main_v122 main_v139 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v139 main_v140 (broadcastInDim S850000x1 ![0] bcast_S850000_S850000x1_0 : (⟨S850000, .i32⟩ : BufTy).Contents (Elt F) → (⟨S850000x1, .i32⟩ : BufTy).Contents (Elt F))
  :: StableHlo.binary main_v134 main_v140 main_v141 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v141 main_v125 main_v142 (mulf : (⟨S850000, .f32⟩ : BufTy).Contents (Elt F) → (⟨S850000, .f32⟩ : BufTy).Contents (Elt F) → (⟨S850000, .f32⟩ : BufTy).Contents (Elt F))
  :: StableHlo.nullary main_c_33 (constantI S_ 32 0#32)
  :: StableHlo.unary main_c_33 main_v143 (broadcastInDim S850000 ![] bcast_S_S850000 : (⟨S_, .i32⟩ : BufTy).Contents (Elt F) → (⟨S850000, .i32⟩ : BufTy).Contents (Elt F))
  :: [] )

set_option maxRecDepth 8192 in
set_option maxHeartbeats 4000000 in
/-- The 59 operations of @main's window 3 (statements 181 … 226), in order: one statement calls the outlined exponential-linear-unit function; its thirteen operations, among them the three of its inner select-or-default call and the one select of its second inner call, stand in the call's place over that call's buffers. -/
abbrev ops3 : List (HloOp τ sig (Elt F)) :=
  ( StableHlo.binary main_v123 main_v143 main_v144 (cmpi .slt : (⟨S850000, .i32⟩ : BufTy).Contents (Elt F) → (⟨S850000, .i32⟩ : BufTy).Contents (Elt F) → (⟨S850000, .i1⟩ : BufTy).Contents (Elt F))
  :: StableHlo.nullary main_c_34 (constantI S_ 32 50000#32)
  :: StableHlo.unary main_c_34 main_v145 (broadcastInDim S850000 ![] bcast_S_S850000 : (⟨S_, .i32⟩ : BufTy).Contents (Elt F) → (⟨S850000, .i32⟩ : BufTy).Contents (Elt F))
  :: StableHlo.binary main_v123 main_v145 main_v146 (addi : (⟨S850000, .i32⟩ : BufTy).Contents (Elt F) → (⟨S850000, .i32⟩ : BufTy).Contents (Elt F) → (⟨S850000, .i32⟩ : BufTy).Contents (Elt F))
  :: StableHlo.ternary main_v144 main_v146 main_v123 main_v147 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v147 main_v148 (broadcastInDim S850000x1 ![0] bcast_S850000_S850000x1_0 : (⟨S850000, .i32⟩ : BufTy).Contents (Elt F) → (⟨S850000x1, .i32⟩ : BufTy).Contents (Elt F))
  :: StableHlo.binary main_v134 main_v148 main_v149 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v142 main_v149 main_v150 (mulf : (⟨S850000, .f32⟩ : BufTy).Contents (Elt F) → (⟨S850000, .f32⟩ : BufTy).Contents (Elt F) → (⟨S850000, .f32⟩ : BufTy).Contents (Elt F))
  :: StableHlo.nullary main_c_35 (constantI S_ 32 0#32)
  :: StableHlo.unary main_c_35 main_v151 (broadcastInDim S850000 ![] bcast_S_S850000 : (⟨S_, .i32⟩ : BufTy).Contents (Elt F) → (⟨S850000, .i32⟩ : BufTy).Contents (Elt F))
  :: StableHlo.binary main_v122 main_v151 main_v152 (cmpi .slt : (⟨S850000, .i32⟩ : BufTy).Contents (Elt F) → (⟨S850000, .i32⟩ : BufTy).Contents (Elt F) → (⟨S850000, .i1⟩ : BufTy).Contents (Elt F))
  :: StableHlo.nullary main_c_36 (constantI S_ 32 50000#32)
  :: StableHlo.unary main_c_36 main_v153 (broadcastInDim S850000 ![] bcast_S_S850000 : (⟨S_, .i32⟩ : BufTy).Contents (Elt F) → (⟨S850000, .i32⟩ : BufTy).Contents (Elt F))
  :: StableHlo.binary main_v122 main_v153 main_v154 (addi : (⟨S850000, .i32⟩ : BufTy).Contents (Elt F) → (⟨S850000, .i32⟩ : BufTy).Contents (Elt F) → (⟨S850000, .i32⟩ : BufTy).Contents (Elt F))
  :: StableHlo.ternary main_v152 main_v154 main_v122 main_v155 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v155 main_v156 (broadcastInDim S850000x1 ![0] bcast_S850000_S850000x1_0 : (⟨S850000, .i32⟩ : BufTy).Contents (Elt F) → (⟨S850000x1, .i32⟩ : BufTy).Contents (Elt F))
  :: StableHlo.binary main_v120 main_v156 main_v157 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F))
  :: StableHlo.unary main_v150 main_v158 (broadcastInDim S850000x1 ![0] bcast_S850000_S850000x1_0 : (⟨S850000, .f32⟩ : BufTy).Contents (Elt F) → (⟨S850000x1, .f32⟩ : BufTy).Contents (Elt F))
  :: StableHlo.unary main_v158 main_v159 (broadcastInDim S850000x64 ![0, 1] bcast_S850000x1_S850000x64_0_1 : (⟨S850000x1, .f32⟩ : BufTy).Contents (Elt F) → (⟨S850000x64, .f32⟩ : BufTy).Contents (Elt F))
  :: StableHlo.binary main_v157 main_v159 main_v160 (mulf : (⟨S850000x64, .f32⟩ : BufTy).Contents (Elt F) → (⟨S850000x64, .f32⟩ : BufTy).Contents (Elt F) → (⟨S850000x64, .f32⟩ : BufTy).Contents (Elt F))
  :: StableHlo.nullary main_cst_37 (constant S_ .f32 0x00000000#32)
  :: StableHlo.unary main_cst_37 main_v161 (broadcastInDim S50000x64 ![] bcast_S_S50000x64 : (⟨S_, .f32⟩ : BufTy).Contents (Elt F) → (⟨S50000x64, .f32⟩ : BufTy).Contents (Elt F))
  :: StableHlo.unary main_v123 main_v162 (broadcastInDim S850000x1 ![0] bcast_S850000_S850000x1_0 : (⟨S850000, .i32⟩ : BufTy).Contents (Elt F) → (⟨S850000x1, .i32⟩ : BufTy).Contents (Elt F))
  :: StableHlo.ternary main_v161 main_v162 main_v160 main_v163 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F))
  :: StableHlo.unary main_arg9 main_v164 (broadcastInDim S1x64 ![1] bcast_S64_S1x64_1 : (⟨S64, .f32⟩ : BufTy).Contents (Elt F) → (⟨S1x64, .f32⟩ : BufTy).Contents (Elt F))
  :: StableHlo.unary main_v164 main_v165 (broadcastInDim S50000x64 ![0, 1] bcast_S1x64_S50000x64_0_1 : (⟨S1x64, .f32⟩ : BufTy).Contents (Elt F) → (⟨S50000x64, .f32⟩ : BufTy).Contents (Elt F))
  :: StableHlo.binary main_v163 main_v165 main_v166 (addf : (⟨S50000x64, .f32⟩ : BufTy).Contents (Elt F) → (⟨S50000x64, .f32⟩ : BufTy).Contents (Elt F) → (⟨S50000x64, .f32⟩ : BufTy).Contents (Elt F))
  :: StableHlo.binary main_arg3 main_v119 main_v167 (mulf : (⟨S50000x64, .f32⟩ : BufTy).Contents (Elt F) → (⟨S50000x64, .f32⟩ : BufTy).Contents (Elt F) → (⟨S50000x64, .f32⟩ : BufTy).Contents (Elt F))
  :: StableHlo.binary main_v166 main_v167 main_v168 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F))
  :: StableHlo.binary main_v168 main_arg14 main_v169 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
  :: StableHlo.unary main_arg15 main_v170 (broadcastInDim S1x64 ![1] bcast_S64_S1x64_1 : (⟨S64, .f32⟩ : BufTy).Contents (Elt F) → (⟨S1x64, .f32⟩ : BufTy).Contents (Elt F))
  :: StableHlo.unary main_v170 main_v171 (broadcastInDim S50000x64 ![0, 1] bcast_S1x64_S50000x64_0_1 : (⟨S1x64, .f32⟩ : BufTy).Contents (Elt F) → (⟨S50000x64, .f32⟩ : BufTy).Contents (Elt F))
  :: StableHlo.binary main_v169 main_v171 main_v172 (addf : (⟨S50000x64, .f32⟩ : BufTy).Contents (Elt F) → (⟨S50000x64, .f32⟩ : BufTy).Contents (Elt F) → (⟨S50000x64, .f32⟩ : BufTy).Contents (Elt F))
  :: StableHlo.unary main_v172 main_v173 (Host.tanh : (⟨S50000x64, .f32⟩ : BufTy).Contents (Elt F) → (⟨S50000x64, .f32⟩ : BufTy).Contents (Elt F))
  :: StableHlo.binary main_v61 main_arg3 main_v174 (mulf : (⟨S50000x64, .f32⟩ : BufTy).Contents (Elt F) → (⟨S50000x64, .f32⟩ : BufTy).Contents (Elt F) → (⟨S50000x64, .f32⟩ : BufTy).Contents (Elt F))
  :: StableHlo.nullary main_cst_38 (constant S_ .f32 0x3F800000#32)
  :: StableHlo.unary main_cst_38 main_v175 (broadcastInDim S50000x64 ![] bcast_S_S50000x64 : (⟨S_, .f32⟩ : BufTy).Contents (Elt F) → (⟨S50000x64, .f32⟩ : BufTy).Contents (Elt F))
  :: StableHlo.binary main_v175 main_v61 main_v176 (subf : (⟨S50000x64, .f32⟩ : BufTy).Contents (Elt F) → (⟨S50000x64, .f32⟩ : BufTy).Contents (Elt F) → (⟨S50000x64, .f32⟩ : BufTy).Contents (Elt F))
  :: StableHlo.binary main_v176 main_v173 main_v177 (mulf : (⟨S50000x64, .f32⟩ : BufTy).Contents (Elt F) → (⟨S50000x64, .f32⟩ : BufTy).Contents (Elt F) → (⟨S50000x64, .f32⟩ : BufTy).Contents (Elt F))
  :: StableHlo.binary main_v174 main_v177 main_v178 (addf : (⟨S50000x64, .f32⟩ : BufTy).Contents (Elt F) → (⟨S50000x64, .f32⟩ : BufTy).Contents (Elt F) → (⟨S50000x64, .f32⟩ : BufTy).Contents (Elt F))
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S50000x64, .f32⟩) (broadcastInDim S50000x64 ![] bcast_S_S50000x64)
  :: StableHlo.TRef.binary (.of main_v178 : StableHlo.TRef sig ⟨S50000x64, .f32⟩) (.of main_call3_v0 : StableHlo.TRef sig ⟨S50000x64, .f32⟩) (.of main_call3_v1 : StableHlo.TRef sig ⟨S50000x64, .i1⟩) (cmpf .ogt)
  :: StableHlo.TRef.nullary (.of main_call3_cst_0 : StableHlo.TRef sig ⟨S_, .f32⟩) (constant S_ .f32 0x00000000#32)
  :: StableHlo.TRef.unary (.of main_call3_cst_0 : StableHlo.TRef sig ⟨S_, .f32⟩) (.of main_call3_v2 : StableHlo.TRef sig ⟨S50000x64, .f32⟩) (broadcastInDim S50000x64 ![] bcast_S_S50000x64)
  :: StableHlo.TRef.binary (.of main_v178 : StableHlo.TRef sig ⟨S50000x64, .f32⟩) (.of main_call3_v2 : StableHlo.TRef sig ⟨S50000x64, .f32⟩) (.of main_call3_v3 : StableHlo.TRef sig ⟨S50000x64, .i1⟩) (cmpf .ogt)
  :: StableHlo.TRef.nullary (.of main_call3_cst_1 : StableHlo.TRef sig ⟨S_, .f32⟩) (constant S_ .f32 0x00000000#32)
  :: StableHlo.TRef.unary (.of main_call3_cst_1 : StableHlo.TRef sig ⟨S_, .f32⟩) (.of main_call3_call0_v0 : StableHlo.TRef sig ⟨S_, .f32⟩) id
  :: StableHlo.TRef.unary (.of main_call3_call0_v0 : StableHlo.TRef sig ⟨S_, .f32⟩) (.of main_call3_call0_v1 : StableHlo.TRef sig ⟨S50000x64, .f32⟩) (broadcastInDim S50000x64 ![] bcast_S_S50000x64)
  :: StableHlo.TRef.ternary (.of main_call3_v3 : StableHlo.TRef sig ⟨S50000x64, .i1⟩) (.of main_call3_call0_v1 : StableHlo.TRef sig ⟨S50000x64, .f32⟩) (.of main_v178 : StableHlo.TRef sig ⟨S50000x64, .f32⟩) (.of main_call3_v4 : StableHlo.TRef sig ⟨S50000x64, .f32⟩) select
  :: StableHlo.TRef.unary (.of main_call3_v4 : StableHlo.TRef sig ⟨S50000x64, .f32⟩) (.of main_call3_v5 : StableHlo.TRef sig ⟨S50000x64, .f32⟩) Host.expm1
  :: StableHlo.TRef.nullary (.of main_call3_cst_2 : StableHlo.TRef sig ⟨S_, .f32⟩) (constant S_ .f32 0x3F800000#32)
  :: StableHlo.TRef.unary (.of main_call3_cst_2 : StableHlo.TRef sig ⟨S_, .f32⟩) (.of main_call3_v6 : StableHlo.TRef sig ⟨S50000x64, .f32⟩) (broadcastInDim S50000x64 ![] bcast_S_S50000x64)
  :: StableHlo.TRef.binary (.of main_call3_v6 : StableHlo.TRef sig ⟨S50000x64, .f32⟩) (.of main_call3_v5 : StableHlo.TRef sig ⟨S50000x64, .f32⟩) (.of main_call3_v7 : StableHlo.TRef sig ⟨S50000x64, .f32⟩) mulf
  :: StableHlo.TRef.ternary (.of main_call3_v1 : StableHlo.TRef sig ⟨S50000x64, .i1⟩) (.of main_v178 : StableHlo.TRef sig ⟨S50000x64, .f32⟩) (.of main_call3_v7 : StableHlo.TRef sig ⟨S50000x64, .f32⟩) (.of main_v179 : StableHlo.TRef sig ⟨S50000x64, .f32⟩) select
  :: StableHlo.binary main_v179 main_arg16 main_v180 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F))
  :: StableHlo.unary main_arg17 main_v181 (broadcastInDim S1x16 ![1] bcast_S16_S1x16_1 : (⟨S16, .f32⟩ : BufTy).Contents (Elt F) → (⟨S1x16, .f32⟩ : BufTy).Contents (Elt F))
  :: StableHlo.unary main_v181 main_v182 (broadcastInDim S50000x16 ![0, 1] bcast_S1x16_S50000x16_0_1 : (⟨S1x16, .f32⟩ : BufTy).Contents (Elt F) → (⟨S50000x16, .f32⟩ : BufTy).Contents (Elt F))
  :: StableHlo.binary main_v180 main_v182 main_v183 (addf : (⟨S50000x16, .f32⟩ : BufTy).Contents (Elt F) → (⟨S50000x16, .f32⟩ : BufTy).Contents (Elt F) → (⟨S50000x16, .f32⟩ : BufTy).Contents (Elt F))
  :: [] )

/-- @main's 245 operations, in order: the four windows' lists one after the other. -/
abbrev ops : List (HloOp τ sig (Elt F)) := ops0 ++ ops1 ++ ops2 ++ ops3

set_option maxRecDepth 8192 in
set_option maxHeartbeats 4000000 in
/-- Window 0 of @main is the straight line of its operations: the called function's definition unfolded at the
    call and the call's record at its fields, both sides are one chain of operation steps. -/
theorem part0_eq (c : Dev nD) : main_part0 (F := F) c = seq ops0 := rfl

set_option maxRecDepth 8192 in
set_option maxHeartbeats 4000000 in
/-- Window 1 of @main is the straight line of its operations: the called function's definition unfolded at the
    call and the call's record at its fields, both sides are one chain of operation steps. -/
theorem part1_eq (c : Dev nD) : main_part1 (F := F) c = seq ops1 := rfl

set_option maxRecDepth 8192 in
set_option maxHeartbeats 4000000 in
/-- Window 2 of @main is the straight line of its operations: the called function's definition unfolded at the
    call and the call's record at its fields, both sides are one chain of operation steps. -/
theorem part2_eq (c : Dev nD) : main_part2 (F := F) c = seq ops2 := rfl

set_option maxRecDepth 8192 in
set_option maxHeartbeats 4000000 in
/-- Window 3 of @main is the straight line of its operations: the called function's definition unfolded at the
    call and the call's record at its fields, both sides are one chain of operation steps. -/
theorem part3_eq (c : Dev nD) : main_part3 (F := F) c = seq ops3 := rfl

/-- @main is the straight line of all its operations: its four windows in order, each the line of its own list, and
    two lines run one after the other are their concatenation run as one. -/
theorem main_eq (c : Dev nD) : main (F := F) c = seq ops := by
  show (main_part0 (F := F) c >>= fun _ => main_part1 (F := F) c >>= fun _ => main_part2 (F := F) c >>= fun _ => main_part3 (F := F) c) = _
  rw [part0_eq, part1_eq, part2_eq, part3_eq]
  show _ = seq (((ops0 ++ ops1) ++ ops2) ++ ops3)
  rw [seq_append, seq_append, seq_append]
  simp only [bind_assoc]

/-- The signature scopes no TensorCore buffer. -/
theorem scopedRefs_eq : (Finset.univ.filter fun b : Ref sig .tc => b.isScoped) = ∅ := by decide
/-- The signature scopes no semaphore on the TensorCore. -/
theorem scopedSems_eq : (Finset.univ.filter fun sm : SemLoc sig => sm.isScoped .tc) = ∅ := by decide

/-- Each operation of window 0 touches TensorCore references only. -/
theorem ops0_sub : (ops0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.nullary_bufs_sub ..,
    StableHlo.binary_bufs_sub .., StableHlo.binary_bufs_sub .., StableHlo.nullary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.unary_bufs_sub .., StableHlo.ternary_bufs_sub ..⟩

/-- Each operation of window 1 touches TensorCore references only. -/
theorem ops1_sub : (ops1 : List (HloOp τ sig (Elt F))).Forall fun op => op.bufs ⊆ tcRefs τ sig :=
  ⟨StableHlo.unary_bufs_sub .., StableHlo.unary_bufs_sub .., StableHlo.binary_bufs_sub .., StableHlo.binary_bufs_sub .., StableHlo.binary_bufs_sub .., StableHlo.unary_bufs_sub ..,
    StableHlo.unary_bufs_sub .., StableHlo.binary_bufs_sub .., StableHlo.unary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.binary_bufs_sub .., StableHlo.nullary_bufs_sub ..,
    StableHlo.binary_bufs_sub .., StableHlo.binary_bufs_sub .., StableHlo.nullary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub .., StableHlo.nullary_bufs_sub .., StableHlo.unary_bufs_sub ..,
    StableHlo.binary_bufs_sub .., StableHlo.nullary_bufs_sub ..⟩

/-- Each operation of window 2 touches TensorCore references only. -/
theorem ops2_sub : (ops2 : List (HloOp τ sig (Elt F))).Forall fun op => op.bufs ⊆ tcRefs τ sig :=
  ⟨StableHlo.unary_bufs_sub .., StableHlo.binary_bufs_sub .., StableHlo.ternary_bufs_sub .., StableHlo.unary_bufs_sub .., StableHlo.binary_bufs_sub .., StableHlo.unary_bufs_sub ..,
    StableHlo.unary_bufs_sub .., StableHlo.binary_bufs_sub .., StableHlo.nullary_bufs_sub .., StableHlo.unary_bufs_sub .., StableHlo.unary_bufs_sub .., StableHlo.ternary_bufs_sub ..,
    StableHlo.unary_bufs_sub .., StableHlo.unary_bufs_sub .., StableHlo.binary_bufs_sub .., StableHlo.binary_bufs_sub .., StableHlo.binary_bufs_sub .., StableHlo.unary_bufs_sub ..,
    StableHlo.unary_bufs_sub .., StableHlo.binary_bufs_sub .., StableHlo.unary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.binary_bufs_sub .., StableHlo.nullary_bufs_sub ..,
    StableHlo.binary_bufs_sub .., StableHlo.binary_bufs_sub .., StableHlo.nullary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.binary_bufs_sub ..,
    StableHlo.nullary_bufs_sub .., StableHlo.unary_bufs_sub ..⟩

/-- Each operation of window 3 touches TensorCore references only. -/
theorem ops3_sub : (ops3 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.unary_bufs_sub ..,
    StableHlo.unary_bufs_sub .., StableHlo.binary_bufs_sub .., StableHlo.nullary_bufs_sub .., StableHlo.unary_bufs_sub .., StableHlo.unary_bufs_sub .., StableHlo.ternary_bufs_sub ..,
    StableHlo.unary_bufs_sub .., StableHlo.unary_bufs_sub .., StableHlo.binary_bufs_sub .., StableHlo.binary_bufs_sub .., StableHlo.binary_bufs_sub .., StableHlo.binary_bufs_sub ..,
    StableHlo.unary_bufs_sub .., StableHlo.unary_bufs_sub .., StableHlo.binary_bufs_sub .., StableHlo.unary_bufs_sub .., StableHlo.binary_bufs_sub .., StableHlo.nullary_bufs_sub ..,
    StableHlo.unary_bufs_sub .., StableHlo.binary_bufs_sub .., StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub .., StableHlo.unary_bufs_sub .., StableHlo.binary_bufs_sub ..,
    StableHlo.ternary_bufs_sub .., StableHlo.binary_bufs_sub .., StableHlo.unary_bufs_sub .., StableHlo.unary_bufs_sub .., StableHlo.binary_bufs_sub ..⟩

/-- Each of @main's operations touches TensorCore references only. -/
theorem ops_sub : (ops : List (HloOp τ sig (Elt F))).Forall fun op => op.bufs ⊆ tcRefs τ sig :=
  List.forall_append.mpr ⟨List.forall_append.mpr ⟨List.forall_append.mpr ⟨ops0_sub, ops1_sub⟩, ops2_sub⟩, ops3_sub⟩

set_option maxRecDepth 8192 in
set_option maxHeartbeats 4000000 in
/-- Each operation of window 0 determines its results (none allocates a buffer at contents not chosen). -/
theorem ops0_fresh : ∀ op ∈ (ops0 : List (HloOp τ sig (Elt F))), op.fresh = ∅ := by
  intro _ h; (repeat (cases h with | head => rfl | tail _ h => ?_)); exact nomatch h

set_option maxRecDepth 8192 in
set_option maxHeartbeats 4000000 in
/-- Each operation of window 1 determines its results (none allocates a buffer at contents not chosen). -/
theorem ops1_fresh : ∀ op ∈ (ops1 : List (HloOp τ sig (Elt F))), op.fresh = ∅ := by
  intro _ h; (repeat (cases h with | head => rfl | tail _ h => ?_)); exact nomatch h

set_option maxRecDepth 8192 in
set_option maxHeartbeats 4000000 in
/-- Each operation of window 2 determines its results (none allocates a buffer at contents not chosen). -/
theorem ops2_fresh : ∀ op ∈ (ops2 : List (HloOp τ sig (Elt F))), op.fresh = ∅ := by
  intro _ h; (repeat (cases h with | head => rfl | tail _ h => ?_)); exact nomatch h

set_option maxRecDepth 8192 in
set_option maxHeartbeats 4000000 in
/-- Each operation of window 3 determines its results (none allocates a buffer at contents not chosen). -/
theorem ops3_fresh : ∀ op ∈ (ops3 : List (HloOp τ sig (Elt F))), op.fresh = ∅ := by
  intro _ h; (repeat (cases h with | head => rfl | tail _ h => ?_)); exact nomatch h

/-- Each of @main's operations determines its results. -/
theorem ops_fresh : ∀ op ∈ (ops : List (HloOp τ sig (Elt F))), op.fresh = ∅ := by
  intro op h
  rcases List.mem_append.mp h with h | h
  · rcases List.mem_append.mp h with h | h
    · rcases List.mem_append.mp h with h | h
      · exact ops0_fresh op h
      · exact ops1_fresh op h
    · exact ops2_fresh op h
  · exact ops3_fresh op h

/-- On every device, for any float values, from any memory with zero counters: every weakly fair execution of @main
    on the TensorCores terminates, and every final state has each TensorCore buffer at the fold of the operations'
    results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefVals.lean ====
/- What the reference's run leaves in its two result buffers, read back from the list of its operations.
   The operations are regrouped at the arrays they finish (three aggregations along the normalised edges, two gates,
   the rest); what each group leaves in the buffers read later is the named array of what it read; composed, the two
   results are arrays of the arguments' launch contents. -/
import proofs.«118302_j40037685133528_2_alg».proof.Proof.RefRun
import proofs.«118302_j40037685133528_2_alg».proof.Proof.HostSpec
import proofs.«118302_j40037685133528_2_alg».proof.Proof.Spec
import proofs.«118302_j40037685133528_2_alg».proof.Proof.LibDot
import Idealize.ShloMosaic.Lib.Pipeline.Value
import Idealize.ShloMosaic.Lib.IdealHost

noncomputable section

namespace Cert.ReferenceIdeal.RefVals

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx
open scoped BigOperators

/-- One operation's written buffer is in the list of a group's written buffers. -/
local macro "wr" : tactic =>
  `(tactic| (simp only [nullary_writes, unary_writes, binary_writes, ternary_writes, reshape_writes,
      Finset.singleton_subset_iff, List.mem_toFinset]; exact List.mem_map_of_mem (by decide)))

/-! ## The arrays the operations compute, named

Each is the literal composition of the functions the listed operations apply, over any float values. -/

section Arrays
variable {F : FTy → Type} [FloatOps F]

/-- Row 0 of the edge index (the source of each given edge), as a vector. -/
def row0 (ei : IVec S2x800000 32) : IVec S800000 32 :=
  shapeCast S800000 (extractStridedSlice S1x800000 ![0, 0] ei slices_S2x800000_S1x800000_0_0) shapeCasts_S1x800000_S800000
/-- Row 1 of the edge index (the target of each given edge), as a vector. -/
def row1 (ei : IVec S2x800000 32) : IVec S800000 32 :=
  shapeCast S800000 (extractStridedSlice S1x800000 ![1, 0] ei slices_S2x800000_S1x800000_1_0) shapeCasts_S1x800000_S800000
/-- A row of edge ends followed by the self loops' ends 0 … 49999. -/
def withLoops (r : IVec S800000 32) : IVec S850000 32 :=
  concatenate S850000 0 [⟨S800000, r⟩, ⟨S50000, iotaInDim S50000 32 0⟩] concatenates_S800000_S50000_S850000_d0
/-- The edge weights followed by a one per self loop. -/
def wgt (ew : FVec F S800000 .f32) : FVec F S850000 .f32 :=
  concatenate S850000 0 [⟨S800000, ew⟩, ⟨S50000, broadcastInDim S50000 ![] bcast_S_S50000 (constant S_ .f32 0x3F800000#32)⟩] concatenates_S800000_S50000_S850000_d0
/-- A vector over the edges as a one-column array. -/
def col {α : Type} (v : S850000.Idx → α) : S850000x1.Idx → α := broadcastInDim S850000x1 ![0] bcast_S850000_S850000x1_0 v
/-- The weighted in-degree: the weights added up at their targets, from zero. -/
def degOf (dstv : IVec S850000 32) (w : FVec F S850000 .f32) : FVec F S50000 .f32 :=
  Host.scatterAdd scatter_S50000_S850000x1_S850000_n_0_0_1 (broadcastInDim S50000 ![] bcast_S_S50000 (constant S_ .f32 0x00000000#32)) (col dstv) w
/-- The inverse square root of the degree (raised to at least 1e-12) where the degree is positive, zero elsewhere. -/
def disOf (deg : FVec F S50000 .f32) : FVec F S50000 .f32 :=
  select (cmpf .ogt deg (broadcastInDim S50000 ![] bcast_S_S50000 (constant S_ .f32 0x00000000#32)))
    (Host.rsqrt (maximumf deg (broadcastInDim S50000 ![] bcast_S_S50000 (constant S_ .f32 0x2B8CBCCC#32))))
    (broadcastInDim S50000 ![] bcast_S_S50000 (constant S_ .f32 0x00000000#32))
/-- Node numbers as row indices: a negative one counted from the end, then as a one-column array. -/
def rowIdx (v : IVec S850000 32) : IVec S850000x1 32 :=
  col (select (cmpi .slt v (broadcastInDim S850000 ![] bcast_S_S850000 (constantI S_ 32 0#32)))
    (addi v (broadcastInDim S850000 ![] bcast_S_S850000 (constantI S_ 32 50000#32))) v)
/-- An edge's coefficient: the factor at its source times its weight, times the factor at its target. -/
def normOf (dis : FVec F S50000 .f32) (srcv dstv : IVec S850000 32) (w : FVec F S850000 .f32) : FVec F S850000 .f32 :=
  mulf (mulf (Host.gather gather_S50000_S850000x1_S850000_n_0_n_n_0_1_1 dis (rowIdx srcv)) w)
    (Host.gather gather_S50000_S850000x1_S850000_n_0_n_n_0_1_1 dis (rowIdx dstv))
/-- Each edge's source row of X scaled by the edge's coefficient, added up at the edge's target, from zero. -/
def aggOf (X : FVec F S50000x64 .f32) (srcv dstv : IVec S850000 32) (nrm : FVec F S850000 .f32) : FVec F S50000x64 .f32 :=
  Host.scatterAdd scatter_S50000x64_S850000x1_S850000x64_1_0_0_1 (broadcastInDim S50000x64 ![] bcast_S_S50000x64 (constant S_ .f32 0x00000000#32)) (col dstv)
    (mulf (Host.gather gather_S50000x64_S850000x1_S850000x64_1_0_n_n_0_1_164 X (rowIdx srcv))
      (broadcastInDim S850000x64 ![0, 1] bcast_S850000x1_S850000x64_0_1 (col nrm)))
/-- The normalised aggregation of X from the two rows of edge ends and the weights. -/
def aggR (X : FVec F S50000x64 .f32) (r0 r1 : IVec S800000 32) (ew : FVec F S800000 .f32) : FVec F S50000x64 .f32 :=
  aggOf X (withLoops r0) (withLoops r1) (normOf (disOf (degOf (withLoops r1) (wgt ew))) (withLoops r0) (withLoops r1) (wgt ew))
/-- The normalised aggregation of X over the graph given by the edge index and the weights. -/
def agg (X : FVec F S50000x64 .f32) (ei : IVec S2x800000 32) (ew : FVec F S800000 .f32) : FVec F S50000x64 .f32 :=
  aggR X (row0 ei) (row1 ei) ew
/-- The feature matrix times a 64×64 weight matrix. -/
def xw (x : FVec F S50000x64 .f32) (W : FVec F S64x64 .f32) : FVec F S50000x64 .f32 :=
  Host.dotGeneral dot_S50000x64_S64x64_S50000x64_1_0_0_1_n_n none x W
/-- A vector of 64 entries repeated down the 50000 rows. -/
def rowB (b : FVec F S64 .f32) : FVec F S50000x64 .f32 :=
  broadcastInDim S50000x64 ![0, 1] bcast_S1x64_S50000x64_0_1 (broadcastInDim S1x64 ![1] bcast_S64_S1x64_1 b)
/-- A vector of 16 entries repeated down the 50000 rows. -/
def rowB16 (b : FVec F S16 .f32) : FVec F S50000x16 .f32 :=
  broadcastInDim S50000x16 ![0, 1] bcast_S1x16_S50000x16_0_1 (broadcastInDim S1x16 ![1] bcast_S16_S1x16_1 b)
/-- The all-ones and the all-zeros 50000×64 arrays. -/
def ones64 : FVec F S50000x64 .f32 := broadcastInDim S50000x64 ![] bcast_S_S50000x64 (constant S_ .f32 0x3F800000#32)
def zeros64 : FVec F S50000x64 .f32 := broadcastInDim S50000x64 ![] bcast_S_S50000x64 (constant S_ .f32 0x00000000#32)
/-- Two 50000×64 arrays side by side. -/
def catH (a b : FVec F S50000x64 .f32) : FVec F S50000x128 .f32 :=
  concatenate S50000x128 1 [⟨S50000x64, a⟩, ⟨S50000x64, b⟩] concatenates_S50000x64_S50000x64_S50000x128_d1
/-- An aggregation plus its bias. -/
def conv (A : FVec F S50000x64 .f32) (b : FVec F S64 .f32) : FVec F S50000x64 .f32 := addf A (rowB b)
/-- A gate's pre-activation: the convolved and the hidden-term features side by side, times the 128×64 matrix, plus the bias. -/
def pre (C H : FVec F S50000x64 .f32) (L : FVec F S128x64 .f32) (lb : FVec F S64 .f32) : FVec F S50000x64 .f32 :=
  addf (Host.dotGeneral dot_S50000x128_S128x64_S50000x64_1_0_0_1_n_n none (catH C H) L) (rowB lb)
/-- The logistic function written out: one over one plus the exponential of the negation. -/
def sigm (P : FVec F S50000x64 .f32) : FVec F S50000x64 .f32 := Host.divf ones64 (addf ones64 (Host.exp (Host.negf P)))
/-- The new hidden features from the two gates Z, R, the third aggregation and the old hidden features. -/
def hid (Z R Ah H : FVec F S50000x64 .f32) (bh : FVec F S64 .f32) (Lh : FVec F S128x64 .f32) (lbh : FVec F S64 .f32) : FVec F S50000x64 .f32 :=
  addf (mulf Z H) (mulf (subf ones64 Z) (Host.tanh (pre (conv Ah bh) (mulf H R) Lh lbh)))
/-- The exponential linear unit as the outlined function computes it. -/
def eluA (X : FVec F S50000x64 .f32) : FVec F S50000x64 .f32 :=
  select (cmpf .ogt X zeros64) X (mulf ones64 (Host.expm1 (select (cmpf .ogt X zeros64) zeros64 X)))
/-- The output: the unit of the hidden features times the 64×16 matrix, plus the bias. -/
def outA (Hn : FVec F S50000x64 .f32) (Wl : FVec F S64x16 .f32) (bl : FVec F S16 .f32) : FVec F S50000x16 .f32 :=
  addf (Host.dotGeneral dot_S50000x64_S64x16_S50000x16_1_0_0_1_n_n none (eluA Hn) Wl) (rowB16 bl)

end Arrays

/-! ## @main's operations regrouped

The same operations in the same order, cut where one array is finished and the next begun: the first aggregation
(the first window as it stands), the first gate, the second aggregation, the second gate, the third aggregation, the rest. -/

section Segments
variable {F : FTy → Type} [FloatOps F]

/-- The first aggregation's operations: the first window. -/
def S0 : List (HloOp τ sig (Elt F)) := ops0
set_option maxRecDepth 8192 in
set_option maxHeartbeats 4000000 in
/-- The 16 operations of the first gate: the first aggregation plus its bias, set beside the hidden features, times the gate's matrix, plus its bias, then the logistic function written out. -/
def S1 : List (HloOp τ sig (Elt F)) :=
  ( StableHlo.unary main_arg5 main_v48 (broadcastInDim S1x64 ![1] bcast_S64_S1x64_1 : (⟨S64, .f32⟩ : BufTy).Contents (Elt F) → (⟨S1x64, .f32⟩ : BufTy).Contents (Elt F))
  :: StableHlo.unary main_v48 main_v49 (broadcastInDim S50000x64 ![0, 1] bcast_S1x64_S50000x64_0_1 : (⟨S1x64, .f32⟩ : BufTy).Contents (Elt F) → (⟨S50000x64, .f32⟩ : BufTy).Contents (Elt F))
  :: StableHlo.binary main_v47 main_v49 main_v50 (addf : (⟨S50000x64, .f32⟩ : BufTy).Contents (Elt F) → (⟨S50000x64, .f32⟩ : BufTy).Contents (Elt F) → (⟨S50000x64, .f32⟩ : BufTy).Contents (Elt F))
  :: StableHlo.binary main_v50 main_arg3 main_v51 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F))
  :: StableHlo.binary main_v51 main_arg10 main_v52 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
  :: StableHlo.unary main_arg11 main_v53 (broadcastInDim S1x64 ![1] bcast_S64_S1x64_1 : (⟨S64, .f32⟩ : BufTy).Contents (Elt F) → (⟨S1x64, .f32⟩ : BufTy).Contents (Elt F))
  :: StableHlo.unary main_v53 main_v54 (broadcastInDim S50000x64 ![0, 1] bcast_S1x64_S50000x64_0_1 : (⟨S1x64, .f32⟩ : BufTy).Contents (Elt F) → (⟨S50000x64, .f32⟩ : BufTy).Contents (Elt F))
  :: StableHlo.binary main_v52 main_v54 main_v55 (addf : (⟨S50000x64, .f32⟩ : BufTy).Contents (Elt F) → (⟨S50000x64, .f32⟩ : BufTy).Contents (Elt F) → (⟨S50000x64, .f32⟩ : BufTy).Contents (Elt F))
  :: StableHlo.unary main_v55 main_v56 (Host.negf : (⟨S50000x64, .f32⟩ : BufTy).Contents (Elt F) → (⟨S50000x64, .f32⟩ : BufTy).Contents (Elt F))
  :: StableHlo.unary main_v56 main_v57 (Host.exp : (⟨S50000x64, .f32⟩ : BufTy).Contents (Elt F) → (⟨S50000x64, .f32⟩ : BufTy).Contents (Elt F))
  :: StableHlo.nullary main_cst_10 (constant S_ .f32 0x3F800000#32)
  :: StableHlo.unary main_cst_10 main_v58 (broadcastInDim S50000x64 ![] bcast_S_S50000x64 : (⟨S_, .f32⟩ : BufTy).Contents (Elt F) → (⟨S50000x64, .f32⟩ : BufTy).Contents (Elt F))
  :: StableHlo.binary main_v58 main_v57 main_v59 (addf : (⟨S50000x64, .f32⟩ : BufTy).Contents (Elt F) → (⟨S50000x64, .f32⟩ : BufTy).Contents (Elt F) → (⟨S50000x64, .f32⟩ : BufTy).Contents (Elt F))
  :: StableHlo.nullary main_cst_11 (constant S_ .f32 0x3F800000#32)
  :: StableHlo.unary main_cst_11 main_v60 (broadcastInDim S50000x64 ![] bcast_S_S50000x64 : (⟨S_, .f32⟩ : BufTy).Contents (Elt F) → (⟨S50000x64, .f32⟩ : BufTy).Contents (Elt F))
  :: StableHlo.binary main_v60 main_v59 main_v61 (Host.divf : (⟨S50000x64, .f32⟩ : BufTy).Contents (Elt F) → (⟨S50000x64, .f32⟩ : BufTy).Contents (Elt F) → (⟨S50000x64, .f32⟩ : BufTy).Contents (Elt F))
  :: [] )

set_option maxRecDepth 8192 in
set_option maxHeartbeats 4000000 in
/-- The 58 operations of the second aggregation: the features times the second weight matrix aggregated along the normalised edges. -/
def S2 : List (HloOp τ sig (Elt F)) :=
  ( StableHlo.binary main_arg0 main_arg6 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
  :: StableHlo.nullary main_v63 (iotaInDim S50000 32 0)
  :: StableHlo.binary main_v1 main_v63 main_v64 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.binary main_v3 main_v63 main_v65 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.nullary main_cst_12 (constant S_ .f32 0x3F800000#32)
  :: StableHlo.unary main_cst_12 main_v66 (broadcastInDim S50000 ![] bcast_S_S50000 : (⟨S_, .f32⟩ : BufTy).Contents (Elt F) → (⟨S50000, .f32⟩ : BufTy).Contents (Elt F))
  :: StableHlo.binary main_arg2 main_v66 main_v67 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F))
  :: StableHlo.nullary main_cst_13 (constant S_ .f32 0x00000000#32)
  :: StableHlo.unary main_cst_13 main_v68 (broadcastInDim S50000 ![] bcast_S_S50000 : (⟨S_, .f32⟩ : BufTy).Contents (Elt F) → (⟨S50000, .f32⟩ : BufTy).Contents (Elt F))
  :: StableHlo.unary main_v65 main_v69 (broadcastInDim S850000x1 ![0] bcast_S850000_S850000x1_0 : (⟨S850000, .i32⟩ : BufTy).Contents (Elt F) → (⟨S850000x1, .i32⟩ : BufTy).Contents (Elt F))
  :: StableHlo.ternary main_v68 main_v69 main_v67 main_v70 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))
  :: StableHlo.nullary main_cst_14 (constant S_ .f32 0x00000000#32)
  :: StableHlo.unary main_cst_14 main_v71 (broadcastInDim S50000 ![] bcast_S_S50000 : (⟨S_, .f32⟩ : BufTy).Contents (Elt F) → (⟨S50000, .f32⟩ : BufTy).Contents (Elt F))
  :: StableHlo.binary main_v70 main_v71 main_v72 (cmpf .ogt : (⟨S50000, .f32⟩ : BufTy).Contents (Elt F) → (⟨S50000, .f32⟩ : BufTy).Contents (Elt F) → (⟨S50000, .i1⟩ : BufTy).Contents (Elt F))
  :: StableHlo.nullary main_cst_15 (constant S_ .f32 0x2B8CBCCC#32)
  :: StableHlo.unary main_cst_15 main_v73 (broadcastInDim S50000 ![] bcast_S_S50000 : (⟨S_, .f32⟩ : BufTy).Contents (Elt F) → (⟨S50000, .f32⟩ : BufTy).Contents (Elt F))
  :: StableHlo.binary main_v70 main_v73 main_v74 (maximumf : (⟨S50000, .f32⟩ : BufTy).Contents (Elt F) → (⟨S50000, .f32⟩ : BufTy).Contents (Elt F) → (⟨S50000, .f32⟩ : BufTy).Contents (Elt F))
  :: StableHlo.unary main_v74 main_v75 (Host.rsqrt : (⟨S50000, .f32⟩ : BufTy).Contents (Elt F) → (⟨S50000, .f32⟩ : BufTy).Contents (Elt F))
  :: StableHlo.nullary main_cst_16 (constant S_ .f32 0x00000000#32)
  :: StableHlo.TRef.unary (.of main_cst_16 : StableHlo.TRef sig ⟨S_, .f32⟩) (.of main_call1_v0 : StableHlo.TRef sig ⟨S_, .f32⟩) id
  :: StableHlo.TRef.unary (.of main_call1_v0 : StableHlo.TRef sig ⟨S_, .f32⟩) (.of main_call1_v1 : StableHlo.TRef sig ⟨S50000, .f32⟩) (broadcastInDim S50000 ![] bcast_S_S50000)
  :: StableHlo.TRef.ternary (.of main_v72 : StableHlo.TRef sig ⟨S50000, .i1⟩) (.of main_v75 : StableHlo.TRef sig ⟨S50000, .f32⟩) (.of main_call1_v1 : StableHlo.TRef sig ⟨S50000, .f32⟩) (.of main_v76 : StableHlo.TRef sig ⟨S50000, .f32⟩) select
  :: StableHlo.nullary main_c_17 (constantI S_ 32 0#32)
  :: StableHlo.unary main_c_17 main_v77 (broadcastInDim S850000 ![] bcast_S_S850000 : (⟨S_, .i32⟩ : BufTy).Contents (Elt F) → (⟨S850000, .i32⟩ : BufTy).Contents (Elt F))
  :: StableHlo.binary main_v64 main_v77 main_v78 (cmpi .slt : (⟨S850000, .i32⟩ : BufTy).Contents (Elt F) → (⟨S850000, .i32⟩ : BufTy).Contents (Elt F) → (⟨S850000, .i1⟩ : BufTy).Contents (Elt F))
  :: StableHlo.nullary main_c_18 (constantI S_ 32 50000#32)
  :: StableHlo.unary main_c_18 main_v79 (broadcastInDim S850000 ![] bcast_S_S850000 : (⟨S_, .i32⟩ : BufTy).Contents (Elt F) → (⟨S850000, .i32⟩ : BufTy).Contents (Elt F))
  :: StableHlo.binary main_v64 main_v79 main_v80 (addi : (⟨S850000, .i32⟩ : BufTy).Contents (Elt F) → (⟨S850000, .i32⟩ : BufTy).Contents (Elt F) → (⟨S850000, .i32⟩ : BufTy).Contents (Elt F))
  :: StableHlo.ternary main_v78 main_v80 main_v64 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v81 main_v82 (broadcastInDim S850000x1 ![0] bcast_S850000_S850000x1_0 : (⟨S850000, .i32⟩ : BufTy).Contents (Elt F) → (⟨S850000x1, .i32⟩ : BufTy).Contents (Elt F))
  :: StableHlo.binary main_v76 main_v82 main_v83 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v83 main_v67 main_v84 (mulf : (⟨S850000, .f32⟩ : BufTy).Contents (Elt F) → (⟨S850000, .f32⟩ : BufTy).Contents (Elt F) → (⟨S850000, .f32⟩ : BufTy).Contents (Elt F))
  :: StableHlo.nullary main_c_19 (constantI S_ 32 0#32)
  :: StableHlo.unary main_c_19 main_v85 (broadcastInDim S850000 ![] bcast_S_S850000 : (⟨S_, .i32⟩ : BufTy).Contents (Elt F) → (⟨S850000, .i32⟩ : BufTy).Contents (Elt F))
  :: StableHlo.binary main_v65 main_v85 main_v86 (cmpi .slt : (⟨S850000, .i32⟩ : BufTy).Contents (Elt F) → (⟨S850000, .i32⟩ : BufTy).Contents (Elt F) → (⟨S850000, .i1⟩ : BufTy).Contents (Elt F))
  :: StableHlo.nullary main_c_20 (constantI S_ 32 50000#32)
  :: StableHlo.unary main_c_20 main_v87 (broadcastInDim S850000 ![] bcast_S_S850000 : (⟨S_, .i32⟩ : BufTy).Contents (Elt F) → (⟨S850000, .i32⟩ : BufTy).Contents (Elt F))
  :: StableHlo.binary main_v65 main_v87 main_v88 (addi : (⟨S850000, .i32⟩ : BufTy).Contents (Elt F) → (⟨S850000, .i32⟩ : BufTy).Contents (Elt F) → (⟨S850000, .i32⟩ : BufTy).Contents (Elt F))
  :: StableHlo.ternary main_v86 main_v88 main_v65 main_v89 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v89 main_v90 (broadcastInDim S850000x1 ![0] bcast_S850000_S850000x1_0 : (⟨S850000, .i32⟩ : BufTy).Contents (Elt F) → (⟨S850000x1, .i32⟩ : BufTy).Contents (Elt F))
  :: StableHlo.binary main_v76 main_v90 main_v91 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v84 main_v91 main_v92 (mulf : (⟨S850000, .f32⟩ : BufTy).Contents (Elt F) → (⟨S850000, .f32⟩ : BufTy).Contents (Elt F) → (⟨S850000, .f32⟩ : BufTy).Contents (Elt F))
  :: StableHlo.nullary main_c_21 (constantI S_ 32 0#32)
  :: StableHlo.unary main_c_21 main_v93 (broadcastInDim S850000 ![] bcast_S_S850000 : (⟨S_, .i32⟩ : BufTy).Contents (Elt F) → (⟨S850000, .i32⟩ : BufTy).Contents (Elt F))
  :: StableHlo.binary main_v64 main_v93 main_v94 (cmpi .slt : (⟨S850000, .i32⟩ : BufTy).Contents (Elt F) → (⟨S850000, .i32⟩ : BufTy).Contents (Elt F) → (⟨S850000, .i1⟩ : BufTy).Contents (Elt F))
  :: StableHlo.nullary main_c_22 (constantI S_ 32 50000#32)
  :: StableHlo.unary main_c_22 main_v95 (broadcastInDim S850000 ![] bcast_S_S850000 : (⟨S_, .i32⟩ : BufTy).Contents (Elt F) → (⟨S850000, .i32⟩ : BufTy).Contents (Elt F))
  :: StableHlo.binary main_v64 main_v95 main_v96 (addi : (⟨S850000, .i32⟩ : BufTy).Contents (Elt F) → (⟨S850000, .i32⟩ : BufTy).Contents (Elt F) → (⟨S850000, .i32⟩ : BufTy).Contents (Elt F))
  :: StableHlo.ternary main_v94 main_v96 main_v64 main_v97 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v97 main_v98 (broadcastInDim S850000x1 ![0] bcast_S850000_S850000x1_0 : (⟨S850000, .i32⟩ : BufTy).Contents (Elt F) → (⟨S850000x1, .i32⟩ : BufTy).Contents (Elt F))
  :: StableHlo.binary main_v62 main_v98 main_v99 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F))
  :: StableHlo.unary main_v92 main_v100 (broadcastInDim S850000x1 ![0] bcast_S850000_S850000x1_0 : (⟨S850000, .f32⟩ : BufTy).Contents (Elt F) → (⟨S850000x1, .f32⟩ : BufTy).Contents (Elt F))
  :: StableHlo.unary main_v100 main_v101 (broadcastInDim S850000x64 ![0, 1] bcast_S850000x1_S850000x64_0_1 : (⟨S850000x1, .f32⟩ : BufTy).Contents (Elt F) → (⟨S850000x64, .f32⟩ : BufTy).Contents (Elt F))
  :: StableHlo.binary main_v99 main_v101 main_v102 (mulf : (⟨S850000x64, .f32⟩ : BufTy).Contents (Elt F) → (⟨S850000x64, .f32⟩ : BufTy).Contents (Elt F) → (⟨S850000x64, .f32⟩ : BufTy).Contents (Elt F))
  :: StableHlo.nullary main_cst_23 (constant S_ .f32 0x00000000#32)
  :: StableHlo.unary main_cst_23 main_v103 (broadcastInDim S50000x64 ![] bcast_S_S50000x64 : (⟨S_, .f32⟩ : BufTy).Contents (Elt F) → (⟨S50000x64, .f32⟩ : BufTy).Contents (Elt F))
  :: StableHlo.unary main_v65 main_v104 (broadcastInDim S850000x1 ![0] bcast_S850000_S850000x1_0 : (⟨S850000, .i32⟩ : BufTy).Contents (Elt F) → (⟨S850000x1, .i32⟩ : BufTy).Contents (Elt F))
  :: StableHlo.ternary main_v103 main_v104 main_v102 main_v105 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F))
  :: [] )

set_option maxRecDepth 8192 in
set_option maxHeartbeats 4000000 in
/-- The 16 operations of the second gate, as the first. -/
def S3 : List (HloOp τ sig (Elt F)) :=
  ( StableHlo.unary main_arg7 main_v106 (broadcastInDim S1x64 ![1] bcast_S64_S1x64_1 : (⟨S64, .f32⟩ : BufTy).Contents (Elt F) → (⟨S1x64, .f32⟩ : BufTy).Contents (Elt F))
  :: StableHlo.unary main_v106 main_v107 (broadcastInDim S50000x64 ![0, 1] bcast_S1x64_S50000x64_0_1 : (⟨S1x64, .f32⟩ : BufTy).Contents (Elt F) → (⟨S50000x64, .f32⟩ : BufTy).Contents (Elt F))
  :: StableHlo.binary main_v105 main_v107 main_v108 (addf : (⟨S50000x64, .f32⟩ : BufTy).Contents (Elt F) → (⟨S50000x64, .f32⟩ : BufTy).Contents (Elt F) → (⟨S50000x64, .f32⟩ : BufTy).Contents (Elt F))
  :: StableHlo.binary main_v108 main_arg3 main_v109 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F))
  :: StableHlo.binary main_v109 main_arg12 main_v110 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
  :: StableHlo.unary main_arg13 main_v111 (broadcastInDim S1x64 ![1] bcast_S64_S1x64_1 : (⟨S64, .f32⟩ : BufTy).Contents (Elt F) → (⟨S1x64, .f32⟩ : BufTy).Contents (Elt F))
  :: StableHlo.unary main_v111 main_v112 (broadcastInDim S50000x64 ![0, 1] bcast_S1x64_S50000x64_0_1 : (⟨S1x64, .f32⟩ : BufTy).Contents (Elt F) → (⟨S50000x64, .f32⟩ : BufTy).Contents (Elt F))
  :: StableHlo.binary main_v110 main_v112 main_v113 (addf : (⟨S50000x64, .f32⟩ : BufTy).Contents (Elt F) → (⟨S50000x64, .f32⟩ : BufTy).Contents (Elt F) → (⟨S50000x64, .f32⟩ : BufTy).Contents (Elt F))
  :: StableHlo.unary main_v113 main_v114 (Host.negf : (⟨S50000x64, .f32⟩ : BufTy).Contents (Elt F) → (⟨S50000x64, .f32⟩ : BufTy).Contents (Elt F))
  :: StableHlo.unary main_v114 main_v115 (Host.exp : (⟨S50000x64, .f32⟩ : BufTy).Contents (Elt F) → (⟨S50000x64, .f32⟩ : BufTy).Contents (Elt F))
  :: StableHlo.nullary main_cst_24 (constant S_ .f32 0x3F800000#32)
  :: StableHlo.unary main_cst_24 main_v116 (broadcastInDim S50000x64 ![] bcast_S_S50000x64 : (⟨S_, .f32⟩ : BufTy).Contents (Elt F) → (⟨S50000x64, .f32⟩ : BufTy).Contents (Elt F))
  :: StableHlo.binary main_v116 main_v115 main_v117 (addf : (⟨S50000x64, .f32⟩ : BufTy).Contents (Elt F) → (⟨S50000x64, .f32⟩ : BufTy).Contents (Elt F) → (⟨S50000x64, .f32⟩ : BufTy).Contents (Elt F))
  :: StableHlo.nullary main_cst_25 (constant S_ .f32 0x3F800000#32)
  :: StableHlo.unary main_cst_25 main_v118 (broadcastInDim S50000x64 ![] bcast_S_S50000x64 : (⟨S_, .f32⟩ : BufTy).Contents (Elt F) → (⟨S50000x64, .f32⟩ : BufTy).Contents (Elt F))
  :: StableHlo.binary main_v118 main_v117 main_v119 (Host.divf : (⟨S50000x64, .f32⟩ : BufTy).Contents (Elt F) → (⟨S50000x64, .f32⟩ : BufTy).Contents (Elt F) → (⟨S50000x64, .f32⟩ : BufTy).Contents (Elt F))
  :: [] )

set_option maxRecDepth 8192 in
set_option maxHeartbeats 4000000 in
/-- The 58 operations of the third aggregation. -/
def S4 : List (HloOp τ sig (Elt F)) :=
  ( StableHlo.binary main_arg0 main_arg8 main_v120 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F))
  :: StableHlo.nullary main_v121 (iotaInDim S50000 32 0)
  :: StableHlo.binary main_v1 main_v121 main_v122 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.binary main_v3 main_v121 main_v123 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.nullary main_cst_26 (constant S_ .f32 0x3F800000#32)
  :: StableHlo.unary main_cst_26 main_v124 (broadcastInDim S50000 ![] bcast_S_S50000 : (⟨S_, .f32⟩ : BufTy).Contents (Elt F) → (⟨S50000, .f32⟩ : BufTy).Contents (Elt F))
  :: StableHlo.binary main_arg2 main_v124 main_v125 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F))
  :: StableHlo.nullary main_cst_27 (constant S_ .f32 0x00000000#32)
  :: StableHlo.unary main_cst_27 main_v126 (broadcastInDim S50000 ![] bcast_S_S50000 : (⟨S_, .f32⟩ : BufTy).Contents (Elt F) → (⟨S50000, .f32⟩ : BufTy).Contents (Elt F))
  :: StableHlo.unary main_v123 main_v127 (broadcastInDim S850000x1 ![0] bcast_S850000_S850000x1_0 : (⟨S850000, .i32⟩ : BufTy).Contents (Elt F) → (⟨S850000x1, .i32⟩ : BufTy).Contents (Elt F))
  :: StableHlo.ternary main_v126 main_v127 main_v125 main_v128 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))
  :: StableHlo.nullary main_cst_28 (constant S_ .f32 0x00000000#32)
  :: StableHlo.unary main_cst_28 main_v129 (broadcastInDim S50000 ![] bcast_S_S50000 : (⟨S_, .f32⟩ : BufTy).Contents (Elt F) → (⟨S50000, .f32⟩ : BufTy).Contents (Elt F))
  :: StableHlo.binary main_v128 main_v129 main_v130 (cmpf .ogt : (⟨S50000, .f32⟩ : BufTy).Contents (Elt F) → (⟨S50000, .f32⟩ : BufTy).Contents (Elt F) → (⟨S50000, .i1⟩ : BufTy).Contents (Elt F))
  :: StableHlo.nullary main_cst_29 (constant S_ .f32 0x2B8CBCCC#32)
  :: StableHlo.unary main_cst_29 main_v131 (broadcastInDim S50000 ![] bcast_S_S50000 : (⟨S_, .f32⟩ : BufTy).Contents (Elt F) → (⟨S50000, .f32⟩ : BufTy).Contents (Elt F))
  :: StableHlo.binary main_v128 main_v131 main_v132 (maximumf : (⟨S50000, .f32⟩ : BufTy).Contents (Elt F) → (⟨S50000, .f32⟩ : BufTy).Contents (Elt F) → (⟨S50000, .f32⟩ : BufTy).Contents (Elt F))
  :: StableHlo.unary main_v132 main_v133 (Host.rsqrt : (⟨S50000, .f32⟩ : BufTy).Contents (Elt F) → (⟨S50000, .f32⟩ : BufTy).Contents (Elt F))
  :: StableHlo.nullary main_cst_30 (constant S_ .f32 0x00000000#32)
  :: StableHlo.TRef.unary (.of main_cst_30 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S50000, .f32⟩) (broadcastInDim S50000 ![] bcast_S_S50000)
  :: StableHlo.TRef.ternary (.of main_v130 : StableHlo.TRef sig ⟨S50000, .i1⟩) (.of main_v133 : StableHlo.TRef sig ⟨S50000, .f32⟩) (.of main_call2_v1 : StableHlo.TRef sig ⟨S50000, .f32⟩) (.of main_v134 : StableHlo.TRef sig ⟨S50000, .f32⟩) select
  :: StableHlo.nullary main_c_31 (constantI S_ 32 0#32)
  :: StableHlo.unary main_c_31 main_v135 (broadcastInDim S850000 ![] bcast_S_S850000 : (⟨S_, .i32⟩ : BufTy).Contents (Elt F) → (⟨S850000, .i32⟩ : BufTy).Contents (Elt F))
  :: StableHlo.binary main_v122 main_v135 main_v136 (cmpi .slt : (⟨S850000, .i32⟩ : BufTy).Contents (Elt F) → (⟨S850000, .i32⟩ : BufTy).Contents (Elt F) → (⟨S850000, .i1⟩ : BufTy).Contents (Elt F))
  :: StableHlo.nullary main_c_32 (constantI S_ 32 50000#32)
  :: StableHlo.unary main_c_32 main_v137 (broadcastInDim S850000 ![] bcast_S_S850000 : (⟨S_, .i32⟩ : BufTy).Contents (Elt F) → (⟨S850000, .i32⟩ : BufTy).Contents (Elt F))
  :: StableHlo.binary main_v122 main_v137 main_v138 (addi : (⟨S850000, .i32⟩ : BufTy).Contents (Elt F) → (⟨S850000, .i32⟩ : BufTy).Contents (Elt F) → (⟨S850000, .i32⟩ : BufTy).Contents (Elt F))
  :: StableHlo.ternary main_v136 main_v138 main_v122 main_v139 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v139 main_v140 (broadcastInDim S850000x1 ![0] bcast_S850000_S850000x1_0 : (⟨S850000, .i32⟩ : BufTy).Contents (Elt F) → (⟨S850000x1, .i32⟩ : BufTy).Contents (Elt F))
  :: StableHlo.binary main_v134 main_v140 main_v141 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v141 main_v125 main_v142 (mulf : (⟨S850000, .f32⟩ : BufTy).Contents (Elt F) → (⟨S850000, .f32⟩ : BufTy).Contents (Elt F) → (⟨S850000, .f32⟩ : BufTy).Contents (Elt F))
  :: StableHlo.nullary main_c_33 (constantI S_ 32 0#32)
  :: StableHlo.unary main_c_33 main_v143 (broadcastInDim S850000 ![] bcast_S_S850000 : (⟨S_, .i32⟩ : BufTy).Contents (Elt F) → (⟨S850000, .i32⟩ : BufTy).Contents (Elt F))
  :: StableHlo.binary main_v123 main_v143 main_v144 (cmpi .slt : (⟨S850000, .i32⟩ : BufTy).Contents (Elt F) → (⟨S850000, .i32⟩ : BufTy).Contents (Elt F) → (⟨S850000, .i1⟩ : BufTy).Contents (Elt F))
  :: StableHlo.nullary main_c_34 (constantI S_ 32 50000#32)
  :: StableHlo.unary main_c_34 main_v145 (broadcastInDim S850000 ![] bcast_S_S850000 : (⟨S_, .i32⟩ : BufTy).Contents (Elt F) → (⟨S850000, .i32⟩ : BufTy).Contents (Elt F))
  :: StableHlo.binary main_v123 main_v145 main_v146 (addi : (⟨S850000, .i32⟩ : BufTy).Contents (Elt F) → (⟨S850000, .i32⟩ : BufTy).Contents (Elt F) → (⟨S850000, .i32⟩ : BufTy).Contents (Elt F))
  :: StableHlo.ternary main_v144 main_v146 main_v123 main_v147 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v147 main_v148 (broadcastInDim S850000x1 ![0] bcast_S850000_S850000x1_0 : (⟨S850000, .i32⟩ : BufTy).Contents (Elt F) → (⟨S850000x1, .i32⟩ : BufTy).Contents (Elt F))
  :: StableHlo.binary main_v134 main_v148 main_v149 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))
  :: StableHlo.binary main_v142 main_v149 main_v150 (mulf : (⟨S850000, .f32⟩ : BufTy).Contents (Elt F) → (⟨S850000, .f32⟩ : BufTy).Contents (Elt F) → (⟨S850000, .f32⟩ : BufTy).Contents (Elt F))
  :: StableHlo.nullary main_c_35 (constantI S_ 32 0#32)
  :: StableHlo.unary main_c_35 main_v151 (broadcastInDim S850000 ![] bcast_S_S850000 : (⟨S_, .i32⟩ : BufTy).Contents (Elt F) → (⟨S850000, .i32⟩ : BufTy).Contents (Elt F))
  :: StableHlo.binary main_v122 main_v151 main_v152 (cmpi .slt : (⟨S850000, .i32⟩ : BufTy).Contents (Elt F) → (⟨S850000, .i32⟩ : BufTy).Contents (Elt F) → (⟨S850000, .i1⟩ : BufTy).Contents (Elt F))
  :: StableHlo.nullary main_c_36 (constantI S_ 32 50000#32)
  :: StableHlo.unary main_c_36 main_v153 (broadcastInDim S850000 ![] bcast_S_S850000 : (⟨S_, .i32⟩ : BufTy).Contents (Elt F) → (⟨S850000, .i32⟩ : BufTy).Contents (Elt F))
  :: StableHlo.binary main_v122 main_v153 main_v154 (addi : (⟨S850000, .i32⟩ : BufTy).Contents (Elt F) → (⟨S850000, .i32⟩ : BufTy).Contents (Elt F) → (⟨S850000, .i32⟩ : BufTy).Contents (Elt F))
  :: StableHlo.ternary main_v152 main_v154 main_v122 main_v155 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v155 main_v156 (broadcastInDim S850000x1 ![0] bcast_S850000_S850000x1_0 : (⟨S850000, .i32⟩ : BufTy).Contents (Elt F) → (⟨S850000x1, .i32⟩ : BufTy).Contents (Elt F))
  :: StableHlo.binary main_v120 main_v156 main_v157 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F))
  :: StableHlo.unary main_v150 main_v158 (broadcastInDim S850000x1 ![0] bcast_S850000_S850000x1_0 : (⟨S850000, .f32⟩ : BufTy).Contents (Elt F) → (⟨S850000x1, .f32⟩ : BufTy).Contents (Elt F))
  :: StableHlo.unary main_v158 main_v159 (broadcastInDim S850000x64 ![0, 1] bcast_S850000x1_S850000x64_0_1 : (⟨S850000x1, .f32⟩ : BufTy).Contents (Elt F) → (⟨S850000x64, .f32⟩ : BufTy).Contents (Elt F))
  :: StableHlo.binary main_v157 main_v159 main_v160 (mulf : (⟨S850000x64, .f32⟩ : BufTy).Contents (Elt F) → (⟨S850000x64, .f32⟩ : BufTy).Contents (Elt F) → (⟨S850000x64, .f32⟩ : BufTy).Contents (Elt F))
  :: StableHlo.nullary main_cst_37 (constant S_ .f32 0x00000000#32)
  :: StableHlo.unary main_cst_37 main_v161 (broadcastInDim S50000x64 ![] bcast_S_S50000x64 : (⟨S_, .f32⟩ : BufTy).Contents (Elt F) → (⟨S50000x64, .f32⟩ : BufTy).Contents (Elt F))
  :: StableHlo.unary main_v123 main_v162 (broadcastInDim S850000x1 ![0] bcast_S850000_S850000x1_0 : (⟨S850000, .i32⟩ : BufTy).Contents (Elt F) → (⟨S850000x1, .i32⟩ : BufTy).Contents (Elt F))
  :: StableHlo.ternary main_v161 main_v162 main_v160 main_v163 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F))
  :: [] )

set_option maxRecDepth 8192 in
set_option maxHeartbeats 4000000 in
/-- The 35 operations of the candidate, the new hidden features, the exponential linear unit (the outlined function's operations in the call's place) and the output layer. -/
def S5 : List (HloOp τ sig (Elt F)) :=
  ( StableHlo.unary main_arg9 main_v164 (broadcastInDim S1x64 ![1] bcast_S64_S1x64_1 : (⟨S64, .f32⟩ : BufTy).Contents (Elt F) → (⟨S1x64, .f32⟩ : BufTy).Contents (Elt F))
  :: StableHlo.unary main_v164 main_v165 (broadcastInDim S50000x64 ![0, 1] bcast_S1x64_S50000x64_0_1 : (⟨S1x64, .f32⟩ : BufTy).Contents (Elt F) → (⟨S50000x64, .f32⟩ : BufTy).Contents (Elt F))
  :: StableHlo.binary main_v163 main_v165 main_v166 (addf : (⟨S50000x64, .f32⟩ : BufTy).Contents (Elt F) → (⟨S50000x64, .f32⟩ : BufTy).Contents (Elt F) → (⟨S50000x64, .f32⟩ : BufTy).Contents (Elt F))
  :: StableHlo.binary main_arg3 main_v119 main_v167 (mulf : (⟨S50000x64, .f32⟩ : BufTy).Contents (Elt F) → (⟨S50000x64, .f32⟩ : BufTy).Contents (Elt F) → (⟨S50000x64, .f32⟩ : BufTy).Contents (Elt F))
  :: StableHlo.binary main_v166 main_v167 main_v168 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F))
  :: StableHlo.binary main_v168 main_arg14 main_v169 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))
  :: StableHlo.unary main_arg15 main_v170 (broadcastInDim S1x64 ![1] bcast_S64_S1x64_1 : (⟨S64, .f32⟩ : BufTy).Contents (Elt F) → (⟨S1x64, .f32⟩ : BufTy).Contents (Elt F))
  :: StableHlo.unary main_v170 main_v171 (broadcastInDim S50000x64 ![0, 1] bcast_S1x64_S50000x64_0_1 : (⟨S1x64, .f32⟩ : BufTy).Contents (Elt F) → (⟨S50000x64, .f32⟩ : BufTy).Contents (Elt F))
  :: StableHlo.binary main_v169 main_v171 main_v172 (addf : (⟨S50000x64, .f32⟩ : BufTy).Contents (Elt F) → (⟨S50000x64, .f32⟩ : BufTy).Contents (Elt F) → (⟨S50000x64, .f32⟩ : BufTy).Contents (Elt F))
  :: StableHlo.unary main_v172 main_v173 (Host.tanh : (⟨S50000x64, .f32⟩ : BufTy).Contents (Elt F) → (⟨S50000x64, .f32⟩ : BufTy).Contents (Elt F))
  :: StableHlo.binary main_v61 main_arg3 main_v174 (mulf : (⟨S50000x64, .f32⟩ : BufTy).Contents (Elt F) → (⟨S50000x64, .f32⟩ : BufTy).Contents (Elt F) → (⟨S50000x64, .f32⟩ : BufTy).Contents (Elt F))
  :: StableHlo.nullary main_cst_38 (constant S_ .f32 0x3F800000#32)
  :: StableHlo.unary main_cst_38 main_v175 (broadcastInDim S50000x64 ![] bcast_S_S50000x64 : (⟨S_, .f32⟩ : BufTy).Contents (Elt F) → (⟨S50000x64, .f32⟩ : BufTy).Contents (Elt F))
  :: StableHlo.binary main_v175 main_v61 main_v176 (subf : (⟨S50000x64, .f32⟩ : BufTy).Contents (Elt F) → (⟨S50000x64, .f32⟩ : BufTy).Contents (Elt F) → (⟨S50000x64, .f32⟩ : BufTy).Contents (Elt F))
  :: StableHlo.binary main_v176 main_v173 main_v177 (mulf : (⟨S50000x64, .f32⟩ : BufTy).Contents (Elt F) → (⟨S50000x64, .f32⟩ : BufTy).Contents (Elt F) → (⟨S50000x64, .f32⟩ : BufTy).Contents (Elt F))
  :: StableHlo.binary main_v174 main_v177 main_v178 (addf : (⟨S50000x64, .f32⟩ : BufTy).Contents (Elt F) → (⟨S50000x64, .f32⟩ : BufTy).Contents (Elt F) → (⟨S50000x64, .f32⟩ : BufTy).Contents (Elt F))
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S50000x64, .f32⟩) (broadcastInDim S50000x64 ![] bcast_S_S50000x64)
  :: StableHlo.TRef.binary (.of main_v178 : StableHlo.TRef sig ⟨S50000x64, .f32⟩) (.of main_call3_v0 : StableHlo.TRef sig ⟨S50000x64, .f32⟩) (.of main_call3_v1 : StableHlo.TRef sig ⟨S50000x64, .i1⟩) (cmpf .ogt)
  :: StableHlo.TRef.nullary (.of main_call3_cst_0 : StableHlo.TRef sig ⟨S_, .f32⟩) (constant S_ .f32 0x00000000#32)
  :: StableHlo.TRef.unary (.of main_call3_cst_0 : StableHlo.TRef sig ⟨S_, .f32⟩) (.of main_call3_v2 : StableHlo.TRef sig ⟨S50000x64, .f32⟩) (broadcastInDim S50000x64 ![] bcast_S_S50000x64)
  :: StableHlo.TRef.binary (.of main_v178 : StableHlo.TRef sig ⟨S50000x64, .f32⟩) (.of main_call3_v2 : StableHlo.TRef sig ⟨S50000x64, .f32⟩) (.of main_call3_v3 : StableHlo.TRef sig ⟨S50000x64, .i1⟩) (cmpf .ogt)
  :: StableHlo.TRef.nullary (.of main_call3_cst_1 : StableHlo.TRef sig ⟨S_, .f32⟩) (constant S_ .f32 0x00000000#32)
  :: StableHlo.TRef.unary (.of main_call3_cst_1 : StableHlo.TRef sig ⟨S_, .f32⟩) (.of main_call3_call0_v0 : StableHlo.TRef sig ⟨S_, .f32⟩) id
  :: StableHlo.TRef.unary (.of main_call3_call0_v0 : StableHlo.TRef sig ⟨S_, .f32⟩) (.of main_call3_call0_v1 : StableHlo.TRef sig ⟨S50000x64, .f32⟩) (broadcastInDim S50000x64 ![] bcast_S_S50000x64)
  :: StableHlo.TRef.ternary (.of main_call3_v3 : StableHlo.TRef sig ⟨S50000x64, .i1⟩) (.of main_call3_call0_v1 : StableHlo.TRef sig ⟨S50000x64, .f32⟩) (.of main_v178 : StableHlo.TRef sig ⟨S50000x64, .f32⟩) (.of main_call3_v4 : StableHlo.TRef sig ⟨S50000x64, .f32⟩) select
  :: StableHlo.TRef.unary (.of main_call3_v4 : StableHlo.TRef sig ⟨S50000x64, .f32⟩) (.of main_call3_v5 : StableHlo.TRef sig ⟨S50000x64, .f32⟩) Host.expm1
  :: StableHlo.TRef.nullary (.of main_call3_cst_2 : StableHlo.TRef sig ⟨S_, .f32⟩) (constant S_ .f32 0x3F800000#32)
  :: StableHlo.TRef.unary (.of main_call3_cst_2 : StableHlo.TRef sig ⟨S_, .f32⟩) (.of main_call3_v6 : StableHlo.TRef sig ⟨S50000x64, .f32⟩) (broadcastInDim S50000x64 ![] bcast_S_S50000x64)
  :: StableHlo.TRef.binary (.of main_call3_v6 : StableHlo.TRef sig ⟨S50000x64, .f32⟩) (.of main_call3_v5 : StableHlo.TRef sig ⟨S50000x64, .f32⟩) (.of main_call3_v7 : StableHlo.TRef sig ⟨S50000x64, .f32⟩) mulf
  :: StableHlo.TRef.ternary (.of main_call3_v1 : StableHlo.TRef sig ⟨S50000x64, .i1⟩) (.of main_v178 : StableHlo.TRef sig ⟨S50000x64, .f32⟩) (.of main_call3_v7 : StableHlo.TRef sig ⟨S50000x64, .f32⟩) (.of main_v179 : StableHlo.TRef sig ⟨S50000x64, .f32⟩) select
  :: StableHlo.binary main_v179 main_arg16 main_v180 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F))
  :: StableHlo.unary main_arg17 main_v181 (broadcastInDim S1x16 ![1] bcast_S16_S1x16_1 : (⟨S16, .f32⟩ : BufTy).Contents (Elt F) → (⟨S1x16, .f32⟩ : BufTy).Contents (Elt F))
  :: StableHlo.unary main_v181 main_v182 (broadcastInDim S50000x16 ![0, 1] bcast_S1x16_S50000x16_0_1 : (⟨S1x16, .f32⟩ : BufTy).Contents (Elt F) → (⟨S50000x16, .f32⟩ : BufTy).Contents (Elt F))
  :: StableHlo.binary main_v180 main_v182 main_v183 (addf : (⟨S50000x16, .f32⟩ : BufTy).Contents (Elt F) → (⟨S50000x16, .f32⟩ : BufTy).Contents (Elt F) → (⟨S50000x16, .f32⟩ : BufTy).Contents (Elt F))
  :: [] )

set_option maxRecDepth 8192 in
set_option maxHeartbeats 4000000 in
/-- The regrouped lists are @main's list. -/
theorem ops_regroup : (ops : List (HloOp τ sig (Elt F))) = S0 ++ (S1 ++ (S2 ++ (S3 ++ (S4 ++ S5)))) := rfl

/-- The buffers the operations of S0 write. -/
abbrev S0_W : List (Ref sig .tc) := [main_v0, main_v1, main_v2, main_v3, main_v4, main_v5, main_v6, main_v7, main_cst, main_v8, main_v9, main_cst_0, main_v10, main_v11, main_v12, main_cst_1, main_v13, main_v14, main_cst_2, main_v15, main_v16, main_v17, main_cst_3, main_call0_v0, main_call0_v1, main_v18, main_c, main_v19, main_v20, main_c_4, main_v21, main_v22, main_v23, main_v24, main_v25, main_v26, main_c_5, main_v27, main_v28, main_c_6, main_v29, main_v30, main_v31, main_v32, main_v33, main_v34, main_c_7, main_v35, main_v36, main_c_8, main_v37, main_v38, main_v39, main_v40, main_v41, main_v42, main_v43, main_v44, main_cst_9, main_v45, main_v46, main_v47]
set_option maxRecDepth 8192 in
set_option maxHeartbeats 4000000 in
theorem S0_writes : (S0 : List (HloOp τ sig (Elt F))).Forall fun op => op.writes ⊆ (S0_W.map (Proc.devRef (τ := τ) .tc)).toFinset := by
  simp only [S0, ops0, List.Forall]
  exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer the operations of S0 do not write keeps its contents through them. -/
theorem S0_keep (V : Valuation τ sig (Elt F)) (r : Ref sig .tc) (h : r ∉ S0_W) :
    after (S0 (F := F)) V (Proc.devRef .tc r) = V (Proc.devRef .tc r) :=
  after_of_writes_sub S0 V S0_writes h

/-- The buffers the operations of S1 write. -/
abbrev S1_W : List (Ref sig .tc) := [main_v48, main_v49, main_v50, main_v51, main_v52, main_v53, main_v54, main_v55, main_v56, main_v57, main_cst_10, main_v58, main_v59, main_cst_11, main_v60, main_v61]
set_option maxRecDepth 8192 in
set_option maxHeartbeats 4000000 in
theorem S1_writes : (S1 : List (HloOp τ sig (Elt F))).Forall fun op => op.writes ⊆ (S1_W.map (Proc.devRef (τ := τ) .tc)).toFinset := by
  simp only [S1, List.Forall]
  exact ⟨by wr, by wr, by wr, by wr, by wr, by wr, by wr, by wr, by wr, by wr, by wr, by wr, by wr, by wr, by wr, by wr⟩
/-- A buffer the operations of S1 do not write keeps its contents through them. -/
theorem S1_keep (V : Valuation τ sig (Elt F)) (r : Ref sig .tc) (h : r ∉ S1_W) :
    after (S1 (F := F)) V (Proc.devRef .tc r) = V (Proc.devRef .tc r) :=
  after_of_writes_sub S1 V S1_writes h

/-- The buffers the operations of S2 write. -/
abbrev S2_W : List (Ref sig .tc) := [main_v62, main_v63, main_v64, main_v65, main_cst_12, main_v66, main_v67, main_cst_13, main_v68, main_v69, main_v70, main_cst_14, main_v71, main_v72, main_cst_15, main_v73, main_v74, main_v75, main_cst_16, main_call1_v0, main_call1_v1, main_v76, main_c_17, main_v77, main_v78, main_c_18, main_v79, main_v80, main_v81, main_v82, main_v83, main_v84, main_c_19, main_v85, main_v86, main_c_20, main_v87, main_v88, main_v89, main_v90, main_v91, main_v92, main_c_21, main_v93, main_v94, main_c_22, main_v95, main_v96, main_v97, main_v98, main_v99, main_v100, main_v101, main_v102, main_cst_23, main_v103, main_v104, main_v105]
set_option maxRecDepth 8192 in
set_option maxHeartbeats 4000000 in
theorem S2_writes : (S2 : List (HloOp τ sig (Elt F))).Forall fun op => op.writes ⊆ (S2_W.map (Proc.devRef (τ := τ) .tc)).toFinset := by
  simp only [S2, List.Forall]
  exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer the operations of S2 do not write keeps its contents through them. -/
theorem S2_keep (V : Valuation τ sig (Elt F)) (r : Ref sig .tc) (h : r ∉ S2_W) :
    after (S2 (F := F)) V (Proc.devRef .tc r) = V (Proc.devRef .tc r) :=
  after_of_writes_sub S2 V S2_writes h

/-- The buffers the operations of S3 write. -/
abbrev S3_W : List (Ref sig .tc) := [main_v106, main_v107, main_v108, main_v109, main_v110, main_v111, main_v112, main_v113, main_v114, main_v115, main_cst_24, main_v116, main_v117, main_cst_25, main_v118, main_v119]
set_option maxRecDepth 8192 in
set_option maxHeartbeats 4000000 in
theorem S3_writes : (S3 : List (HloOp τ sig (Elt F))).Forall fun op => op.writes ⊆ (S3_W.map (Proc.devRef (τ := τ) .tc)).toFinset := by
  simp only [S3, List.Forall]
  exact ⟨by wr, by wr, by wr, by wr, by wr, by wr, by wr, by wr, by wr, by wr, by wr, by wr, by wr, by wr, by wr, by wr⟩
/-- A buffer the operations of S3 do not write keeps its contents through them. -/
theorem S3_keep (V : Valuation τ sig (Elt F)) (r : Ref sig .tc) (h : r ∉ S3_W) :
    after (S3 (F := F)) V (Proc.devRef .tc r) = V (Proc.devRef .tc r) :=
  after_of_writes_sub S3 V S3_writes h

/-- The buffers the operations of S4 write. -/
abbrev S4_W : List (Ref sig .tc) := [main_v120, main_v121, main_v122, main_v123, main_cst_26, main_v124, main_v125, main_cst_27, main_v126, main_v127, main_v128, main_cst_28, main_v129, main_v130, main_cst_29, main_v131, main_v132, main_v133, main_cst_30, main_call2_v0, main_call2_v1, main_v134, main_c_31, main_v135, main_v136, main_c_32, main_v137, main_v138, main_v139, main_v140, main_v141, main_v142, main_c_33, main_v143, main_v144, main_c_34, main_v145, main_v146, main_v147, main_v148, main_v149, main_v150, main_c_35, main_v151, main_v152, main_c_36, main_v153, main_v154, main_v155, main_v156, main_v157, main_v158, main_v159, main_v160, main_cst_37, main_v161, main_v162, main_v163]
set_option maxRecDepth 8192 in
set_option maxHeartbeats 4000000 in
theorem S4_writes : (S4 : List (HloOp τ sig (Elt F))).Forall fun op => op.writes ⊆ (S4_W.map (Proc.devRef (τ := τ) .tc)).toFinset := by
  simp only [S4, List.Forall]
  exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer the operations of S4 do not write keeps its contents through them. -/
theorem S4_keep (V : Valuation τ sig (Elt F)) (r : Ref sig .tc) (h : r ∉ S4_W) :
    after (S4 (F := F)) V (Proc.devRef .tc r) = V (Proc.devRef .tc r) :=
  after_of_writes_sub S4 V S4_writes h

end Segments

/-! ## What each group leaves in the buffers read later

From any contents V: the named array of V's contents at the buffers the group reads. Each holds by computation:
the fold unrolled, every operation's result read at its own buffer or passed by at another's, the named array's
definition unfolded — the array functions themselves kept folded meanwhile. -/

section Values
variable {F : FTy → Type} [FloatOps F]

attribute [local irreducible] concatenate Host.gather Host.scatterAdd broadcastInDim extractStridedSlice shapeCast iotaInDim
  select cmpi addi mulf addf subf cmpf maximumf Host.rsqrt Host.exp Host.negf Host.divf Host.tanh Host.expm1 constant constantI
  FloatOps.dotGeneral

set_option maxRecDepth 16384 in
set_option maxHeartbeats 4000000 in
theorem S0_v1 (V : Valuation τ sig (Elt F)) : after (S0 (F := F)) V (Proc.devRef .tc main_v1)
    = row0 (V (Proc.devRef .tc main_arg1)) := by
  simp only [S0, ops0, after_cons, after_nil]
  rfl

set_option maxRecDepth 16384 in
set_option maxHeartbeats 4000000 in
theorem S0_v3 (V : Valuation τ sig (Elt F)) : after (S0 (F := F)) V (Proc.devRef .tc main_v3)
    = row1 (V (Proc.devRef .tc main_arg1)) := by
  simp only [S0, ops0, after_cons, after_nil]
  rfl

set_option maxRecDepth 16384 in
set_option maxHeartbeats 4000000 in
theorem S0_v47 (V : Valuation τ sig (Elt F)) : after (S0 (F := F)) V (Proc.devRef .tc main_v47)
    = agg (xw (V (Proc.devRef .tc main_arg0)) (V (Proc.devRef .tc main_arg4))) (V (Proc.devRef .tc main_arg1)) (V (Proc.devRef .tc main_arg2)) := by
  simp only [S0, ops0, after_cons, after_nil]
  rfl

set_option maxRecDepth 16384 in
set_option maxHeartbeats 4000000 in
theorem S1_v61 (V : Valuation τ sig (Elt F)) : after (S1 (F := F)) V (Proc.devRef .tc main_v61)
    = sigm (pre (conv (V (Proc.devRef .tc main_v47)) (V (Proc.devRef .tc main_arg5))) (V (Proc.devRef .tc main_arg3)) (V (Proc.devRef .tc main_arg10)) (V (Proc.devRef .tc main_arg11))) := by
  simp only [S1, after_cons, after_nil]
  rfl

set_option maxRecDepth 16384 in
set_option maxHeartbeats 4000000 in
theorem S2_v105 (V : Valuation τ sig (Elt F)) : after (S2 (F := F)) V (Proc.devRef .tc main_v105)
    = aggR (xw (V (Proc.devRef .tc main_arg0)) (V (Proc.devRef .tc main_arg6))) (V (Proc.devRef .tc main_v1)) (V (Proc.devRef .tc main_v3)) (V (Proc.devRef .tc main_arg2)) := by
  simp only [S2, after_cons, after_nil]
  rfl

set_option maxRecDepth 16384 in
set_option maxHeartbeats 4000000 in
theorem S3_v119 (V : Valuation τ sig (Elt F)) : after (S3 (F := F)) V (Proc.devRef .tc main_v119)
    = sigm (pre (conv (V (Proc.devRef .tc main_v105)) (V (Proc.devRef .tc main_arg7))) (V (Proc.devRef .tc main_arg3)) (V (Proc.devRef .tc main_arg12)) (V (Proc.devRef .tc main_arg13))) := by
  simp only [S3, after_cons, after_nil]
  rfl

set_option maxRecDepth 16384 in
set_option maxHeartbeats 4000000 in
theorem S4_v163 (V : Valuation τ sig (Elt F)) : after (S4 (F := F)) V (Proc.devRef .tc main_v163)
    = aggR (xw (V (Proc.devRef .tc main_arg0)) (V (Proc.devRef .tc main_arg8))) (V (Proc.devRef .tc main_v1)) (V (Proc.devRef .tc main_v3)) (V (Proc.devRef .tc main_arg2)) := by
  simp only [S4, after_cons, after_nil]
  rfl

set_option maxRecDepth 16384 in
set_option maxHeartbeats 4000000 in
theorem S5_v178 (V : Valuation τ sig (Elt F)) : after (S5 (F := F)) V (Proc.devRef .tc main_v178)
    = hid (V (Proc.devRef .tc main_v61)) (V (Proc.devRef .tc main_v119)) (V (Proc.devRef .tc main_v163)) (V (Proc.devRef .tc main_arg3)) (V (Proc.devRef .tc main_arg9)) (V (Proc.devRef .tc main_arg14)) (V (Proc.devRef .tc main_arg15)) := by
  simp only [S5, after_cons, after_nil]
  rfl

set_option maxRecDepth 16384 in
set_option maxHeartbeats 4000000 in
theorem S5_v183 (V : Valuation τ sig (Elt F)) : after (S5 (F := F)) V (Proc.devRef .tc main_v183)
    = outA (hid (V (Proc.devRef .tc main_v61)) (V (Proc.devRef .tc main_v119)) (V (Proc.devRef .tc main_v163)) (V (Proc.devRef .tc main_arg3)) (V (Proc.devRef .tc main_arg9)) (V (Proc.devRef .tc main_arg14)) (V (Proc.devRef .tc main_arg15))) (V (Proc.devRef .tc main_arg16)) (V (Proc.devRef .tc main_arg17)) := by
  simp only [S5, after_cons, after_nil]
  rfl

end Values

/-! ## The run's arrays in terms of the arguments

The contents after each group in turn, from launch contents V0; what the buffers read later hold, as arrays of the
arguments' launch contents. -/

section Stages
variable {F : FTy → Type} [FloatOps F]

/-- The three aggregations plus nothing, the two gates, the new hidden features and the output, of the arguments' contents. -/
def cz (V0 : Valuation τ sig (Elt F)) : FVec F S50000x64 .f32 := agg (xw (V0 (Proc.devRef .tc main_arg0)) (V0 (Proc.devRef .tc main_arg4))) (V0 (Proc.devRef .tc main_arg1)) (V0 (Proc.devRef .tc main_arg2))
def gz (V0 : Valuation τ sig (Elt F)) : FVec F S50000x64 .f32 := sigm (pre (conv (cz V0) (V0 (Proc.devRef .tc main_arg5))) (V0 (Proc.devRef .tc main_arg3)) (V0 (Proc.devRef .tc main_arg10)) (V0 (Proc.devRef .tc main_arg11)))
def cr (V0 : Valuation τ sig (Elt F)) : FVec F S50000x64 .f32 := agg (xw (V0 (Proc.devRef .tc main_arg0)) (V0 (Proc.devRef .tc main_arg6))) (V0 (Proc.devRef .tc main_arg1)) (V0 (Proc.devRef .tc main_arg2))
def gr (V0 : Valuation τ sig (Elt F)) : FVec F S50000x64 .f32 := sigm (pre (conv (cr V0) (V0 (Proc.devRef .tc main_arg7))) (V0 (Proc.devRef .tc main_arg3)) (V0 (Proc.devRef .tc main_arg12)) (V0 (Proc.devRef .tc main_arg13)))
def ch (V0 : Valuation τ sig (Elt F)) : FVec F S50000x64 .f32 := agg (xw (V0 (Proc.devRef .tc main_arg0)) (V0 (Proc.devRef .tc main_arg8))) (V0 (Proc.devRef .tc main_arg1)) (V0 (Proc.devRef .tc main_arg2))
def hidV (V0 : Valuation τ sig (Elt F)) : FVec F S50000x64 .f32 := hid (gz V0) (gr V0) (ch V0) (V0 (Proc.devRef .tc main_arg3)) (V0 (Proc.devRef .tc main_arg9)) (V0 (Proc.devRef .tc main_arg14)) (V0 (Proc.devRef .tc main_arg15))
def outV (V0 : Valuation τ sig (Elt F)) : FVec F S50000x16 .f32 := outA (hidV V0) (V0 (Proc.devRef .tc main_arg16)) (V0 (Proc.devRef .tc main_arg17))

/-- The contents before any group. -/
def U0 (V0 : Valuation τ sig (Elt F)) : Valuation τ sig (Elt F) := V0
theorem U0_arg1 (V0 : Valuation τ sig (Elt F)) : U0 V0 (no_index (Proc.devRef .tc main_arg1)) = V0 (Proc.devRef .tc main_arg1) := rfl
theorem U0_arg0 (V0 : Valuation τ sig (Elt F)) : U0 V0 (no_index (Proc.devRef .tc main_arg0)) = V0 (Proc.devRef .tc main_arg0) := rfl
theorem U0_arg4 (V0 : Valuation τ sig (Elt F)) : U0 V0 (no_index (Proc.devRef .tc main_arg4)) = V0 (Proc.devRef .tc main_arg4) := rfl
theorem U0_arg2 (V0 : Valuation τ sig (Elt F)) : U0 V0 (no_index (Proc.devRef .tc main_arg2)) = V0 (Proc.devRef .tc main_arg2) := rfl
theorem U0_arg5 (V0 : Valuation τ sig (Elt F)) : U0 V0 (no_index (Proc.devRef .tc main_arg5)) = V0 (Proc.devRef .tc main_arg5) := rfl
theorem U0_arg3 (V0 : Valuation τ sig (Elt F)) : U0 V0 (no_index (Proc.devRef .tc main_arg3)) = V0 (Proc.devRef .tc main_arg3) := rfl
theorem U0_arg10 (V0 : Valuation τ sig (Elt F)) : U0 V0 (no_index (Proc.devRef .tc main_arg10)) = V0 (Proc.devRef .tc main_arg10) := rfl
theorem U0_arg11 (V0 : Valuation τ sig (Elt F)) : U0 V0 (no_index (Proc.devRef .tc main_arg11)) = V0 (Proc.devRef .tc main_arg11) := rfl
theorem U0_arg6 (V0 : Valuation τ sig (Elt F)) : U0 V0 (no_index (Proc.devRef .tc main_arg6)) = V0 (Proc.devRef .tc main_arg6) := rfl
theorem U0_arg7 (V0 : Valuation τ sig (Elt F)) : U0 V0 (no_index (Proc.devRef .tc main_arg7)) = V0 (Proc.devRef .tc main_arg7) := rfl
theorem U0_arg12 (V0 : Valuation τ sig (Elt F)) : U0 V0 (no_index (Proc.devRef .tc main_arg12)) = V0 (Proc.devRef .tc main_arg12) := rfl
theorem U0_arg13 (V0 : Valuation τ sig (Elt F)) : U0 V0 (no_index (Proc.devRef .tc main_arg13)) = V0 (Proc.devRef .tc main_arg13) := rfl
theorem U0_arg8 (V0 : Valuation τ sig (Elt F)) : U0 V0 (no_index (Proc.devRef .tc main_arg8)) = V0 (Proc.devRef .tc main_arg8) := rfl
theorem U0_arg9 (V0 : Valuation τ sig (Elt F)) : U0 V0 (no_index (Proc.devRef .tc main_arg9)) = V0 (Proc.devRef .tc main_arg9) := rfl
theorem U0_arg14 (V0 : Valuation τ sig (Elt F)) : U0 V0 (no_index (Proc.devRef .tc main_arg14)) = V0 (Proc.devRef .tc main_arg14) := rfl
theorem U0_arg15 (V0 : Valuation τ sig (Elt F)) : U0 V0 (no_index (Proc.devRef .tc main_arg15)) = V0 (Proc.devRef .tc main_arg15) := rfl
theorem U0_arg16 (V0 : Valuation τ sig (Elt F)) : U0 V0 (no_index (Proc.devRef .tc main_arg16)) = V0 (Proc.devRef .tc main_arg16) := rfl
theorem U0_arg17 (V0 : Valuation τ sig (Elt F)) : U0 V0 (no_index (Proc.devRef .tc main_arg17)) = V0 (Proc.devRef .tc main_arg17) := rfl

/-- The contents after S0. -/
def U1 (V0 : Valuation τ sig (Elt F)) : Valuation τ sig (Elt F) := after S0 (U0 V0)
theorem U1_arg5 (V0 : Valuation τ sig (Elt F)) : U1 V0 (no_index (Proc.devRef .tc main_arg5)) = V0 (Proc.devRef .tc main_arg5) :=
  (S0_keep (U0 V0) main_arg5 (by decide)).trans (U0_arg5 V0)
theorem U1_v47 (V0 : Valuation τ sig (Elt F)) : U1 V0 (no_index (Proc.devRef .tc main_v47)) = cz V0 := by
  show after S0 (U0 V0) (Proc.devRef .tc main_v47) = _
  rw [S0_v47]
  simp only [U0_arg1, U0_arg0, U0_arg4, U0_arg2] <;> rfl
theorem U1_arg3 (V0 : Valuation τ sig (Elt F)) : U1 V0 (no_index (Proc.devRef .tc main_arg3)) = V0 (Proc.devRef .tc main_arg3) :=
  (S0_keep (U0 V0) main_arg3 (by decide)).trans (U0_arg3 V0)
theorem U1_arg10 (V0 : Valuation τ sig (Elt F)) : U1 V0 (no_index (Proc.devRef .tc main_arg10)) = V0 (Proc.devRef .tc main_arg10) :=
  (S0_keep (U0 V0) main_arg10 (by decide)).trans (U0_arg10 V0)
theorem U1_arg11 (V0 : Valuation τ sig (Elt F)) : U1 V0 (no_index (Proc.devRef .tc main_arg11)) = V0 (Proc.devRef .tc main_arg11) :=
  (S0_keep (U0 V0) main_arg11 (by decide)).trans (U0_arg11 V0)
theorem U1_arg0 (V0 : Valuation τ sig (Elt F)) : U1 V0 (no_index (Proc.devRef .tc main_arg0)) = V0 (Proc.devRef .tc main_arg0) :=
  (S0_keep (U0 V0) main_arg0 (by decide)).trans (U0_arg0 V0)
theorem U1_arg6 (V0 : Valuation τ sig (Elt F)) : U1 V0 (no_index (Proc.devRef .tc main_arg6)) = V0 (Proc.devRef .tc main_arg6) :=
  (S0_keep (U0 V0) main_arg6 (by decide)).trans (U0_arg6 V0)
theorem U1_v1 (V0 : Valuation τ sig (Elt F)) : U1 V0 (no_index (Proc.devRef .tc main_v1)) = row0 (V0 (Proc.devRef .tc main_arg1)) := by
  show after S0 (U0 V0) (Proc.devRef .tc main_v1) = _
  rw [S0_v1]
  simp only [U0_arg1] <;> rfl
theorem U1_v3 (V0 : Valuation τ sig (Elt F)) : U1 V0 (no_index (Proc.devRef .tc main_v3)) = row1 (V0 (Proc.devRef .tc main_arg1)) := by
  show after S0 (U0 V0) (Proc.devRef .tc main_v3) = _
  rw [S0_v3]
  simp only [U0_arg1] <;> rfl
theorem U1_arg2 (V0 : Valuation τ sig (Elt F)) : U1 V0 (no_index (Proc.devRef .tc main_arg2)) = V0 (Proc.devRef .tc main_arg2) :=
  (S0_keep (U0 V0) main_arg2 (by decide)).trans (U0_arg2 V0)
theorem U1_arg7 (V0 : Valuation τ sig (Elt F)) : U1 V0 (no_index (Proc.devRef .tc main_arg7)) = V0 (Proc.devRef .tc main_arg7) :=
  (S0_keep (U0 V0) main_arg7 (by decide)).trans (U0_arg7 V0)
theorem U1_arg12 (V0 : Valuation τ sig (Elt F)) : U1 V0 (no_index (Proc.devRef .tc main_arg12)) = V0 (Proc.devRef .tc main_arg12) :=
  (S0_keep (U0 V0) main_arg12 (by decide)).trans (U0_arg12 V0)
theorem U1_arg13 (V0 : Valuation τ sig (Elt F)) : U1 V0 (no_index (Proc.devRef .tc main_arg13)) = V0 (Proc.devRef .tc main_arg13) :=
  (S0_keep (U0 V0) main_arg13 (by decide)).trans (U0_arg13 V0)
theorem U1_arg8 (V0 : Valuation τ sig (Elt F)) : U1 V0 (no_index (Proc.devRef .tc main_arg8)) = V0 (Proc.devRef .tc main_arg8) :=
  (S0_keep (U0 V0) main_arg8 (by decide)).trans (U0_arg8 V0)
theorem U1_arg9 (V0 : Valuation τ sig (Elt F)) : U1 V0 (no_index (Proc.devRef .tc main_arg9)) = V0 (Proc.devRef .tc main_arg9) :=
  (S0_keep (U0 V0) main_arg9 (by decide)).trans (U0_arg9 V0)
theorem U1_arg14 (V0 : Valuation τ sig (Elt F)) : U1 V0 (no_index (Proc.devRef .tc main_arg14)) = V0 (Proc.devRef .tc main_arg14) :=
  (S0_keep (U0 V0) main_arg14 (by decide)).trans (U0_arg14 V0)
theorem U1_arg15 (V0 : Valuation τ sig (Elt F)) : U1 V0 (no_index (Proc.devRef .tc main_arg15)) = V0 (Proc.devRef .tc main_arg15) :=
  (S0_keep (U0 V0) main_arg15 (by decide)).trans (U0_arg15 V0)
theorem U1_arg16 (V0 : Valuation τ sig (Elt F)) : U1 V0 (no_index (Proc.devRef .tc main_arg16)) = V0 (Proc.devRef .tc main_arg16) :=
  (S0_keep (U0 V0) main_arg16 (by decide)).trans (U0_arg16 V0)
theorem U1_arg17 (V0 : Valuation τ sig (Elt F)) : U1 V0 (no_index (Proc.devRef .tc main_arg17)) = V0 (Proc.devRef .tc main_arg17) :=
  (S0_keep (U0 V0) main_arg17 (by decide)).trans (U0_arg17 V0)

/-- The contents after S1. -/
def U2 (V0 : Valuation τ sig (Elt F)) : Valuation τ sig (Elt F) := after S1 (U1 V0)
theorem U2_arg0 (V0 : Valuation τ sig (Elt F)) : U2 V0 (no_index (Proc.devRef .tc main_arg0)) = V0 (Proc.devRef .tc main_arg0) :=
  (S1_keep (U1 V0) main_arg0 (by decide)).trans (U1_arg0 V0)
theorem U2_arg6 (V0 : Valuation τ sig (Elt F)) : U2 V0 (no_index (Proc.devRef .tc main_arg6)) = V0 (Proc.devRef .tc main_arg6) :=
  (S1_keep (U1 V0) main_arg6 (by decide)).trans (U1_arg6 V0)
theorem U2_v1 (V0 : Valuation τ sig (Elt F)) : U2 V0 (no_index (Proc.devRef .tc main_v1)) = row0 (V0 (Proc.devRef .tc main_arg1)) :=
  (S1_keep (U1 V0) main_v1 (by decide)).trans (U1_v1 V0)
theorem U2_v3 (V0 : Valuation τ sig (Elt F)) : U2 V0 (no_index (Proc.devRef .tc main_v3)) = row1 (V0 (Proc.devRef .tc main_arg1)) :=
  (S1_keep (U1 V0) main_v3 (by decide)).trans (U1_v3 V0)
theorem U2_arg2 (V0 : Valuation τ sig (Elt F)) : U2 V0 (no_index (Proc.devRef .tc main_arg2)) = V0 (Proc.devRef .tc main_arg2) :=
  (S1_keep (U1 V0) main_arg2 (by decide)).trans (U1_arg2 V0)
theorem U2_arg7 (V0 : Valuation τ sig (Elt F)) : U2 V0 (no_index (Proc.devRef .tc main_arg7)) = V0 (Proc.devRef .tc main_arg7) :=
  (S1_keep (U1 V0) main_arg7 (by decide)).trans (U1_arg7 V0)
theorem U2_arg3 (V0 : Valuation τ sig (Elt F)) : U2 V0 (no_index (Proc.devRef .tc main_arg3)) = V0 (Proc.devRef .tc main_arg3) :=
  (S1_keep (U1 V0) main_arg3 (by decide)).trans (U1_arg3 V0)
theorem U2_arg12 (V0 : Valuation τ sig (Elt F)) : U2 V0 (no_index (Proc.devRef .tc main_arg12)) = V0 (Proc.devRef .tc main_arg12) :=
  (S1_keep (U1 V0) main_arg12 (by decide)).trans (U1_arg12 V0)
theorem U2_arg13 (V0 : Valuation τ sig (Elt F)) : U2 V0 (no_index (Proc.devRef .tc main_arg13)) = V0 (Proc.devRef .tc main_arg13) :=
  (S1_keep (U1 V0) main_arg13 (by decide)).trans (U1_arg13 V0)
theorem U2_arg8 (V0 : Valuation τ sig (Elt F)) : U2 V0 (no_index (Proc.devRef .tc main_arg8)) = V0 (Proc.devRef .tc main_arg8) :=
  (S1_keep (U1 V0) main_arg8 (by decide)).trans (U1_arg8 V0)
theorem U2_arg9 (V0 : Valuation τ sig (Elt F)) : U2 V0 (no_index (Proc.devRef .tc main_arg9)) = V0 (Proc.devRef .tc main_arg9) :=
  (S1_keep (U1 V0) main_arg9 (by decide)).trans (U1_arg9 V0)
theorem U2_arg14 (V0 : Valuation τ sig (Elt F)) : U2 V0 (no_index (Proc.devRef .tc main_arg14)) = V0 (Proc.devRef .tc main_arg14) :=
  (S1_keep (U1 V0) main_arg14 (by decide)).trans (U1_arg14 V0)
theorem U2_arg15 (V0 : Valuation τ sig (Elt F)) : U2 V0 (no_index (Proc.devRef .tc main_arg15)) = V0 (Proc.devRef .tc main_arg15) :=
  (S1_keep (U1 V0) main_arg15 (by decide)).trans (U1_arg15 V0)
theorem U2_v61 (V0 : Valuation τ sig (Elt F)) : U2 V0 (no_index (Proc.devRef .tc main_v61)) = gz V0 := by
  show after S1 (U1 V0) (Proc.devRef .tc main_v61) = _
  rw [S1_v61]
  simp only [U1_arg5, U1_v47, U1_arg3, U1_arg10, U1_arg11] <;> rfl
theorem U2_arg16 (V0 : Valuation τ sig (Elt F)) : U2 V0 (no_index (Proc.devRef .tc main_arg16)) = V0 (Proc.devRef .tc main_arg16) :=
  (S1_keep (U1 V0) main_arg16 (by decide)).trans (U1_arg16 V0)
theorem U2_arg17 (V0 : Valuation τ sig (Elt F)) : U2 V0 (no_index (Proc.devRef .tc main_arg17)) = V0 (Proc.devRef .tc main_arg17) :=
  (S1_keep (U1 V0) main_arg17 (by decide)).trans (U1_arg17 V0)

/-- The contents after S2. -/
def U3 (V0 : Valuation τ sig (Elt F)) : Valuation τ sig (Elt F) := after S2 (U2 V0)
theorem U3_arg7 (V0 : Valuation τ sig (Elt F)) : U3 V0 (no_index (Proc.devRef .tc main_arg7)) = V0 (Proc.devRef .tc main_arg7) :=
  (S2_keep (U2 V0) main_arg7 (by decide)).trans (U2_arg7 V0)
theorem U3_v105 (V0 : Valuation τ sig (Elt F)) : U3 V0 (no_index (Proc.devRef .tc main_v105)) = cr V0 := by
  show after S2 (U2 V0) (Proc.devRef .tc main_v105) = _
  rw [S2_v105]
  simp only [U2_arg0, U2_arg6, U2_v1, U2_v3, U2_arg2] <;> rfl
theorem U3_arg3 (V0 : Valuation τ sig (Elt F)) : U3 V0 (no_index (Proc.devRef .tc main_arg3)) = V0 (Proc.devRef .tc main_arg3) :=
  (S2_keep (U2 V0) main_arg3 (by decide)).trans (U2_arg3 V0)
theorem U3_arg12 (V0 : Valuation τ sig (Elt F)) : U3 V0 (no_index (Proc.devRef .tc main_arg12)) = V0 (Proc.devRef .tc main_arg12) :=
  (S2_keep (U2 V0) main_arg12 (by decide)).trans (U2_arg12 V0)
theorem U3_arg13 (V0 : Valuation τ sig (Elt F)) : U3 V0 (no_index (Proc.devRef .tc main_arg13)) = V0 (Proc.devRef .tc main_arg13) :=
  (S2_keep (U2 V0) main_arg13 (by decide)).trans (U2_arg13 V0)
theorem U3_arg0 (V0 : Valuation τ sig (Elt F)) : U3 V0 (no_index (Proc.devRef .tc main_arg0)) = V0 (Proc.devRef .tc main_arg0) :=
  (S2_keep (U2 V0) main_arg0 (by decide)).trans (U2_arg0 V0)
theorem U3_arg8 (V0 : Valuation τ sig (Elt F)) : U3 V0 (no_index (Proc.devRef .tc main_arg8)) = V0 (Proc.devRef .tc main_arg8) :=
  (S2_keep (U2 V0) main_arg8 (by decide)).trans (U2_arg8 V0)
theorem U3_v1 (V0 : Valuation τ sig (Elt F)) : U3 V0 (no_index (Proc.devRef .tc main_v1)) = row0 (V0 (Proc.devRef .tc main_arg1)) :=
  (S2_keep (U2 V0) main_v1 (by decide)).trans (U2_v1 V0)
theorem U3_v3 (V0 : Valuation τ sig (Elt F)) : U3 V0 (no_index (Proc.devRef .tc main_v3)) = row1 (V0 (Proc.devRef .tc main_arg1)) :=
  (S2_keep (U2 V0) main_v3 (by decide)).trans (U2_v3 V0)
theorem U3_arg2 (V0 : Valuation τ sig (Elt F)) : U3 V0 (no_index (Proc.devRef .tc main_arg2)) = V0 (Proc.devRef .tc main_arg2) :=
  (S2_keep (U2 V0) main_arg2 (by decide)).trans (U2_arg2 V0)
theorem U3_arg9 (V0 : Valuation τ sig (Elt F)) : U3 V0 (no_index (Proc.devRef .tc main_arg9)) = V0 (Proc.devRef .tc main_arg9) :=
  (S2_keep (U2 V0) main_arg9 (by decide)).trans (U2_arg9 V0)
theorem U3_arg14 (V0 : Valuation τ sig (Elt F)) : U3 V0 (no_index (Proc.devRef .tc main_arg14)) = V0 (Proc.devRef .tc main_arg14) :=
  (S2_keep (U2 V0) main_arg14 (by decide)).trans (U2_arg14 V0)
theorem U3_arg15 (V0 : Valuation τ sig (Elt F)) : U3 V0 (no_index (Proc.devRef .tc main_arg15)) = V0 (Proc.devRef .tc main_arg15) :=
  (S2_keep (U2 V0) main_arg15 (by decide)).trans (U2_arg15 V0)
theorem U3_v61 (V0 : Valuation τ sig (Elt F)) : U3 V0 (no_index (Proc.devRef .tc main_v61)) = gz V0 :=
  (S2_keep (U2 V0) main_v61 (by decide)).trans (U2_v61 V0)
theorem U3_arg16 (V0 : Valuation τ sig (Elt F)) : U3 V0 (no_index (Proc.devRef .tc main_arg16)) = V0 (Proc.devRef .tc main_arg16) :=
  (S2_keep (U2 V0) main_arg16 (by decide)).trans (U2_arg16 V0)
theorem U3_arg17 (V0 : Valuation τ sig (Elt F)) : U3 V0 (no_index (Proc.devRef .tc main_arg17)) = V0 (Proc.devRef .tc main_arg17) :=
  (S2_keep (U2 V0) main_arg17 (by decide)).trans (U2_arg17 V0)

/-- The contents after S3. -/
def U4 (V0 : Valuation τ sig (Elt F)) : Valuation τ sig (Elt F) := after S3 (U3 V0)
theorem U4_arg0 (V0 : Valuation τ sig (Elt F)) : U4 V0 (no_index (Proc.devRef .tc main_arg0)) = V0 (Proc.devRef .tc main_arg0) :=
  (S3_keep (U3 V0) main_arg0 (by decide)).trans (U3_arg0 V0)
theorem U4_arg8 (V0 : Valuation τ sig (Elt F)) : U4 V0 (no_index (Proc.devRef .tc main_arg8)) = V0 (Proc.devRef .tc main_arg8) :=
  (S3_keep (U3 V0) main_arg8 (by decide)).trans (U3_arg8 V0)
theorem U4_v1 (V0 : Valuation τ sig (Elt F)) : U4 V0 (no_index (Proc.devRef .tc main_v1)) = row0 (V0 (Proc.devRef .tc main_arg1)) :=
  (S3_keep (U3 V0) main_v1 (by decide)).trans (U3_v1 V0)
theorem U4_v3 (V0 : Valuation τ sig (Elt F)) : U4 V0 (no_index (Proc.devRef .tc main_v3)) = row1 (V0 (Proc.devRef .tc main_arg1)) :=
  (S3_keep (U3 V0) main_v3 (by decide)).trans (U3_v3 V0)
theorem U4_arg2 (V0 : Valuation τ sig (Elt F)) : U4 V0 (no_index (Proc.devRef .tc main_arg2)) = V0 (Proc.devRef .tc main_arg2) :=
  (S3_keep (U3 V0) main_arg2 (by decide)).trans (U3_arg2 V0)
theorem U4_arg9 (V0 : Valuation τ sig (Elt F)) : U4 V0 (no_index (Proc.devRef .tc main_arg9)) = V0 (Proc.devRef .tc main_arg9) :=
  (S3_keep (U3 V0) main_arg9 (by decide)).trans (U3_arg9 V0)
theorem U4_arg3 (V0 : Valuation τ sig (Elt F)) : U4 V0 (no_index (Proc.devRef .tc main_arg3)) = V0 (Proc.devRef .tc main_arg3) :=
  (S3_keep (U3 V0) main_arg3 (by decide)).trans (U3_arg3 V0)
theorem U4_v119 (V0 : Valuation τ sig (Elt F)) : U4 V0 (no_index (Proc.devRef .tc main_v119)) = gr V0 := by
  show after S3 (U3 V0) (Proc.devRef .tc main_v119) = _
  rw [S3_v119]
  simp only [U3_arg7, U3_v105, U3_arg3, U3_arg12, U3_arg13] <;> rfl
theorem U4_arg14 (V0 : Valuation τ sig (Elt F)) : U4 V0 (no_index (Proc.devRef .tc main_arg14)) = V0 (Proc.devRef .tc main_arg14) :=
  (S3_keep (U3 V0) main_arg14 (by decide)).trans (U3_arg14 V0)
theorem U4_arg15 (V0 : Valuation τ sig (Elt F)) : U4 V0 (no_index (Proc.devRef .tc main_arg15)) = V0 (Proc.devRef .tc main_arg15) :=
  (S3_keep (U3 V0) main_arg15 (by decide)).trans (U3_arg15 V0)
theorem U4_v61 (V0 : Valuation τ sig (Elt F)) : U4 V0 (no_index (Proc.devRef .tc main_v61)) = gz V0 :=
  (S3_keep (U3 V0) main_v61 (by decide)).trans (U3_v61 V0)
theorem U4_arg16 (V0 : Valuation τ sig (Elt F)) : U4 V0 (no_index (Proc.devRef .tc main_arg16)) = V0 (Proc.devRef .tc main_arg16) :=
  (S3_keep (U3 V0) main_arg16 (by decide)).trans (U3_arg16 V0)
theorem U4_arg17 (V0 : Valuation τ sig (Elt F)) : U4 V0 (no_index (Proc.devRef .tc main_arg17)) = V0 (Proc.devRef .tc main_arg17) :=
  (S3_keep (U3 V0) main_arg17 (by decide)).trans (U3_arg17 V0)

/-- The contents after S4. -/
def U5 (V0 : Valuation τ sig (Elt F)) : Valuation τ sig (Elt F) := after S4 (U4 V0)
theorem U5_arg9 (V0 : Valuation τ sig (Elt F)) : U5 V0 (no_index (Proc.devRef .tc main_arg9)) = V0 (Proc.devRef .tc main_arg9) :=
  (S4_keep (U4 V0) main_arg9 (by decide)).trans (U4_arg9 V0)
theorem U5_v163 (V0 : Valuation τ sig (Elt F)) : U5 V0 (no_index (Proc.devRef .tc main_v163)) = ch V0 := by
  show after S4 (U4 V0) (Proc.devRef .tc main_v163) = _
  rw [S4_v163]
  simp only [U4_arg0, U4_arg8, U4_v1, U4_v3, U4_arg2] <;> rfl
theorem U5_arg3 (V0 : Valuation τ sig (Elt F)) : U5 V0 (no_index (Proc.devRef .tc main_arg3)) = V0 (Proc.devRef .tc main_arg3) :=
  (S4_keep (U4 V0) main_arg3 (by decide)).trans (U4_arg3 V0)
theorem U5_v119 (V0 : Valuation τ sig (Elt F)) : U5 V0 (no_index (Proc.devRef .tc main_v119)) = gr V0 :=
  (S4_keep (U4 V0) main_v119 (by decide)).trans (U4_v119 V0)
theorem U5_arg14 (V0 : Valuation τ sig (Elt F)) : U5 V0 (no_index (Proc.devRef .tc main_arg14)) = V0 (Proc.devRef .tc main_arg14) :=
  (S4_keep (U4 V0) main_arg14 (by decide)).trans (U4_arg14 V0)
theorem U5_arg15 (V0 : Valuation τ sig (Elt F)) : U5 V0 (no_index (Proc.devRef .tc main_arg15)) = V0 (Proc.devRef .tc main_arg15) :=
  (S4_keep (U4 V0) main_arg15 (by decide)).trans (U4_arg15 V0)
theorem U5_v61 (V0 : Valuation τ sig (Elt F)) : U5 V0 (no_index (Proc.devRef .tc main_v61)) = gz V0 :=
  (S4_keep (U4 V0) main_v61 (by decide)).trans (U4_v61 V0)
theorem U5_arg16 (V0 : Valuation τ sig (Elt F)) : U5 V0 (no_index (Proc.devRef .tc main_arg16)) = V0 (Proc.devRef .tc main_arg16) :=
  (S4_keep (U4 V0) main_arg16 (by decide)).trans (U4_arg16 V0)
theorem U5_arg17 (V0 : Valuation τ sig (Elt F)) : U5 V0 (no_index (Proc.devRef .tc main_arg17)) = V0 (Proc.devRef .tc main_arg17) :=
  (S4_keep (U4 V0) main_arg17 (by decide)).trans (U4_arg17 V0)

/-- The contents after S5. -/
def U6 (V0 : Valuation τ sig (Elt F)) : Valuation τ sig (Elt F) := after S5 (U5 V0)
theorem U6_v178 (V0 : Valuation τ sig (Elt F)) : U6 V0 (no_index (Proc.devRef .tc main_v178)) = hidV V0 := by
  show after S5 (U5 V0) (Proc.devRef .tc main_v178) = _
  rw [S5_v178]
  simp only [U5_arg9, U5_v163, U5_arg3, U5_v119, U5_arg14, U5_arg15, U5_v61] <;> rfl
theorem U6_v183 (V0 : Valuation τ sig (Elt F)) : U6 V0 (no_index (Proc.devRef .tc main_v183)) = outV V0 := by
  show after S5 (U5 V0) (Proc.devRef .tc main_v183) = _
  rw [S5_v183]
  simp only [U5_arg9, U5_v163, U5_arg3, U5_v119, U5_arg14, U5_arg15, U5_v61, U5_arg16, U5_arg17] <;> rfl

/-- The run of all the operations is the groups run in turn. -/
theorem after_ops (V0 : Valuation τ sig (Elt F)) : after ops V0 = U6 V0 := by
  rw [ops_regroup, after_append, after_append, after_append, after_append, after_append]
  rfl

/-- THE NEW HIDDEN FEATURES the run leaves, as an array of the arguments' launch contents. -/
theorem after_ops_hidden (V0 : Valuation τ sig (Elt F)) : after ops V0 (Proc.devRef .tc main_v178) = hidV V0 := by
  rw [after_ops]; exact U6_v178 V0
/-- THE OUTPUT the run leaves, as an array of the arguments' launch contents. -/
theorem after_ops_out (V0 : Valuation τ sig (Elt F)) : after ops V0 (Proc.devRef .tc main_v183) = outV V0 := by
  rw [after_ops]; exact U6_v183 V0

end Stages

/-! ## The two results at an entry, over the extended reals

At the exact instance an array is a function of its index into the extended reals: a pointwise operation is the
scalar one at the index, a broadcast vector the vector at the column, two arrays side by side the first below column
64 and the second from there on, a matrix product the sum over the contracted index. -/

section Pointwise
open Cert.Gru

theorem ones64_apply (q : S50000x64.Idx) : (ones64 : FVec Ideal S50000x64 .f32) q = one32 := rfl
theorem zeros64_apply (q : S50000x64.Idx) : (zeros64 : FVec Ideal S50000x64 .f32) q = zero32 := rfl

/-- A bias vector repeated down the rows, at row i and column j: the vector at j. -/
theorem rowB_apply (b : FVec Ideal S64 .f32) (i : Fin 50000) (j : Fin 64) : rowB b (ix2 i j) = b (ix1 j) := by
  unfold rowB
  rw [broadcastInDim_apply ![0, 1] bcast_S1x64_S50000x64_0_1 _ (ix2 i j) (ix2 (0 : Fin 1) j)
        (fun a => by match a with | ⟨0, _⟩ => rfl | ⟨1, _⟩ => rfl),
      broadcastInDim_apply ![1] bcast_S64_S1x64_1 b (ix2 (0 : Fin 1) j) (ix1 j)
        (fun a => by match a with | ⟨0, _⟩ => rfl)]
theorem rowB16_apply (b : FVec Ideal S16 .f32) (i : Fin 50000) (j : Fin 16) : rowB16 b (ix2 i j) = b (ix1 j) := by
  unfold rowB16
  rw [broadcastInDim_apply ![0, 1] bcast_S1x16_S50000x16_0_1 _ (ix2 i j) (ix2 (0 : Fin 1) j)
        (fun a => by match a with | ⟨0, _⟩ => rfl | ⟨1, _⟩ => rfl),
      broadcastInDim_apply ![1] bcast_S16_S1x16_1 b (ix2 (0 : Fin 1) j) (ix1 j)
        (fun a => by match a with | ⟨0, _⟩ => rfl)]

/-- Two 50000×64 arrays side by side, at row i and column k: the first at k below 64, the second at k − 64 from there on. -/
theorem catH_apply (a b : FVec Ideal S50000x64 .f32) (i : Fin 50000) (k : Fin 128) :
    catH a b (ix2 i k) = if hk : k.val < 64 then a (ix2 i ⟨k.val, hk⟩) else b (ix2 i ⟨k.val - 64, by omega⟩) := by
  unfold catH
  by_cases hk : k.val < 64
  · rw [dif_pos hk]
    exact concatenate_pair_apply_left 1 a b _ (ix2 i k) rfl (ix2 i ⟨k.val, hk⟩)
      (fun c => by match c with | ⟨0, _⟩ => rfl | ⟨1, _⟩ => rfl)
  · rw [dif_neg hk]
    exact concatenate_pair_apply_right 1 a b _ (ix2 i k) rfl rfl (ix2 i ⟨k.val - 64, by omega⟩)
      (fun c hc => by match c with | ⟨0, _⟩ => rfl | ⟨1, _⟩ => exact absurd rfl hc)
      (by show (k.val - 64) + 64 = k.val; omega)

/-- The features times a 64×64 matrix, entry by entry: the sum over the contracted index. -/
theorem xw_eq (x : FVec Ideal S50000x64 .f32) (W : FVec Ideal S64x64 .f32) :
    xw x W = fun q => ∑ l : Fin 64, x (ix2 (q 0) l) * W (ix2 l (q 1)) := by
  funext q
  have h := Cert.LibDot.dotGeneral_plain dot_S50000x64_S64x64_S50000x64_1_0_0_1_n_n rfl none .single x W (q 0) (q 1)
  exact (congrArg (xw x W) (eq_ix2 q)).trans h

/-- The logistic function written out, at an entry. -/
theorem sigm_apply (P : FVec Ideal S50000x64 .f32) (q : S50000x64.Idx) : sigm P q = sigR (P q) := rfl

/-- A gate's pre-activation at an entry, in the plain formulation's words. -/
theorem pre_apply (C H : FVec Ideal S50000x64 .f32) (L : FVec Ideal S128x64 .f32) (lb : FVec Ideal S64 .f32)
    (i : Fin 50000) (j : Fin 64) :
    pre C H L lb (ix2 i j) = refLogitRow (fun k => C (ix2 i k)) (fun k => H (ix2 i k)) L (fun j => lb (ix1 j)) j := by
  unfold pre refLogitRow
  rw [addf_apply, rowB_apply]
  have h := Cert.LibDot.dotGeneral_plain dot_S50000x128_S128x64_S50000x64_1_0_0_1_n_n rfl none .single (catH C H) L i j
  rw [show Host.dotGeneral dot_S50000x128_S128x64_S50000x64_1_0_0_1_n_n none (catH C H) L (ix2 i j) = _ from h]
  simp only [catH_apply]

/-- A gate at an entry. -/
theorem gate_apply (A : FVec Ideal S50000x64 .f32) (b : FVec Ideal S64 .f32) (H : FVec Ideal S50000x64 .f32)
    (L : FVec Ideal S128x64 .f32) (lb : FVec Ideal S64 .f32) (i : Fin 50000) (j : Fin 64) :
    sigm (pre (conv A b) H L lb) (ix2 i j)
      = sigR (refLogitRow (fun k => A (ix2 i k) + b (ix1 k)) (fun k => H (ix2 i k)) L (fun j => lb (ix1 j)) j) := by
  rw [sigm_apply, pre_apply]
  simp only [conv, addf_apply, rowB_apply]

/-- The new hidden features at an entry. -/
theorem hid_apply (Z R Ah H : FVec Ideal S50000x64 .f32) (bh : FVec Ideal S64 .f32) (Lh : FVec Ideal S128x64 .f32)
    (lbh : FVec Ideal S64 .f32) (i : Fin 50000) (j : Fin 64) :
    hid Z R Ah H bh Lh lbh (ix2 i j)
      = Z (ix2 i j) * H (ix2 i j) + (one32 - Z (ix2 i j))
          * Ideal.tanh (refLogitRow (fun k => Ah (ix2 i k) + bh (ix1 k)) (fun k => H (ix2 i k) * R (ix2 i k)) Lh (fun j => lbh (ix1 j)) j) := by
  unfold hid
  rw [addf_apply, mulf_apply, mulf_apply, subf_apply, ones64_apply]
  show _ + _ * Ideal.tanh (pre (conv Ah bh) (mulf H R) Lh lbh (ix2 i j)) = _
  rw [pre_apply]
  simp only [conv, addf_apply, mulf_apply, rowB_apply]

/-- The exponential linear unit at an entry. -/
theorem eluA_apply (X : FVec Ideal S50000x64 .f32) (q : S50000x64.Idx) : eluA X q = refElu (X q) := rfl

/-- The output at an entry. -/
theorem outA_apply (Hn : FVec Ideal S50000x64 .f32) (Wl : FVec Ideal S64x16 .f32) (bl : FVec Ideal S16 .f32)
    (i : Fin 50000) (j : Fin 16) :
    outA Hn Wl bl (ix2 i j) = refOutRow (fun k => Hn (ix2 i k)) Wl (fun j => bl (ix1 j)) j := by
  unfold outA refOutRow
  rw [addf_apply, rowB16_apply]
  have h := Cert.LibDot.dotGeneral_plain dot_S50000x64_S64x16_S50000x16_1_0_0_1_n_n rfl none .single (eluA Hn) Wl i j
  rw [show Host.dotGeneral dot_S50000x64_S64x16_S50000x16_1_0_0_1_n_n none (eluA Hn) Wl (ix2 i j) = _ from h]
  simp only [eluA_apply]

end Pointwise

/-! ## The two results in the plain formulation -/

section Final
open Cert.Gru
variable [Cert.KernelIdeal.Facts₀]

/-- The aggregation named here is the one the host chain's names spell: the same composition, its records and side
    conditions those of the other program's text. -/
theorem agg_eq_hostSpec {F : FTy → Type} [FloatOps F] (X : FVec F S50000x64 .f32) (ei : IVec S2x800000 32) (ew : FVec F S800000 .f32) :
    agg X ei ew = Cert.HostSpec.agg X ei ew := rfl

/-- Node i's convolved row for one gate: row i of the aggregation of the features times the gate's 64×64 matrix (the
    product written as its sum), plus the gate's first bias. -/
abbrev convRow (x : FVec Ideal S50000x64 .f32) (ei : IVec S2x800000 32) (ew : FVec Ideal S800000 .f32)
    (W : FVec Ideal S64x64 .f32) (b : FVec Ideal S64 .f32) (i : Fin 50000) : Fin 64 → EReal :=
  fun k => Cert.HostSpec.agg (fun q => ∑ l : Fin 64, x (ix2 (q 0) l) * W (ix2 l (q 1))) ei ew (ix2 i k) + b (ix1 k)

/-- The new hidden features of the arguments' contents, at an entry, in the plain formulation. -/
theorem hidV_apply (V0 : Valuation τ sig (Elt Ideal)) (i : Fin 50000) (j : Fin 64) :
    hidV V0 (ix2 i j)
      = refHiddenRow (convRow (V0 (Proc.devRef .tc main_arg0)) (V0 (Proc.devRef .tc main_arg1)) (V0 (Proc.devRef .tc main_arg2)) (V0 (Proc.devRef .tc main_arg4)) (V0 (Proc.devRef .tc main_arg5)) i) (convRow (V0 (Proc.devRef .tc main_arg0)) (V0 (Proc.devRef .tc main_arg1)) (V0 (Proc.devRef .tc main_arg2)) (V0 (Proc.devRef .tc main_arg6)) (V0 (Proc.devRef .tc main_arg7)) i) (convRow (V0 (Proc.devRef .tc main_arg0)) (V0 (Proc.devRef .tc main_arg1)) (V0 (Proc.devRef .tc main_arg2)) (V0 (Proc.devRef .tc main_arg8)) (V0 (Proc.devRef .tc main_arg9)) i)
          (fun k => (V0 (Proc.devRef .tc main_arg3)) (ix2 i k)) (V0 (Proc.devRef .tc main_arg10)) (V0 (Proc.devRef .tc main_arg12)) (V0 (Proc.devRef .tc main_arg14))
          (fun c => (V0 (Proc.devRef .tc main_arg11)) (ix1 c)) (fun c => (V0 (Proc.devRef .tc main_arg13)) (ix1 c)) (fun c => (V0 (Proc.devRef .tc main_arg15)) (ix1 c)) j := by
  unfold hidV
  rw [hid_apply]
  simp only [gz, gr, gate_apply]
  simp only [cz, cr, ch, xw_eq, agg_eq_hostSpec]
  rfl

/-- THE REFERENCE'S HIDDEN RESULT at node i, column j, from any launch contents. -/
theorem ref_hidden_of (V0 : Valuation τ sig (Elt Ideal)) (i : Fin 50000) (j : Fin 64) :
    after (ops (F := Ideal)) V0 (Proc.devRef .tc main_v178) (ix2 i j)
      = refHiddenRow (convRow (V0 (Proc.devRef .tc main_arg0)) (V0 (Proc.devRef .tc main_arg1)) (V0 (Proc.devRef .tc main_arg2)) (V0 (Proc.devRef .tc main_arg4)) (V0 (Proc.devRef .tc main_arg5)) i) (convRow (V0 (Proc.devRef .tc main_arg0)) (V0 (Proc.devRef .tc main_arg1)) (V0 (Proc.devRef .tc main_arg2)) (V0 (Proc.devRef .tc main_arg6)) (V0 (Proc.devRef .tc main_arg7)) i) (convRow (V0 (Proc.devRef .tc main_arg0)) (V0 (Proc.devRef .tc main_arg1)) (V0 (Proc.devRef .tc main_arg2)) (V0 (Proc.devRef .tc main_arg8)) (V0 (Proc.devRef .tc main_arg9)) i)
          (fun k => (V0 (Proc.devRef .tc main_arg3)) (ix2 i k)) (V0 (Proc.devRef .tc main_arg10)) (V0 (Proc.devRef .tc main_arg12)) (V0 (Proc.devRef .tc main_arg14))
          (fun c => (V0 (Proc.devRef .tc main_arg11)) (ix1 c)) (fun c => (V0 (Proc.devRef .tc main_arg13)) (ix1 c)) (fun c => (V0 (Proc.devRef .tc main_arg15)) (ix1 c)) j := by
  rw [after_ops_hidden]; exact hidV_apply V0 i j

/-- THE REFERENCE'S OUTPUT at node i, column j, from any launch contents. -/
theorem ref_out_of (V0 : Valuation τ sig (Elt Ideal)) (i : Fin 50000) (j : Fin 16) :
    after (ops (F := Ideal)) V0 (Proc.devRef .tc main_v183) (ix2 i j)
      = refOutRow (fun k => refHiddenRow (convRow (V0 (Proc.devRef .tc main_arg0)) (V0 (Proc.devRef .tc main_arg1)) (V0 (Proc.devRef .tc main_arg2)) (V0 (Proc.devRef .tc main_arg4)) (V0 (Proc.devRef .tc main_arg5)) i) (convRow (V0 (Proc.devRef .tc main_arg0)) (V0 (Proc.devRef .tc main_arg1)) (V0 (Proc.devRef .tc main_arg2)) (V0 (Proc.devRef .tc main_arg6)) (V0 (Proc.devRef .tc main_arg7)) i) (convRow (V0 (Proc.devRef .tc main_arg0)) (V0 (Proc.devRef .tc main_arg1)) (V0 (Proc.devRef .tc main_arg2)) (V0 (Proc.devRef .tc main_arg8)) (V0 (Proc.devRef .tc main_arg9)) i)
          (fun k => (V0 (Proc.devRef .tc main_arg3)) (ix2 i k)) (V0 (Proc.devRef .tc main_arg10)) (V0 (Proc.devRef .tc main_arg12)) (V0 (Proc.devRef .tc main_arg14))
          (fun c => (V0 (Proc.devRef .tc main_arg11)) (ix1 c)) (fun c => (V0 (Proc.devRef .tc main_arg13)) (ix1 c)) (fun c => (V0 (Proc.devRef .tc main_arg15)) (ix1 c)) k)
          (V0 (Proc.devRef .tc main_arg16)) (fun c => (V0 (Proc.devRef .tc main_arg17)) (ix1 c)) j := by
  rw [after_ops_out]
  unfold outV
  rw [outA_apply]
  simp only [hidV_apply]

/-- The same two, from a launch's memory on device d. -/
theorem ref_hidden (m : (ℓ : Loc nD τ sig) → Buf (Elt Ideal) ℓ) (d : Dev nD) (i : Fin 50000) (j : Fin 64) :
    after (ops (F := Ideal)) (launchContents m d) (Proc.devRef .tc main_v178) (ix2 i j)
      = refHiddenRow (convRow (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) i) (convRow (m ((d.tc : Thread nD τ).loc main_arg0)) (m ((d.tc : Thread nD τ).loc main_arg1)) (m ((d.tc : Thread nD τ).loc main_arg2)) (m ((d.tc : Thread nD τ).loc main_arg6)) (m ((d.tc : Thread nD τ).loc main_arg7)) i) (convRow (m ((d.tc : Thread nD τ).loc main_arg0)) (m ((d.tc : Thread nD τ).loc main_arg1)) (m ((d.tc : Thread nD τ).loc main_arg2)) (m ((d.tc : Thread nD τ).loc main_arg8)) (m ((d.tc : Thread nD τ).loc main_arg9)) i)
          (fun k => (m ((d.tc : Thread nD τ).loc main_arg3)) (ix2 i k)) (m ((d.tc : Thread nD τ).loc main_arg10)) (m ((d.tc : Thread nD τ).loc main_arg12)) (m ((d.tc : Thread nD τ).loc main_arg14))
          (fun c => (m ((d.tc : Thread nD τ).loc main_arg11)) (ix1 c)) (fun c => (m ((d.tc : Thread nD τ).loc main_arg13)) (ix1 c)) (fun c => (m ((d.tc : Thread nD τ).loc main_arg15)) (ix1 c)) j :=
  ref_hidden_of (launchContents m d) i j

theorem ref_out (m : (ℓ : Loc nD τ sig) → Buf (Elt Ideal) ℓ) (d : Dev nD) (i : Fin 50000) (j : Fin 16) :
    after (ops (F := Ideal)) (launchContents m d) (Proc.devRef .tc main_v183) (ix2 i j)
      = refOutRow (fun k => refHiddenRow (convRow (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) i) (convRow (m ((d.tc : Thread nD τ).loc main_arg0)) (m ((d.tc : Thread nD τ).loc main_arg1)) (m ((d.tc : Thread nD τ).loc main_arg2)) (m ((d.tc : Thread nD τ).loc main_arg6)) (m ((d.tc : Thread nD τ).loc main_arg7)) i) (convRow (m ((d.tc : Thread nD τ).loc main_arg0)) (m ((d.tc : Thread nD τ).loc main_arg1)) (m ((d.tc : Thread nD τ).loc main_arg2)) (m ((d.tc : Thread nD τ).loc main_arg8)) (m ((d.tc : Thread nD τ).loc main_arg9)) i)
          (fun k => (m ((d.tc : Thread nD τ).loc main_arg3)) (ix2 i k)) (m ((d.tc : Thread nD τ).loc main_arg10)) (m ((d.tc : Thread nD τ).loc main_arg12)) (m ((d.tc : Thread nD τ).loc main_arg14))
          (fun c => (m ((d.tc : Thread nD τ).loc main_arg11)) (ix1 c)) (fun c => (m ((d.tc : Thread nD τ).loc main_arg13)) (ix1 c)) (fun c => (m ((d.tc : Thread nD τ).loc main_arg15)) (ix1 c)) k)
          (m ((d.tc : Thread nD τ).loc main_arg16)) (fun c => (m ((d.tc : Thread nD τ).loc main_arg17)) (ix1 c)) j :=
  ref_out_of (launchContents m d) i j

end Final

end Cert.ReferenceIdeal.RefVals

end
-- ==== Proof.RefArgs.lean ====
/- The reference's run leaves its eighteen argument buffers as launched: no operation of @main writes one, so each
   holds after the run what it held before. Nothing is computed: a buffer outside the list of the buffers a line of
   operations writes keeps its contents through the line. -/
import proofs.«118302_j40037685133528_2_alg».proof.Proof.RefRun

noncomputable section

namespace Cert.ReferenceIdeal.RefArgs

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- One operation's written buffer is in the list of a window's written buffers. -/
local macro "wr" : tactic =>
  `(tactic| (simp only [nullary_writes, unary_writes, binary_writes, ternary_writes, reshape_writes,
      Finset.singleton_subset_iff, List.mem_toFinset]; exact List.mem_map_of_mem (by decide)))

/-- Two lines run one after the other: the second's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The buffers window 0's operations write. -/
abbrev W0 : List (Ref sig .tc) := [main_v0, main_v1, main_v2, main_v3, main_v4, main_v5, main_v6, main_v7, main_cst, main_v8, main_v9, main_cst_0, main_v10, main_v11, main_v12, main_cst_1, main_v13, main_v14, main_cst_2, main_v15, main_v16, main_v17, main_cst_3, main_call0_v0, main_call0_v1, main_v18, main_c, main_v19, main_v20, main_c_4, main_v21, main_v22, main_v23, main_v24, main_v25, main_v26, main_c_5, main_v27, main_v28, main_c_6, main_v29, main_v30, main_v31, main_v32, main_v33, main_v34, main_c_7, main_v35, main_v36, main_c_8, main_v37, main_v38, main_v39, main_v40, main_v41, main_v42, main_v43, main_v44, main_cst_9, main_v45, main_v46, main_v47]
set_option maxRecDepth 8192 in
set_option maxHeartbeats 4000000 in
theorem ops0_writes : (ops0 : List (HloOp τ sig (Elt F))).Forall fun op => op.writes ⊆ (W0.map (Proc.devRef (τ := τ) .tc)).toFinset := by
  simp only [ops0, List.Forall]
  exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩

/-- The buffers window 1's operations write. -/
abbrev W1 : List (Ref sig .tc) := [main_v48, main_v49, main_v50, main_v51, main_v52, main_v53, main_v54, main_v55, main_v56, main_v57, main_cst_10, main_v58, main_v59, main_cst_11, main_v60, main_v61, main_v62, main_v63, main_v64, main_v65, main_cst_12, main_v66, main_v67, main_cst_13, main_v68, main_v69, main_v70, main_cst_14, main_v71, main_v72, main_cst_15, main_v73, main_v74, main_v75, main_cst_16, main_call1_v0, main_call1_v1, main_v76, main_c_17, main_v77, main_v78, main_c_18, main_v79, main_v80, main_v81, main_v82, main_v83, main_v84, main_c_19, main_v85, main_v86, main_c_20, main_v87, main_v88, main_v89, main_v90, main_v91, main_v92, main_c_21, main_v93, main_v94, main_c_22]
set_option maxRecDepth 8192 in
set_option maxHeartbeats 4000000 in
theorem ops1_writes : (ops1 : List (HloOp τ sig (Elt F))).Forall fun op => op.writes ⊆ (W1.map (Proc.devRef (τ := τ) .tc)).toFinset := by
  simp only [ops1, List.Forall]
  exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩

/-- The buffers window 2's operations write. -/
abbrev W2 : List (Ref sig .tc) := [main_v95, main_v96, main_v97, main_v98, main_v99, main_v100, main_v101, main_v102, main_cst_23, main_v103, main_v104, main_v105, main_v106, main_v107, main_v108, main_v109, main_v110, main_v111, main_v112, main_v113, main_v114, main_v115, main_cst_24, main_v116, main_v117, main_cst_25, main_v118, main_v119, main_v120, main_v121, main_v122, main_v123, main_cst_26, main_v124, main_v125, main_cst_27, main_v126, main_v127, main_v128, main_cst_28, main_v129, main_v130, main_cst_29, main_v131, main_v132, main_v133, main_cst_30, main_call2_v0, main_call2_v1, main_v134, main_c_31, main_v135, main_v136, main_c_32, main_v137, main_v138, main_v139, main_v140, main_v141, main_v142, main_c_33, main_v143]
set_option maxRecDepth 8192 in
set_option maxHeartbeats 4000000 in
theorem ops2_writes : (ops2 : List (HloOp τ sig (Elt F))).Forall fun op => op.writes ⊆ (W2.map (Proc.devRef (τ := τ) .tc)).toFinset := by
  simp only [ops2, List.Forall]
  exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩

/-- The buffers window 3's operations write. -/
abbrev W3 : List (Ref sig .tc) := [main_v144, main_c_34, main_v145, main_v146, main_v147, main_v148, main_v149, main_v150, main_c_35, main_v151, main_v152, main_c_36, main_v153, main_v154, main_v155, main_v156, main_v157, main_v158, main_v159, main_v160, main_cst_37, main_v161, main_v162, main_v163, main_v164, main_v165, main_v166, main_v167, main_v168, main_v169, main_v170, main_v171, main_v172, main_v173, main_v174, main_cst_38, main_v175, main_v176, main_v177, main_v178, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v179, main_v180, main_v181, main_v182, main_v183]
set_option maxRecDepth 8192 in
set_option maxHeartbeats 4000000 in
theorem ops3_writes : (ops3 : List (HloOp τ sig (Elt F))).Forall fun op => op.writes ⊆ (W3.map (Proc.devRef (τ := τ) .tc)).toFinset := by
  simp only [ops3, List.Forall]
  exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩

/-- A buffer no window writes keeps its contents through the whole run. -/
theorem ops_keep (V : Valuation τ sig (Elt F)) (r : Ref sig .tc) (h0 : r ∉ W0) (h1 : r ∉ W1) (h2 : r ∉ W2) (h3 : r ∉ W3) :
    after (ops (F := F)) V (Proc.devRef .tc r) = V (Proc.devRef .tc r) := by
  show after (((ops0 ++ ops1) ++ ops2) ++ ops3) V _ = _
  rw [after_append', after_append', after_append', after_of_writes_sub ops3 _ ops3_writes h3,
    after_of_writes_sub ops2 _ ops2_writes h2, after_of_writes_sub ops1 _ ops1_writes h1,
    after_of_writes_sub ops0 _ ops0_writes h0]

/-- Argument 0 is left as launched. -/
theorem arg_kept0 (m : (ℓ : Loc nD τ sig) → Buf (Elt F) ℓ) (d : Dev nD) :
    after (ops (F := F)) (launchContents m d) (Proc.devRef .tc main_arg0) = m ((d.tc : Thread nD τ).loc main_arg0) :=
  ops_keep (launchContents m d) main_arg0 (by decide) (by decide) (by decide) (by decide)
/-- Argument 1 is left as launched. -/
theorem arg_kept1 (m : (ℓ : Loc nD τ sig) → Buf (Elt F) ℓ) (d : Dev nD) :
    after (ops (F := F)) (launchContents m d) (Proc.devRef .tc main_arg1) = m ((d.tc : Thread nD τ).loc main_arg1) :=
  ops_keep (launchContents m d) main_arg1 (by decide) (by decide) (by decide) (by decide)
/-- Argument 2 is left as launched. -/
theorem arg_kept2 (m : (ℓ : Loc nD τ sig) → Buf (Elt F) ℓ) (d : Dev nD) :
    after (ops (F := F)) (launchContents m d) (Proc.devRef .tc main_arg2) = m ((d.tc : Thread nD τ).loc main_arg2) :=
  ops_keep (launchContents m d) main_arg2 (by decide) (by decide) (by decide) (by decide)
/-- Argument 3 is left as launched. -/
theorem arg_kept3 (m : (ℓ : Loc nD τ sig) → Buf (Elt F) ℓ) (d : Dev nD) :
    after (ops (F := F)) (launchContents m d) (Proc.devRef .tc main_arg3) = m ((d.tc : Thread nD τ).loc main_arg3) :=
  ops_keep (launchContents m d) main_arg3 (by decide) (by decide) (by decide) (by decide)
/-- Argument 4 is left as launched. -/
theorem arg_kept4 (m : (ℓ : Loc nD τ sig) → Buf (Elt F) ℓ) (d : Dev nD) :
    after (ops (F := F)) (launchContents m d) (Proc.devRef .tc main_arg4) = m ((d.tc : Thread nD τ).loc main_arg4) :=
  ops_keep (launchContents m d) main_arg4 (by decide) (by decide) (by decide) (by decide)
/-- Argument 5 is left as launched. -/
theorem arg_kept5 (m : (ℓ : Loc nD τ sig) → Buf (Elt F) ℓ) (d : Dev nD) :
    after (ops (F := F)) (launchContents m d) (Proc.devRef .tc main_arg5) = m ((d.tc : Thread nD τ).loc main_arg5) :=
  ops_keep (launchContents m d) main_arg5 (by decide) (by decide) (by decide) (by decide)
/-- Argument 6 is left as launched. -/
theorem arg_kept6 (m : (ℓ : Loc nD τ sig) → Buf (Elt F) ℓ) (d : Dev nD) :
    after (ops (F := F)) (launchContents m d) (Proc.devRef .tc main_arg6) = m ((d.tc : Thread nD τ).loc main_arg6) :=
  ops_keep (launchContents m d) main_arg6 (by decide) (by decide) (by decide) (by decide)
/-- Argument 7 is left as launched. -/
theorem arg_kept7 (m : (ℓ : Loc nD τ sig) → Buf (Elt F) ℓ) (d : Dev nD) :
    after (ops (F := F)) (launchContents m d) (Proc.devRef .tc main_arg7) = m ((d.tc : Thread nD τ).loc main_arg7) :=
  ops_keep (launchContents m d) main_arg7 (by decide) (by decide) (by decide) (by decide)
/-- Argument 8 is left as launched. -/
theorem arg_kept8 (m : (ℓ : Loc nD τ sig) → Buf (Elt F) ℓ) (d : Dev nD) :
    after (ops (F := F)) (launchContents m d) (Proc.devRef .tc main_arg8) = m ((d.tc : Thread nD τ).loc main_arg8) :=
  ops_keep (launchContents m d) main_arg8 (by decide) (by decide) (by decide) (by decide)
/-- Argument 9 is left as launched. -/
theorem arg_kept9 (m : (ℓ : Loc nD τ sig) → Buf (Elt F) ℓ) (d : Dev nD) :
    after (ops (F := F)) (launchContents m d) (Proc.devRef .tc main_arg9) = m ((d.tc : Thread nD τ).loc main_arg9) :=
  ops_keep (launchContents m d) main_arg9 (by decide) (by decide) (by decide) (by decide)
/-- Argument 10 is left as launched. -/
theorem arg_kept10 (m : (ℓ : Loc nD τ sig) → Buf (Elt F) ℓ) (d : Dev nD) :
    after (ops (F := F)) (launchContents m d) (Proc.devRef .tc main_arg10) = m ((d.tc : Thread nD τ).loc main_arg10) :=
  ops_keep (launchContents m d) main_arg10 (by decide) (by decide) (by decide) (by decide)
/-- Argument 11 is left as launched. -/
theorem arg_kept11 (m : (ℓ : Loc nD τ sig) → Buf (Elt F) ℓ) (d : Dev nD) :
    after (ops (F := F)) (launchContents m d) (Proc.devRef .tc main_arg11) = m ((d.tc : Thread nD τ).loc main_arg11) :=
  ops_keep (launchContents m d) main_arg11 (by decide) (by decide) (by decide) (by decide)
/-- Argument 12 is left as launched. -/
theorem arg_kept12 (m : (ℓ : Loc nD τ sig) → Buf (Elt F) ℓ) (d : Dev nD) :
    after (ops (F := F)) (launchContents m d) (Proc.devRef .tc main_arg12) = m ((d.tc : Thread nD τ).loc main_arg12) :=
  ops_keep (launchContents m d) main_arg12 (by decide) (by decide) (by decide) (by decide)
/-- Argument 13 is left as launched. -/
theorem arg_kept13 (m : (ℓ : Loc nD τ sig) → Buf (Elt F) ℓ) (d : Dev nD) :
    after (ops (F := F)) (launchContents m d) (Proc.devRef .tc main_arg13) = m ((d.tc : Thread nD τ).loc main_arg13) :=
  ops_keep (launchContents m d) main_arg13 (by decide) (by decide) (by decide) (by decide)
/-- Argument 14 is left as launched. -/
theorem arg_kept14 (m : (ℓ : Loc nD τ sig) → Buf (Elt F) ℓ) (d : Dev nD) :
    after (ops (F := F)) (launchContents m d) (Proc.devRef .tc main_arg14) = m ((d.tc : Thread nD τ).loc main_arg14) :=
  ops_keep (launchContents m d) main_arg14 (by decide) (by decide) (by decide) (by decide)
/-- Argument 15 is left as launched. -/
theorem arg_kept15 (m : (ℓ : Loc nD τ sig) → Buf (Elt F) ℓ) (d : Dev nD) :
    after (ops (F := F)) (launchContents m d) (Proc.devRef .tc main_arg15) = m ((d.tc : Thread nD τ).loc main_arg15) :=
  ops_keep (launchContents m d) main_arg15 (by decide) (by decide) (by decide) (by decide)
/-- Argument 16 is left as launched. -/
theorem arg_kept16 (m : (ℓ : Loc nD τ sig) → Buf (Elt F) ℓ) (d : Dev nD) :
    after (ops (F := F)) (launchContents m d) (Proc.devRef .tc main_arg16) = m ((d.tc : Thread nD τ).loc main_arg16) :=
  ops_keep (launchContents m d) main_arg16 (by decide) (by decide) (by decide) (by decide)
/-- Argument 17 is left as launched. -/
theorem arg_kept17 (m : (ℓ : Loc nD τ sig) → Buf (Elt F) ℓ) (d : Dev nD) :
    after (ops (F := F)) (launchContents m d) (Proc.devRef .tc main_arg17) = m ((d.tc : Thread nD τ).loc main_arg17) :=
  ops_keep (launchContents m d) main_arg17 (by decide) (by decide) (by decide) (by decide)

/-- All eighteen, in argument order. -/
theorem args_kept (m : (ℓ : Loc nD τ sig) → Buf (Elt F) ℓ) (d : Dev nD) :
    after (ops (F := F)) (launchContents m d) (Proc.devRef .tc main_arg0) = m ((d.tc : Thread nD τ).loc main_arg0)
    ∧ after (ops (F := F)) (launchContents m d) (Proc.devRef .tc main_arg1) = m ((d.tc : Thread nD τ).loc main_arg1)
    ∧ after (ops (F := F)) (launchContents m d) (Proc.devRef .tc main_arg2) = m ((d.tc : Thread nD τ).loc main_arg2)
    ∧ after (ops (F := F)) (launchContents m d) (Proc.devRef .tc main_arg3) = m ((d.tc : Thread nD τ).loc main_arg3)
    ∧ after (ops (F := F)) (launchContents m d) (Proc.devRef .tc main_arg4) = m ((d.tc : Thread nD τ).loc main_arg4)
    ∧ after (ops (F := F)) (launchContents m d) (Proc.devRef .tc main_arg5) = m ((d.tc : Thread nD τ).loc main_arg5)
    ∧ after (ops (F := F)) (launchContents m d) (Proc.devRef .tc main_arg6) = m ((d.tc : Thread nD τ).loc main_arg6)
    ∧ after (ops (F := F)) (launchContents m d) (Proc.devRef .tc main_arg7) = m ((d.tc : Thread nD τ).loc main_arg7)
    ∧ after (ops (F := F)) (launchContents m d) (Proc.devRef .tc main_arg8) = m ((d.tc : Thread nD τ).loc main_arg8)
    ∧ after (ops (F := F)) (launchContents m d) (Proc.devRef .tc main_arg9) = m ((d.tc : Thread nD τ).loc main_arg9)
    ∧ after (ops (F := F)) (launchContents m d) (Proc.devRef .tc main_arg10) = m ((d.tc : Thread nD τ).loc main_arg10)
    ∧ after (ops (F := F)) (launchContents m d) (Proc.devRef .tc main_arg11) = m ((d.tc : Thread nD τ).loc main_arg11)
    ∧ after (ops (F := F)) (launchContents m d) (Proc.devRef .tc main_arg12) = m ((d.tc : Thread nD τ).loc main_arg12)
    ∧ after (ops (F := F)) (launchContents m d) (Proc.devRef .tc main_arg13) = m ((d.tc : Thread nD τ).loc main_arg13)
    ∧ after (ops (F := F)) (launchContents m d) (Proc.devRef .tc main_arg14) = m ((d.tc : Thread nD τ).loc main_arg14)
    ∧ after (ops (F := F)) (launchContents m d) (Proc.devRef .tc main_arg15) = m ((d.tc : Thread nD τ).loc main_arg15)
    ∧ after (ops (F := F)) (launchContents m d) (Proc.devRef .tc main_arg16) = m ((d.tc : Thread nD τ).loc main_arg16)
    ∧ after (ops (F := F)) (launchContents m d) (Proc.devRef .tc main_arg17) = m ((d.tc : Thread nD τ).loc main_arg17) :=
  ⟨arg_kept0 m d, arg_kept1 m d, arg_kept2 m d, arg_kept3 m d, arg_kept4 m d, arg_kept5 m d, arg_kept6 m d, arg_kept7 m d, arg_kept8 m d, arg_kept9 m d, arg_kept10 m d, arg_kept11 m d, arg_kept12 m d, arg_kept13 m d, arg_kept14 m d, arg_kept15 m d, arg_kept16 m d, arg_kept17 m d⟩

end Cert.ReferenceIdeal.RefArgs

end
-- ==== Proof.Finite.lean ====
/-
  From the precondition "every float input has only finite entries" to "every entry of every float input is a
  real number". The precondition is the conjunction, over the seventeen float inputs, of "all entries have absolute
  value strictly below plus infinity"; at the exact-arithmetic reading a float is an extended real, so an entry
  that passes the test is neither infinity nor the junk value, hence a real.
-/
import proofs.«118302_j40037685133528_2_alg».proof.Pre_finite_inputs
import proofs.«118302_j40037685133528_2_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- The scalar shape has exactly one index. -/
instance : Subsingleton S_.Idx := ⟨fun a b => funext fun d => d.elim0⟩

/-- The pattern of positive infinity denotes the top element. -/
theorem ofBits_inf : Ideal.ofBits .f32 0x7F800000#32 = (⊤ : EReal) := by
  simp [Ideal.ofBits, Ideal.ieee]

/-- An extended real whose absolute value (the larger of it and its negation) lies strictly below
    plus infinity is a real number: both infinities are excluded. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One conjunct of the precondition, over an arbitrary shape: if the test "absolute value below plus
    infinity", taken entrywise and reduced by "and" over all axes, comes out true, every entry is real. -/
theorem reals_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) :
    ∀ i, ∃ r : ℝ, a i = (r : EReal) := by
  intro i
  have h1 := Host.reduce_andi_all _ _ hr hu ValueIdx.ix0 e i
  have h2 : Ideal.cmp .olt (max (a i) (-a i)) (Ideal.ofBits .f32 0x7F800000#32) = 1#1 := h1
  rw [ofBits_inf] at h2
  apply real_of_abs_lt_top
  by_contra hn
  simp [Ideal.cmp, hn] at h2

/-- The precondition, decoded: if the finiteness test of the eighteen arguments (seventeen float arrays and one
    integer array, which the test does not look at) comes out true, every entry of every float argument is a real
    number. The test is a left-nested conjunction of seventeen "all entries finite" tests, one per float argument
    in argument order; each conjunct is read back by the lemma above. -/
theorem reals_of_pre [Cert.Pre_finite_inputs.Facts]
    (a0 : FVec Ideal S50000x64 .f32)
    (a1 : IVec S2x800000 32)
    (a2 : FVec Ideal S800000 .f32)
    (a3 : FVec Ideal S50000x64 .f32)
    (a4 : FVec Ideal S64x64 .f32)
    (a5 : FVec Ideal S64 .f32)
    (a6 : FVec Ideal S64x64 .f32)
    (a7 : FVec Ideal S64 .f32)
    (a8 : FVec Ideal S64x64 .f32)
    (a9 : FVec Ideal S64 .f32)
    (a10 : FVec Ideal S128x64 .f32)
    (a11 : FVec Ideal S64 .f32)
    (a12 : FVec Ideal S128x64 .f32)
    (a13 : FVec Ideal S64 .f32)
    (a14 : FVec Ideal S128x64 .f32)
    (a15 : FVec Ideal S64 .f32)
    (a16 : FVec Ideal S64x16 .f32)
    (a17 : FVec Ideal S16 .f32)
    (h : Cert.Pre_finite_inputs.fn (F := Ideal) a0 a1 a2 a3 a4 a5 a6 a7 a8 a9 a10 a11 a12 a13 a14 a15 a16 a17 = fun _ => 1#1) :
    (∀ i, ∃ r : ℝ, a0 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) := by
  have h0 := congrFun h ValueIdx.ix0
  dsimp only [fn, fn_part1, fn_part2, fn_part3, fn_part4] at h0
  simp only [andi, IntOp.andi_eq_one] at h0
  obtain ⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩ := h0
  exact ⟨reals_of_all a0 _ _ _ e0,
    reals_of_all a2 _ _ _ e2,
    reals_of_all a3 _ _ _ e3,
    reals_of_all a4 _ _ _ e4,
    reals_of_all a5 _ _ _ e5,
    reals_of_all a6 _ _ _ e6,
    reals_of_all a7 _ _ _ e7,
    reals_of_all a8 _ _ _ e8,
    reals_of_all a9 _ _ _ e9,
    reals_of_all a10 _ _ _ e10,
    reals_of_all a11 _ _ _ e11,
    reals_of_all a12 _ _ _ e12,
    reals_of_all a13 _ _ _ e13,
    reals_of_all a14 _ _ _ e14,
    reals_of_all a15 _ _ _ e15,
    reals_of_all a16 _ _ _ e16,
    reals_of_all a17 _ _ _ e17⟩

end Cert.FiniteInputs

end
-- ==== Proof.lean ====
/-
  The certificate of a gated recurrent graph cell: a kernel that aggregates the raw node features over the graph ONCE and
  runs the gates on folded weights, against the plain formulation that convolves the features three times (once per gate)
  and contracts each gate's concatenated input with a 128×64 matrix.

  The frames of the two kernel programs are the generated ones; the plain program has no kernel, and its frame is its
  straight-line run with the argument buffers read back. The kernel and its idealization differ by no rewrite.

  The value claim, at the exact instance: the kernel's two results are the folded formulation of the cell over the one
  aggregation `Â x` (with `Â` the symmetrically normalised adjacency with self-loops, as both programs compute it from the
  edge list), the plain program's are the plain formulation over the three convolutions `Â (x W) + b`. They agree because
  aggregation is linear in the features — `Â (x W) = (Â x) W` — and each gate's matrix splits into the half applied to the
  convolved row, which folds into `W` and `b`, and the half applied to the hidden row. Both steps move a factor across a
  finite sum of extended reals, which is where the precondition is used: the features, the edge weights (hence the
  normalisation) and the weights and biases involved are real numbers. The logistic function, written out on one side and a
  single operation on the other, is one function of every extended real, and so are the two spellings of the
  exponential linear unit.
-/
import proofs.«118302_j40037685133528_2_alg».proof.Defs
import proofs.«118302_j40037685133528_2_alg».proof.Proof.Gen.Kernel
import proofs.«118302_j40037685133528_2_alg».proof.Proof.Gen.Kernel.Frame
import proofs.«118302_j40037685133528_2_alg».proof.Proof.Gen.KernelIdeal
import proofs.«118302_j40037685133528_2_alg».proof.Proof.Gen.KernelIdeal.Frame
import proofs.«118302_j40037685133528_2_alg».proof.Proof.Gen.ReferenceIdeal
import proofs.«118302_j40037685133528_2_alg».proof.Proof.Gen.Pre_finite_inputs
import proofs.«118302_j40037685133528_2_alg».proof.Proof.KerFinal
import proofs.«118302_j40037685133528_2_alg».proof.Proof.Bridge
import proofs.«118302_j40037685133528_2_alg».proof.Proof.RefVals
import proofs.«118302_j40037685133528_2_alg».proof.Proof.RefArgs
import proofs.«118302_j40037685133528_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The plain program's run leaves every argument buffer as launched: no operation writes one. -/
theorem frame_ri : Cert.frame_ReferenceIdeal := fun M ρ _ =>
  (θ_run Cert.ReferenceIdeal.defs _ _).mono (fun r h c => ⟨(h c _).trans (Cert.ReferenceIdeal.RefArgs.arg_kept0 M c),
      (h c _).trans (Cert.ReferenceIdeal.RefArgs.arg_kept1 M c),
      (h c _).trans (Cert.ReferenceIdeal.RefArgs.arg_kept2 M c),
      (h c _).trans (Cert.ReferenceIdeal.RefArgs.arg_kept3 M c),
      (h c _).trans (Cert.ReferenceIdeal.RefArgs.arg_kept4 M c),
      (h c _).trans (Cert.ReferenceIdeal.RefArgs.arg_kept5 M c),
      (h c _).trans (Cert.ReferenceIdeal.RefArgs.arg_kept6 M c),
      (h c _).trans (Cert.ReferenceIdeal.RefArgs.arg_kept7 M c),
      (h c _).trans (Cert.ReferenceIdeal.RefArgs.arg_kept8 M c),
      (h c _).trans (Cert.ReferenceIdeal.RefArgs.arg_kept9 M c),
      (h c _).trans (Cert.ReferenceIdeal.RefArgs.arg_kept10 M c),
      (h c _).trans (Cert.ReferenceIdeal.RefArgs.arg_kept11 M c),
      (h c _).trans (Cert.ReferenceIdeal.RefArgs.arg_kept12 M c),
      (h c _).trans (Cert.ReferenceIdeal.RefArgs.arg_kept13 M c),
      (h c _).trans (Cert.ReferenceIdeal.RefArgs.arg_kept14 M c),
      (h c _).trans (Cert.ReferenceIdeal.RefArgs.arg_kept15 M c),
      (h c _).trans (Cert.ReferenceIdeal.RefArgs.arg_kept16 M c),
      (h c _).trans (Cert.ReferenceIdeal.RefArgs.arg_kept17 M c)⟩)
    (Cert.ReferenceIdeal.RefRun.run_after (F := Ideal) M ρ)

theorem preserves : Cert.preserves_Kernel_KernelIdeal := trivial

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The plain program's hidden result, from arguments that agree and are finite, is the kernel's. -/
theorem ref_hid_arr (c : Dev Cert.KernelIdeal.nD) (hpre : Cert.Pre_KernelIdeal m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    after (Cert.ReferenceIdeal.RefRun.ops (F := Ideal)) (launchContents m' c) (Proc.devRef .tc Cert.ReferenceIdeal.main_v178) = Cert.KernelIdeal.Final.hid m c := by
  obtain ⟨e0, e1, e2, e3, e4, e5, e6, e7, e8, e9, e10, e11, e12, e13, e14, e15, e16, e17⟩ := hagree
  obtain ⟨h0, h2, h3, h4, h5, h6, h7, h8, h9, h10, h11, h12, h13, h14, h15, h16, h17⟩ := Cert.FiniteInputs.reals_of_pre _ _ _ _ _ _ _ _ _ _ _ _ _ _ _ _ _ _ (hpre c)
  funext idx
  obtain ⟨i, j, rfl⟩ : ∃ (i : Fin 50000) (j : Fin 64), idx = ix2 i j := ⟨idx 0, idx 1, eq_ix2 idx⟩
  rw [Cert.ReferenceIdeal.RefVals.ref_hidden m' c i j, e0, e1, e2, e3, e4, e5, e6, e7, e8, e9, e10, e11, e12, e13, e14, e15]
  unfold Cert.KernelIdeal.Final.hid
  rw [Cert.KernelIdeal.Blocks.hiddenArr_apply]
  exact Cert.Bridge.hidden_bridge (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) h0 h2 h4 h5 h6 h7 h8 h9 h10 h12 h14 i j

/-- The plain program's output result, likewise. -/
theorem ref_out_arr (c : Dev Cert.KernelIdeal.nD) (hpre : Cert.Pre_KernelIdeal m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    after (Cert.ReferenceIdeal.RefRun.ops (F := Ideal)) (launchContents m' c) (Proc.devRef .tc Cert.ReferenceIdeal.main_v183) = Cert.KernelIdeal.Final.out m c := by
  obtain ⟨e0, e1, e2, e3, e4, e5, e6, e7, e8, e9, e10, e11, e12, e13, e14, e15, e16, e17⟩ := hagree
  obtain ⟨h0, h2, h3, h4, h5, h6, h7, h8, h9, h10, h11, h12, h13, h14, h15, h16, h17⟩ := Cert.FiniteInputs.reals_of_pre _ _ _ _ _ _ _ _ _ _ _ _ _ _ _ _ _ _ (hpre c)
  funext idx
  obtain ⟨i, j, rfl⟩ : ∃ (i : Fin 50000) (j : Fin 16), idx = ix2 i j := ⟨idx 0, idx 1, eq_ix2 idx⟩
  rw [Cert.ReferenceIdeal.RefVals.ref_out m' c i j, e0, e1, e2, e3, e4, e5, e6, e7, e8, e9, e10, e11, e12, e13, e14, e15, e16, e17]
  unfold Cert.KernelIdeal.Final.out
  rw [Cert.KernelIdeal.Blocks.outArr_apply]
  exact Cert.Bridge.out_bridge (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) h0 h2 h4 h5 h6 h7 h8 h9 h10 h12 h14 i j

end Values

/-- Both programs run, and from arguments that agree and are finite they end with the same two results. -/
theorem algebraic : Cert.algebraic_KernelIdeal_ReferenceIdeal := by
  intro m ρ M ρ' hpre hagree
  refine ⟨fun c => Cert.KernelIdeal.Final.out m c, fun c => Cert.KernelIdeal.Final.hid m c, Cert.KernelIdeal.Final.run m ρ, ?_⟩
  exact (θ_run Cert.ReferenceIdeal.defs _ _).mono (fun r h c => ⟨(h c _).trans (ref_out_arr m M c hpre (hagree c)),
      (h c _).trans (ref_hid_arr m M c hpre (hagree c)),
      (h c _).trans (Cert.ReferenceIdeal.RefArgs.arg_kept0 M c),
      (h c _).trans (Cert.ReferenceIdeal.RefArgs.arg_kept1 M c),
      (h c _).trans (Cert.ReferenceIdeal.RefArgs.arg_kept2 M c),
      (h c _).trans (Cert.ReferenceIdeal.RefArgs.arg_kept3 M c),
      (h c _).trans (Cert.ReferenceIdeal.RefArgs.arg_kept4 M c),
      (h c _).trans (Cert.ReferenceIdeal.RefArgs.arg_kept5 M c),
      (h c _).trans (Cert.ReferenceIdeal.RefArgs.arg_kept6 M c),
      (h c _).trans (Cert.ReferenceIdeal.RefArgs.arg_kept7 M c),
      (h c _).trans (Cert.ReferenceIdeal.RefArgs.arg_kept8 M c),
      (h c _).trans (Cert.ReferenceIdeal.RefArgs.arg_kept9 M c),
      (h c _).trans (Cert.ReferenceIdeal.RefArgs.arg_kept10 M c),
      (h c _).trans (Cert.ReferenceIdeal.RefArgs.arg_kept11 M c),
      (h c _).trans (Cert.ReferenceIdeal.RefArgs.arg_kept12 M c),
      (h c _).trans (Cert.ReferenceIdeal.RefArgs.arg_kept13 M c),
      (h c _).trans (Cert.ReferenceIdeal.RefArgs.arg_kept14 M c),
      (h c _).trans (Cert.ReferenceIdeal.RefArgs.arg_kept15 M c),
      (h c _).trans (Cert.ReferenceIdeal.RefArgs.arg_kept16 M c),
      (h c _).trans (Cert.ReferenceIdeal.RefArgs.arg_kept17 M c)⟩)
    (Cert.ReferenceIdeal.RefRun.run_after (F := Ideal) M ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
